-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1024 : Shape := ⟨1, ![1024]⟩
abbrev S512x256 : Shape := ⟨2, ![512, 256]⟩
abbrev S512 : Shape := ⟨1, ![512]⟩
abbrev S512x1 : Shape := ⟨2, ![512, 1]⟩
abbrev S256x512 : Shape := ⟨2, ![256, 512]⟩
abbrev S1024x512 : Shape := ⟨2, ![1024, 512]⟩
abbrev S1x512 : Shape := ⟨2, ![1, 512]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1024x1, .i32⟩
  | .local _ .vmem, ⟨4, _⟩ => ⟨S1024x1, .i32⟩
  | .local _ .vmem, ⟨5, _⟩ => ⟨S1x8192, .i32⟩
  | .local _ .vmem, ⟨6, _⟩ => ⟨S1024x1, .f32⟩
  | .local _ .vmem, ⟨7, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v20 : BitVec 32 := Scalar.addi c0_i32 c16_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v33 : BitVec 32 := Scalar.muli arg6 c512_i32
  v33
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v33 : BitVec 32 := Scalar.muli arg6 c512_i32
  let v34 : BitVec 32 := v33
  let v35 : Index := Scalar.indexCast v34
  let c0_14 : Index := 0#32
  ![v35.toNat, 0]
def k0_off2 (k0_t1 : Fin k0_t1_loop.trips) : Fin 2 → Nat :=
  let c0_19 : Index := 0#32
  let c0_i32 : BitVec 32 := 0#32
  let c1_i32 : BitVec 32 := 1#32
  let arg6 : BitVec 32 := Scf.iv c0_i32 c1_i32 k0_t1
  let c512_i32 : BitVec 32 := 512#32
  let v33 : BitVec 32 := Scalar.muli arg6 c512_i32
  let v34 : BitVec 32 := v33
  let v50 : Index := Scalar.indexCast v34
  ![0, v50.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S8192x1 : S8192.ShapeCasts S8192x1
  shapeCasts_S8192_S1x8192 : S8192.ShapeCasts S1x8192
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1_d0_w32 : S1024x1.Iotas .tc 32 [0]
  h_S512x256 : 0 < S512x256.numel
  reduces_S512x256_S512 : S512x256.Reduces [1] S512
  shapeCasts_S512_S512x1 : S512.ShapeCasts S512x1
  broadcasts_S512x1_S512x256 : S512x1.Broadcasts S512x256
  transposes_S512x256_p1_0_S256x512 : S512x256.Transposes [1, 0] S256x512
  h_S1x512 : 0 < S1x512.numel
  shapeCasts_S1x512_S1x512 : S1x512.ShapeCasts S1x512
  iota_S1x512_d1_w32 : S1x512.Iotas .tc 32 [1]
  broadcasts_S1024x1_S1024x512 : S1024x1.Broadcasts S1024x512
  broadcasts_S1x512_S1024x512 : S1x512.Broadcasts S1024x512
  reduces_S1024x512_S1024 : S1024x512.Reduces [1] S1024
  natLt_1_32 : 1 < 32
  reducesTo_S8192x1_S_d0_1 : S8192x1.ReducesTo [0, 1] S_
  h_S_ : 0 < S_.numel
  dot_S1024x256_S256x512_S1024x512_1_0_0_1_n_n_wf : DotDims.WF S1024x256 S256x512 S1024x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x256.size a ≤ S8192x256.size a
  k0_off2_inb : ∀ k0_t1 : Fin k0_t1_loop.trips, ∀ a, (k0_off2 k0_t1) a + S1x512.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x1, .i32⟩
  | .hbm, ⟨33, _⟩ => ⟨S1x8192, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S8192x8192, .i32⟩
  | .hbm, ⟨38, _⟩ => ⟨S8192x8192, .i32⟩
  | .hbm, ⟨39, _⟩ => ⟨S_, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S8192x8192, .i1⟩
  | .hbm, ⟨44, _⟩ => ⟨S8192x8192, .i1⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S8192x8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .i1⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_call1_cst : Ref sig .tc := ⟨.hbm, 17, rfl⟩
abbrev main_call1_v0 : Ref sig .tc := ⟨.hbm, 18, rfl⟩
abbrev main_call1_cst_0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_cst_1 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_call2_v0 : Ref sig .tc := ⟨.hbm, 60, rfl⟩
abbrev main_call2_v1 : Ref sig .tc := ⟨.hbm, 61, rfl⟩
abbrev main_v32 : Ref sig .tc := ⟨.hbm, 62, rfl⟩
abbrev main_cst_6 : Ref sig .tc := ⟨.hbm, 63, rfl⟩
abbrev main_v33 : Ref sig .tc := ⟨.hbm, 64, rfl⟩
abbrev main_cst_7 : Ref sig .tc := ⟨.hbm, 65, rfl⟩
abbrev main_v34 : Ref sig .tc := ⟨.hbm, 66, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KernelBody.lean ====
/-
  The kernel region's proof data and body, for the frame of the kernel program read at machine words.

  The pallas_call runs on a grid of eight points with five windows. Windows 0 and 1 sit on ONE array (the first
  argument, 8192 rows of 256): window 0 takes the block of 1024 rows the point names, window 1 the whole array, staged
  once at the first point. Window 2 takes 1024 of the labels as a column, window 3 all 8192 as a row (staged once),
  window 4 is the output's block of 1024 per-row losses, written back at every point.

  At a point the body reads its block of rows and labels, then runs sixteen trips over the whole array, 512 rows at a
  time, carrying four vectors per row of the block: the running maximum of the scaled similarities, the sum of their
  exponentials rescaled to that maximum, the sum of the similarities to the rows of equal label, and the count of
  those. After the last trip it stores, per row, the log-sum-exp less the mean similarity to the positives (zero
  where there is none). What the output buffer holds after the point is that stored vector, named here by the
  recursion the loop's invariant is stated over (`outAt`, `outAt_eq`); each input buffer holds its window's block
  before and after, whether or not the point fetched it.
-/
import proofs.«123914_j68728066671109_1_alg».proof.Proof.Gen.Kernel.Launch
import proofs.«123914_j68728066671109_1_alg».proof.Proof.Gen.Kernel.Points
import proofs.«123914_j68728066671109_1_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The valuations: at launch, and when the region is entered -/

/-- Core `c`'s buffers at launch, as the host operations' valuation; -/
abbrev V₀ (c : Dev nD) : Valuation τ sig (Elt F) := fun b => m ((c : Dev nD), b)
/-- after the two reshapes of the second argument, as a valuation; -/
abbrev W₁ (c : Dev nD) : Valuation τ sig (Elt F) := StableHlo.after hostOps0 (V₀ m c)
/-- and the same read at the TensorCore's references: what the region's proof data take. -/
abbrev V (c : Dev nD) (b : Ref sig .tc) : Buf (Elt F) ((c : Thread nD τ).loc b) := W₁ m c b

/-! ## The windows' blocks -/

/-- Window `w`'s block at point `t`, read off its array as the region finds it. Windows 0 and 1 read the same
    array: window 0 a block of 1024 rows, window 1 all of it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The two-dimensional zero offsets, however spelt, are zero. -/
theorem hz2 : (![0, 0] : Fin 2 → Nat) = fun _ => 0 := by
  funext a; fin_cases a <;> rfl

/-- The value the body stores into its output buffer, from what its four input buffers read (`x0`, `X2`, `x10`,
    `X4`): the loop's four carried vectors after the last trip — the running maximum, the sum of exponentials, the
    sum over the positives and their count, started at `-∞, 0, 0, 0` — combined by the last payload (the log of the
    sum plus the maximum, less the positives' mean, where there is a positive). The carried state is the recursion
    the loop's invariant is stated over; the buffers the trips read enter it as raw contents. -/
def outOf (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole)
    (x0 : Vec F S1024x256 .f32) (X2 : Vec F S8192x256 .f32) (x10 : Vec F S1024x1 .i32) (X4 : Vec F S1x8192 .i32) : Vec F S1024x1 .f32 :=
  k0_pay9
    (st_k0_t1 (F := F) Variants.none c none i arg1 harg1 arg2 harg2 arg3 harg3 arg4 harg4 arg5 harg5 x0 x10 (harg2.unread X2) (harg4.unread X4) (k0_pay4, k0_pay5, k0_pay6, k0_pay7) k0_t1_loop.trips).1
    (st_k0_t1 (F := F) Variants.none c none i arg1 harg1 arg2 harg2 arg3 harg3 arg4 harg4 arg5 harg5 x0 x10 (harg2.unread X2) (harg4.unread X4) (k0_pay4, k0_pay5, k0_pay6, k0_pay7) k0_t1_loop.trips).2.1
    (st_k0_t1 (F := F) Variants.none c none i arg1 harg1 arg2 harg2 arg3 harg3 arg4 harg4 arg5 harg5 x0 x10 (harg2.unread X2) (harg4.unread X4) (k0_pay4, k0_pay5, k0_pay6, k0_pay7) k0_t1_loop.trips).2.2.1
    (st_k0_t1 (F := F) Variants.none c none i arg1 harg1 arg2 harg2 arg3 harg3 arg4 harg4 arg5 harg5 x0 x10 (harg2.unread X2) (harg4.unread X4) (k0_pay4, k0_pay5, k0_pay6, k0_pay7) k0_t1_loop.trips).2.2.2

/-! ## The body's triple -/

set_option maxHeartbeats 2000000 in
/-- The kernel body on whole staging memrefs, the four inputs' at read contents and the output's at anything, runs to
    the continuation holding the inputs' as they were and the output's at `outOf` of the inputs': the body
    loads its first and third memref arguments whole (windows 0 and 2: the block of rows and of labels), runs the
    counted loop — sixteen trips, each loading 512 rows of its second argument and 512 columns of its fourth
    (windows 1 and 3: the whole arrays), the four carried vectors following the invariant's recursion —, then loads
    the output buffer and overwrites all of it. A load through the whole rectangle reads the contents, and the one store
    through it leaves its payload. -/
theorem sound_kernel (c : Dev nD) (E : Set ℕ) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole)
    (x0 : Vec F S1024x256 .f32) (X2 : Vec F S8192x256 .f32) (x10 : Vec F S1024x1 .i32) (X4 : Vec F S1x8192 .i32) (K : PUnit → sProp 𝕄) :
    iprop(owns (c : Thread nD τ) arg1 fullShare x0 ∗ owns (c : Thread nD τ) arg2 fullShare X2 ∗ owns (c : Thread nD τ) arg3 fullShare x10
        ∗ owns (c : Thread nD τ) arg4 fullShare X4 ∗ (∃ d, owns (c : Thread nD τ) arg5 fullShare d)
        ∗ (iprop(owns (c : Thread nD τ) arg1 fullShare x0 ∗ owns (c : Thread nD τ) arg2 fullShare X2 ∗ owns (c : Thread nD τ) arg3 fullShare x10
            ∗ owns (c : Thread nD τ) arg4 fullShare X4
            ∗ owns (c : Thread nD τ) arg5 fullShare (outOf c i arg1 harg1 arg2 harg2 arg3 harg3 arg4 harg4 arg5 harg5 x0 X2 x10 X4)) -∗ K ⟨⟩))
      ⊢ wp frame (wpE (defs₀ (F := F)) Variants.none c none) E (cc0__contrastive_kernel i arg1 harg1 arg2 harg2 arg3 harg3 arg4 harg4 arg5 harg5) K := by
  have hv0 : View.readAt (Elt F) arg1.view (Rect.unit (s := S1024x256) ![0, 0] S1024x256.size inb_S1024x256_S1024x256_0_0).toLoadRect (harg1.unread x0) = x0 := by
    rw [View.readAt_eq_ld, harg1.read_unread]; exact View.ld_unit_zero hz2 inb_S1024x256_S1024x256_0_0 x0
  have hv10 : View.readAt (Elt F) arg3.view (Rect.unit (s := S1024x1) ![0, 0] S1024x1.size inb_S1024x1_S1024x1_0_0).toLoadRect (harg3.unread x10) = x10 := by
    rw [View.readAt_eq_ld, harg3.read_unread]; exact View.ld_unit_zero hz2 inb_S1024x1_S1024x1_0_0 x10
  simp only [cc0__contrastive_kernel_eq_skeleton]; unfold cc0__contrastive_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1
  obtain rfl := harg2.eq_unread hf2
  obtain rfl := harg3.eq_unread hf3
  obtain rfl := harg4.eq_unread hf4
  sl_exec
  sl_step
  try rw [hv0]
  try rw [hv10]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (fun y => ⟨_, List.mem_singleton_self _, View.mem_set_unit_zero hz2 inb_S1024x1_S1024x1_0_0 y⟩), View.canon_unit_zero hz2 inb_S1024x1_S1024x1_0_0]
  rfl

/-! ## What the output's buffer holds after each point -/

/-- What the body stores at point `t`: `outOf` at the point's staging memrefs and the four windows' blocks there —
    window 0's block of 1024 rows, window 2's block of 1024 labels, and the whole of windows 1 and 3. -/
def outAt (c : Dev nD) (t : Fin cfg0.N) : Vec F S1024x1 .f32 :=
  outOf c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (iblk m c 2 t) (iblk m c 3 t)

/-- The same, spelt out: the last payload of the four components of the loop's carried state after its last trip,
    the state started at the four initial payloads, run at the point's coordinates, staging memrefs and blocks. -/
theorem outAt_eq (c : Dev nD) (t : Fin cfg0.N) :
    outAt m c t = k0_pay9
      (st_k0_t1 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 2 t)
        ((hstage0_1 ((cfg0.slots t 1).cast nbuf0_1)).unread (iblk m c 1 t)) ((hstage0_3 ((cfg0.slots t 3).cast nbuf0_3)).unread (iblk m c 3 t))
        (k0_pay4, k0_pay5, k0_pay6, k0_pay7) k0_t1_loop.trips).1
      (st_k0_t1 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 2 t)
        ((hstage0_1 ((cfg0.slots t 1).cast nbuf0_1)).unread (iblk m c 1 t)) ((hstage0_3 ((cfg0.slots t 3).cast nbuf0_3)).unread (iblk m c 3 t))
        (k0_pay4, k0_pay5, k0_pay6, k0_pay7) k0_t1_loop.trips).2.1
      (st_k0_t1 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 2 t)
        ((hstage0_1 ((cfg0.slots t 1).cast nbuf0_1)).unread (iblk m c 1 t)) ((hstage0_3 ((cfg0.slots t 3).cast nbuf0_3)).unread (iblk m c 3 t))
        (k0_pay4, k0_pay5, k0_pay6, k0_pay7) k0_t1_loop.trips).2.2.1
      (st_k0_t1 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 2 t)
        ((hstage0_1 ((cfg0.slots t 1).cast nbuf0_1)).unread (iblk m c 1 t)) ((hstage0_3 ((cfg0.slots t 3).cast nbuf0_3)).unread (iblk m c 3 t))
        (k0_pay4, k0_pay5, k0_pay6, k0_pay7) k0_t1_loop.trips).2.2.2 := by
  unfold outAt outOf; rfl

/-! ## The pipeline's proof data -/

/-- The proof data on core `c`: the arrays as the region finds them; after the body at point `t` each input's
    buffer at its block (windows 1 and 3: the whole array, at every point) and the output's at `outAt`; the
    invariant the scoped rest and the generator register, untouched; nothing owed. Windows 0 and 1 read one array:
    each holds a half of it; the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- Each input's current staging buffer holds its block at every point, fetched there or not: an input not fetched
    at a point has the block index it had at the point before, and the body left the block in place. So windows 1
    and 3, fetched at the first point only, hold the whole array at all eight. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- The output's buffer holds anything when the body runs: every point writes the block back, so each point starts
    from a buffer nothing has filled. -/
theorem before0_4 (c : Dev nD) (t : Fin cfg0.N) (d) : (dats m 0 c).before 4 t d = d :=
  (dats m 0 c).before_out_reset 4 rfl t
    (by by_cases h0 : t.val = 0
        · exact .inl h0
        · exact .inr ⟨h0, flush0_4 _⟩) d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, the output's anything, so the kernel's triple
    applies; the invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outAt
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.HandFrame

end
-- ==== Proof.KernelRun.lean ====
/-
  The frame of the kernel program read at machine words: @main as three segments, and the launch.

  @main is two reshapes of the label vector (into a column and into a row), ONE kernel region, then four host
  operations: a zero, the sum of the region's 8192 per-row losses, the constant 8192, and their quotient. Between
  segments a core holds every unscoped buffer at a valuation — the launch memory, then that after the reshapes, then
  that with the output array as the region's eight write-backs leave it, then that after the last four operations —
  beside its generator register and nothing owed.

  The region's five windows stand on FOUR buffers: windows 0 and 1 both read the first argument. Its buffer enters
  the region whole; the full share is split into two halves, one per window, and since neither window writes, both
  halves come back at the entry contents and are joined again. Every other array is held whole by its one window.
  The arguments end as launched: no host operation writes one, and the region writes only its output array.
-/
import proofs.«123914_j68728066671109_1_alg».proof.Proof.KernelBody
import proofs.«123914_j68728066671109_1_alg».proof.Proof.Gen.Kernel.Launch
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents when the region is left, and after the last host operations -/

open Classical in
/-- Core `c`'s buffers when the region is left: the output array at what the eight write-backs leave, every
    other buffer as the region found it (the inputs are never written). -/
def W₂ (c : Dev nD) : Valuation τ sig (Elt F) := fun b =>
  if h : Proc.devRef .tc main_v2 = b then
    cast (congrArg (fun b' : DevRef τ sig => b'.ty.Contents (Elt F)) h) ((dats m 0 c).arrAt 4 cfg0.N)
  else W₁ m c b
/-- The same read at the TensorCore's references. -/
abbrev V₂ (c : Dev nD) (b : Ref sig .tc) : Buf (Elt F) ((c : Thread nD τ).loc b) := W₂ m c b
/-- After the four host operations that follow the region: the sum of the output array over its 8192 entries,
    divided by 8192. -/
abbrev W₃ (c : Dev nD) : Valuation τ sig (Elt F) := StableHlo.after hostOps1 (W₂ m c)

theorem W₂_v2 (c : Dev nD) : W₂ m c (Proc.devRef .tc main_v2) = (dats m 0 c).arrAt 4 cfg0.N := by
  unfold W₂; rw [dif_pos rfl]; rfl
theorem W₂_of_ne (c : Dev nD) (b : Ref sig .tc) (hb : b ≠ main_v2) : W₂ m c (Proc.devRef .tc b) = W₁ m c (Proc.devRef .tc b) := by
  unfold W₂; rw [dif_neg fun e => hb (Proc.devRef_injective _ e).symm]

/-- An input window's array is never written: at the end it holds what the region found. -/
theorem arrAt_in0 (c : Dev nD) (n : Nat) : (dats m 0 c).arrAt 0 n = V m c main_arg0 := ((dats m 0 c).arrAt_in 0 rfl n).trans (A_eq m c 0)
theorem arrAt_in1 (c : Dev nD) (n : Nat) : (dats m 0 c).arrAt 1 n = V m c main_arg0 := ((dats m 0 c).arrAt_in 1 rfl n).trans (A_eq m c 1)
theorem arrAt_in2 (c : Dev nD) (n : Nat) : (dats m 0 c).arrAt 2 n = V m c main_v0 := ((dats m 0 c).arrAt_in 2 rfl n).trans (A_eq m c 2)
theorem arrAt_in3 (c : Dev nD) (n : Nat) : (dats m 0 c).arrAt 3 n = V m c main_v1 := ((dats m 0 c).arrAt_in 3 rfl n).trans (A_eq m c 3)

/-! ### The arguments end as launched: no host operation writes one, and the region writes only its output -/

theorem W₁_arg0 (c : Dev nD) : W₁ m c (Proc.devRef .tc main_arg0) = m ((c : Thread nD τ).loc main_arg0) :=
  StableHlo.after_of_forall_not_mem (b := Proc.devRef .tc main_arg0) hostOps0 (V₀ m c) (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W₁_arg1 (c : Dev nD) : W₁ m c (Proc.devRef .tc main_arg1) = m ((c : Thread nD τ).loc main_arg1) :=
  StableHlo.after_of_forall_not_mem (b := Proc.devRef .tc main_arg1) hostOps0 (V₀ m c) (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W₃_arg0 (c : Dev nD) : W₃ m c (Proc.devRef .tc main_arg0) = m ((c : Thread nD τ).loc main_arg0) :=
  (StableHlo.after_of_forall_not_mem (b := Proc.devRef .tc main_arg0) hostOps1 (W₂ m c) (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans
    ((W₂_of_ne m c main_arg0 (by decide)).trans (W₁_arg0 m c))
theorem W₃_arg1 (c : Dev nD) : W₃ m c (Proc.devRef .tc main_arg1) = m ((c : Thread nD τ).loc main_arg1) :=
  (StableHlo.after_of_forall_not_mem (b := Proc.devRef .tc main_arg1) hostOps1 (W₂ m c) (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans
    ((W₂_of_ne m c main_arg1 (by decide)).trans (W₁_arg1 m c))

/-! ## The windows' arrays, dealt from the buffers behind them and put back

Four buffers stand behind the five windows. The first argument's is read through two windows, so its full share is
split in two halves on the way in and the halves, still at the same contents, are joined on the way out. -/

/-- The distinct buffers behind the windows' arrays, one by one. -/
theorem arrBufs_eq (c : Dev nD) (Vf : (b : Ref sig .tc) → Buf (Elt F) ((c : Thread nD τ).loc b)) :
    (Pipeline.arrBufs (Ix := Unit) (Name := ℕ) (U := UR sig nD τ) (Lvl := ℕ) spec0 c Vf : sProp 𝕄)
      = iprop((((c : Thread nD τ).loc main_arg0) ↦{fullShare} Vf main_arg0) ∗ (((c : Thread nD τ).loc main_v0) ↦{fullShare} Vf main_v0)
          ∗ (((c : Thread nD τ).loc main_v1) ↦{fullShare} Vf main_v1) ∗ (((c : Thread nD τ).loc main_v2) ↦{fullShare} Vf main_v2)) := by
  unfold Pipeline.arrBufs
  exact bigSep_eq_bigSepL_of_eq [main_arg0, main_v0, main_v1, main_v2] (by decide) (by decide) _

/-- The proof data's arrays, window by window: the two windows on the first argument at a half each. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl]
  rw [(arr_whole0 0).set_eq_univ, (arr_whole0 2).set_eq_univ, (arr_whole0 3).set_eq_univ, (arr_whole0 4).set_eq_univ]

/-- ENTRY: the buffers behind the arrays, whole, give the proof data's arrays at the region's entry contents. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_chain]
  iintro ⟨H0, H2, H3, H4⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  isplitl [H3]; · iexact H3
  iexact H4

/-- EXIT: the proof data's arrays after the last point are those buffers, whole, at the exit contents. -/
theorem arrBufs_of_arrays (c : Dev nD) :
    (dats m 0 c).arrays ((dats m 0 c).arrAt · cfg0.N)
      ⊢ (Pipeline.arrBufs (Ix := Unit) (Name := ℕ) (U := UR sig nD τ) (Lvl := ℕ) spec0 c (V₂ m c) : sProp 𝕄) := by
  rw [arrBufs_eq, arrays_chain]
  rw [arrAt_in0, arrAt_in1, arrAt_in2, arrAt_in3]
  rw [show V₂ m c main_arg0 = V m c main_arg0 from W₂_of_ne m c main_arg0 (by decide),
    show V₂ m c main_v0 = V m c main_v0 from W₂_of_ne m c main_v0 (by decide),
    show V₂ m c main_v1 = V m c main_v1 from W₂_of_ne m c main_v1 (by decide),
    show V₂ m c main_v2 = (dats m 0 c).arrAt 4 cfg0.N from W₂_v2 m c]
  iintro ⟨Hl, Hr, H2, H3, H4⟩
  isplitl [Hl Hr]
  · iapply (pointsTo_share (PosShare.mem_left_op_right fullShare)).2
    isplitl [Hl]; · iexact Hl
    iexact Hr
  isplitl [H2]; · iexact H2
  isplitl [H3]; · iexact H3
  iexact H4

/-- Every unscoped buffer at the entry contents: the arrays and the rest. -/
theorem entry_split (c : Dev nD) :
    (StableHlo.held (c : Thread nD τ) (Pipeline.ucRefs τ sig) (W₁ m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [← Pipeline.unscopedBufs_held c (W₁ m c), Pipeline.unscopedBufs_split₀ cfgs (0 : Fin 1) winFacts₀0.arr_unscoped c (V m c)]
  exact sep_mono (arrays_of_arrBufs m c) .rfl

/-- The arrays after the last point and the rest are every unscoped buffer at the exit contents. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W₂ m c) : sProp 𝕄) := by
  rw [← Pipeline.unscopedBufs_held c (W₂ m c), Pipeline.unscopedBufs_split₀ cfgs (0 : Fin 1) winFacts₀0.arr_unscoped c (V₂ m c)]
  refine sep_mono (arrBufs_of_arrays m c) (Entails.of_eq ?_)
  rw [unscopedRest0_eq, unscopedRest0_eq]
  rw [show V₂ m c main_arg1 = V m c main_arg1 from W₂_of_ne m c main_arg1 (by decide),
    show V₂ m c main_cst = V m c main_cst from W₂_of_ne m c main_cst (by decide),
    show V₂ m c main_v3 = V m c main_v3 from W₂_of_ne m c main_v3 (by decide),
    show V₂ m c main_cst_0 = V m c main_cst_0 from W₂_of_ne m c main_cst_0 (by decide),
    show V₂ m c main_v4 = V m c main_v4 from W₂_of_ne m c main_v4 (by decide)]

/-! ## The thread state, and the segments of @main -/

/-- The prefetched tables' admissible contents: no table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the region's
    invariant takes it in and gives it back) and its `owes`, at nothing. -/
abbrev R (c : Dev nD) : sProp 𝕄 := iprop((∃ r, prngReg c r) ∗ ∃ W, owes (c : Thread nD τ) (0 : CellTallies nD τ sig Unit) W)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations as a segment: every unscoped buffer held at the contents `W`, `R` riding along; it
    ends with them at the operations' fold over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the final contents, the generator register at
    some state. -/
abbrev Tₙ (c : Dev nD) : sProp 𝕄 := iprop(StableHlo.held (c : Thread nD τ) (Pipeline.ucRefs τ sig) (W₃ m c) ∗ ∃ r, prngReg c r)

set_option backward.isDefEq.respectTransparency.types false in
/-- THE REGION over the thread state: entered from every unscoped buffer at the contents the two reshapes leave, left
    with the output array at what the write-backs leave and every other buffer as entered. The arrays are dealt out of
    the unscoped buffers — the first argument's full share split between its two windows — and put back at the exit;
    the generator register goes into the invariant and comes out; nothing is owed; the kernel has no semaphore of its
    own. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W₁ m c) ∗ R c)
  post c := iprop(StableHlo.held (c : Thread nD τ) (Pipeline.ucRefs τ sig) (W₂ m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The two reshapes, from the launch contents; -/
abbrev seg0 : Pipeline.HostSeg (Name := ℕ) (U := UR sig nD τ) (pcfgs (F := F)) defs₀ 𝒱₀ L lv :=
  hseg hostOps0 hostOps0_sub hostOps0_fresh (V₀ m)
/-- and the sum and the division, from what the region leaves. -/
abbrev seg1 : Pipeline.HostSeg (Name := ℕ) (U := UR sig nD τ) (pcfgs (F := F)) defs₀ 𝒱₀ L lv :=
  hseg hostOps1 hostOps1_sub hostOps1_fresh (W₂ m)

/-- @main's three segments in order. -/
abbrev segs : List (Pipeline.Seg (pcfgs (F := F)) adm (dats m) () defs₀ 𝒱₀ L lv) :=
  [.host (seg0 m), .region (reg0 m), .host (seg1 m)]

set_option backward.isDefEq.respectTransparency.types false in
/-- At the compiled mesh, for any float values, from any memory with zero counters: every weakly fair execution of
    @main on the TensorCores terminates, nothing faulting, and every final state has the result at the last host
    operations' fold over what the region leaves, and both arguments as launched. -/
theorem run_main : θ_run defs (onTc (τ := τ) (main (F := F))) ⟨m, fun _ => 0, ρ⟩ (fun r => ∀ c : Dev nD,
      r.2.mem ((c.tc : Thread nD τ).loc main_v4) = W₃ m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (W₃ m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W₃ m c b)
    (hfin := fun c s' => by
      iintro ⟨⟨Hh, -⟩, HSI⟩
      unfold StableHlo.held
      imodintro
      iapply (pointsTo_read_all (Pipeline.ucRefs τ sig) (fun b => (((c : Thread nD τ)).1, b)) (W₃ m c) s')
      isplitl [Hh] <;> iassumption)
    (hQ := fun s h c =>
      ⟨h c _ (mem_uc main_v4 (by decide)),
       (h c _ (mem_uc main_arg0 (by decide))).trans (W₃_arg0 m c),
       (h c _ (mem_uc main_arg1 (by decide))).trans (W₃_arg1 m c)⟩)

/-- THE FRAME: every weakly fair execution of @main terminates, nothing faulting, and both argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.HandFrame

end
-- ==== Proof.KernelIdealBody.lean ====
/-
  The kernel region's proof data and body, for the frame of the idealized kernel program.

  The pallas_call runs on a grid of eight points with five windows. Windows 0 and 1 sit on ONE array (the first
  argument, 8192 rows of 256): window 0 takes the block of 1024 rows the point names, window 1 the whole array, staged
  once at the first point. Window 2 takes 1024 of the labels as a column, window 3 all 8192 as a row (staged once),
  window 4 is the output's block of 1024 per-row losses, written back at every point.

  At a point the body reads its block of rows and labels, then runs sixteen trips over the whole array, 512 rows at a
  time, carrying four vectors per row of the block: the running maximum of the scaled similarities, the sum of their
  exponentials rescaled to that maximum, the sum of the similarities to the rows of equal label, and the count of
  those. After the last trip it stores, per row, the log-sum-exp less the mean similarity to the positives (zero
  where there is none). What the output buffer holds after the point is that stored vector, named here by the
  recursion the loop's invariant is stated over (`outAt`, `outAt_eq`); each input buffer holds its window's block
  before and after, whether or not the point fetched it.
-/
import proofs.«123914_j68728066671109_1_alg».proof.Proof.Gen.KernelIdeal.Launch
import proofs.«123914_j68728066671109_1_alg».proof.Proof.Gen.KernelIdeal.Points
import proofs.«123914_j68728066671109_1_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The valuations: at launch, and when the region is entered -/

/-- Core `c`'s buffers at launch, as the host operations' valuation; -/
abbrev V₀ (c : Dev nD) : Valuation τ sig (Elt F) := fun b => m ((c : Dev nD), b)
/-- after the two reshapes of the second argument, as a valuation; -/
abbrev W₁ (c : Dev nD) : Valuation τ sig (Elt F) := StableHlo.after hostOps0 (V₀ m c)
/-- and the same read at the TensorCore's references: what the region's proof data take. -/
abbrev V (c : Dev nD) (b : Ref sig .tc) : Buf (Elt F) ((c : Thread nD τ).loc b) := W₁ m c b

/-! ## The windows' blocks -/

/-- Window `w`'s block at point `t`, read off its array as the region finds it. Windows 0 and 1 read the same
    array: window 0 a block of 1024 rows, window 1 all of it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The two-dimensional zero offsets, however spelt, are zero. -/
theorem hz2 : (![0, 0] : Fin 2 → Nat) = fun _ => 0 := by
  funext a; fin_cases a <;> rfl

/-- The value the body stores into its output buffer, from what its four input buffers read (`x0`, `X2`, `x10`,
    `X4`): the loop's four carried vectors after the last trip — the running maximum, the sum of exponentials, the
    sum over the positives and their count, started at `-∞, 0, 0, 0` — combined by the last payload (the log of the
    sum plus the maximum, less the positives' mean, where there is a positive). The carried state is the recursion
    the loop's invariant is stated over; the buffers the trips read enter it as raw contents. -/
def outOf (c : Dev nD) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole)
    (x0 : Vec F S1024x256 .f32) (X2 : Vec F S8192x256 .f32) (x10 : Vec F S1024x1 .i32) (X4 : Vec F S1x8192 .i32) : Vec F S1024x1 .f32 :=
  k0_pay9
    (st_k0_t1 (F := F) Variants.none c none i arg1 harg1 arg2 harg2 arg3 harg3 arg4 harg4 arg5 harg5 x0 x10 (harg2.unread X2) (harg4.unread X4) (k0_pay4, k0_pay5, k0_pay6, k0_pay7) k0_t1_loop.trips).1
    (st_k0_t1 (F := F) Variants.none c none i arg1 harg1 arg2 harg2 arg3 harg3 arg4 harg4 arg5 harg5 x0 x10 (harg2.unread X2) (harg4.unread X4) (k0_pay4, k0_pay5, k0_pay6, k0_pay7) k0_t1_loop.trips).2.1
    (st_k0_t1 (F := F) Variants.none c none i arg1 harg1 arg2 harg2 arg3 harg3 arg4 harg4 arg5 harg5 x0 x10 (harg2.unread X2) (harg4.unread X4) (k0_pay4, k0_pay5, k0_pay6, k0_pay7) k0_t1_loop.trips).2.2.1
    (st_k0_t1 (F := F) Variants.none c none i arg1 harg1 arg2 harg2 arg3 harg3 arg4 harg4 arg5 harg5 x0 x10 (harg2.unread X2) (harg4.unread X4) (k0_pay4, k0_pay5, k0_pay6, k0_pay7) k0_t1_loop.trips).2.2.2

/-! ## The body's triple -/

set_option maxHeartbeats 2000000 in
/-- The kernel body on whole staging memrefs, the four inputs' at read contents and the output's at anything, runs to
    the continuation holding the inputs' as they were and the output's at `outOf` of the inputs': the body
    loads its first and third memref arguments whole (windows 0 and 2: the block of rows and of labels), runs the
    counted loop — sixteen trips, each loading 512 rows of its second argument and 512 columns of its fourth
    (windows 1 and 3: the whole arrays), the four carried vectors following the invariant's recursion —, then loads
    the output buffer and overwrites all of it. A load through the whole rectangle reads the contents, and the one store
    through it leaves its payload. -/
theorem sound_kernel (c : Dev nD) (E : Set ℕ) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole)
    (x0 : Vec F S1024x256 .f32) (X2 : Vec F S8192x256 .f32) (x10 : Vec F S1024x1 .i32) (X4 : Vec F S1x8192 .i32) (K : PUnit → sProp 𝕄) :
    iprop(owns (c : Thread nD τ) arg1 fullShare x0 ∗ owns (c : Thread nD τ) arg2 fullShare X2 ∗ owns (c : Thread nD τ) arg3 fullShare x10
        ∗ owns (c : Thread nD τ) arg4 fullShare X4 ∗ (∃ d, owns (c : Thread nD τ) arg5 fullShare d)
        ∗ (iprop(owns (c : Thread nD τ) arg1 fullShare x0 ∗ owns (c : Thread nD τ) arg2 fullShare X2 ∗ owns (c : Thread nD τ) arg3 fullShare x10
            ∗ owns (c : Thread nD τ) arg4 fullShare X4
            ∗ owns (c : Thread nD τ) arg5 fullShare (outOf c i arg1 harg1 arg2 harg2 arg3 harg3 arg4 harg4 arg5 harg5 x0 X2 x10 X4)) -∗ K ⟨⟩))
      ⊢ wp frame (wpE (defs₀ (F := F)) Variants.none c none) E (cc0__contrastive_kernel i arg1 harg1 arg2 harg2 arg3 harg3 arg4 harg4 arg5 harg5) K := by
  have hv0 : View.readAt (Elt F) arg1.view (Rect.unit (s := S1024x256) ![0, 0] S1024x256.size inb_S1024x256_S1024x256_0_0).toLoadRect (harg1.unread x0) = x0 := by
    rw [View.readAt_eq_ld, harg1.read_unread]; exact View.ld_unit_zero hz2 inb_S1024x256_S1024x256_0_0 x0
  have hv10 : View.readAt (Elt F) arg3.view (Rect.unit (s := S1024x1) ![0, 0] S1024x1.size inb_S1024x1_S1024x1_0_0).toLoadRect (harg3.unread x10) = x10 := by
    rw [View.readAt_eq_ld, harg3.read_unread]; exact View.ld_unit_zero hz2 inb_S1024x1_S1024x1_0_0 x10
  simp only [cc0__contrastive_kernel_eq_skeleton]; unfold cc0__contrastive_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  obtain rfl := harg1.eq_unread hf1
  obtain rfl := harg2.eq_unread hf2
  obtain rfl := harg3.eq_unread hf3
  obtain rfl := harg4.eq_unread hf4
  sl_exec
  sl_step
  try rw [hv0]
  try rw [hv10]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (fun y => ⟨_, List.mem_singleton_self _, View.mem_set_unit_zero hz2 inb_S1024x1_S1024x1_0_0 y⟩), View.canon_unit_zero hz2 inb_S1024x1_S1024x1_0_0]
  rfl

/-! ## What the output's buffer holds after each point -/

/-- What the body stores at point `t`: `outOf` at the point's staging memrefs and the four windows' blocks there —
    window 0's block of 1024 rows, window 2's block of 1024 labels, and the whole of windows 1 and 3. -/
def outAt (c : Dev nD) (t : Fin cfg0.N) : Vec F S1024x1 .f32 :=
  outOf c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (iblk m c 2 t) (iblk m c 3 t)

/-- The same, spelt out: the last payload of the four components of the loop's carried state after its last trip,
    the state started at the four initial payloads, run at the point's coordinates, staging memrefs and blocks. -/
theorem outAt_eq (c : Dev nD) (t : Fin cfg0.N) :
    outAt m c t = k0_pay9
      (st_k0_t1 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 2 t)
        ((hstage0_1 ((cfg0.slots t 1).cast nbuf0_1)).unread (iblk m c 1 t)) ((hstage0_3 ((cfg0.slots t 3).cast nbuf0_3)).unread (iblk m c 3 t))
        (k0_pay4, k0_pay5, k0_pay6, k0_pay7) k0_t1_loop.trips).1
      (st_k0_t1 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 2 t)
        ((hstage0_1 ((cfg0.slots t 1).cast nbuf0_1)).unread (iblk m c 1 t)) ((hstage0_3 ((cfg0.slots t 3).cast nbuf0_3)).unread (iblk m c 3 t))
        (k0_pay4, k0_pay5, k0_pay6, k0_pay7) k0_t1_loop.trips).2.1
      (st_k0_t1 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 2 t)
        ((hstage0_1 ((cfg0.slots t 1).cast nbuf0_1)).unread (iblk m c 1 t)) ((hstage0_3 ((cfg0.slots t 3).cast nbuf0_3)).unread (iblk m c 3 t))
        (k0_pay4, k0_pay5, k0_pay6, k0_pay7) k0_t1_loop.trips).2.2.1
      (st_k0_t1 (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 2 t)
        ((hstage0_1 ((cfg0.slots t 1).cast nbuf0_1)).unread (iblk m c 1 t)) ((hstage0_3 ((cfg0.slots t 3).cast nbuf0_3)).unread (iblk m c 3 t))
        (k0_pay4, k0_pay5, k0_pay6, k0_pay7) k0_t1_loop.trips).2.2.2 := by
  unfold outAt outOf; rfl

/-! ## The pipeline's proof data -/

/-- The proof data on core `c`: the arrays as the region finds them; after the body at point `t` each input's
    buffer at its block (windows 1 and 3: the whole array, at every point) and the output's at `outAt`; the
    invariant the scoped rest and the generator register, untouched; nothing owed. Windows 0 and 1 read one array:
    each holds a half of it; the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- Each input's current staging buffer holds its block at every point, fetched there or not: an input not fetched
    at a point has the block index it had at the point before, and the body left the block in place. So windows 1
    and 3, fetched at the first point only, hold the whole array at all eight. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- The output's buffer holds anything when the body runs: every point writes the block back, so each point starts
    from a buffer nothing has filled. -/
theorem before0_4 (c : Dev nD) (t : Fin cfg0.N) (d) : (dats m 0 c).before 4 t d = d :=
  (dats m 0 c).before_out_reset 4 rfl t
    (by by_cases h0 : t.val = 0
        · exact .inl h0
        · exact .inr ⟨h0, flush0_4 _⟩) d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, the output's anything, so the kernel's triple
    applies; the invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outAt
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.HandFrame

end
-- ==== Proof.KernelIdealRun.lean ====
/-
  The frame of the idealized kernel program: @main as three segments, and the launch.

  @main is two reshapes of the label vector (into a column and into a row), ONE kernel region, then four host
  operations: a zero, the sum of the region's 8192 per-row losses, the constant 8192, and their quotient. Between
  segments a core holds every unscoped buffer at a valuation — the launch memory, then that after the reshapes, then
  that with the output array as the region's eight write-backs leave it, then that after the last four operations —
  beside its generator register and nothing owed.

  The region's five windows stand on FOUR buffers: windows 0 and 1 both read the first argument. Its buffer enters
  the region whole; the full share is split into two halves, one per window, and since neither window writes, both
  halves come back at the entry contents and are joined again. Every other array is held whole by its one window.
  The arguments end as launched: no host operation writes one, and the region writes only its output array.
-/
import proofs.«123914_j68728066671109_1_alg».proof.Proof.KernelIdealBody
import proofs.«123914_j68728066671109_1_alg».proof.Proof.Gen.KernelIdeal.Launch
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents when the region is left, and after the last host operations -/

open Classical in
/-- Core `c`'s buffers when the region is left: the output array at what the eight write-backs leave, every
    other buffer as the region found it (the inputs are never written). -/
def W₂ (c : Dev nD) : Valuation τ sig (Elt F) := fun b =>
  if h : Proc.devRef .tc main_v2 = b then
    cast (congrArg (fun b' : DevRef τ sig => b'.ty.Contents (Elt F)) h) ((dats m 0 c).arrAt 4 cfg0.N)
  else W₁ m c b
/-- The same read at the TensorCore's references. -/
abbrev V₂ (c : Dev nD) (b : Ref sig .tc) : Buf (Elt F) ((c : Thread nD τ).loc b) := W₂ m c b
/-- After the four host operations that follow the region: the sum of the output array over its 8192 entries,
    divided by 8192. -/
abbrev W₃ (c : Dev nD) : Valuation τ sig (Elt F) := StableHlo.after hostOps1 (W₂ m c)

theorem W₂_v2 (c : Dev nD) : W₂ m c (Proc.devRef .tc main_v2) = (dats m 0 c).arrAt 4 cfg0.N := by
  unfold W₂; rw [dif_pos rfl]; rfl
theorem W₂_of_ne (c : Dev nD) (b : Ref sig .tc) (hb : b ≠ main_v2) : W₂ m c (Proc.devRef .tc b) = W₁ m c (Proc.devRef .tc b) := by
  unfold W₂; rw [dif_neg fun e => hb (Proc.devRef_injective _ e).symm]

/-- An input window's array is never written: at the end it holds what the region found. -/
theorem arrAt_in0 (c : Dev nD) (n : Nat) : (dats m 0 c).arrAt 0 n = V m c main_arg0 := ((dats m 0 c).arrAt_in 0 rfl n).trans (A_eq m c 0)
theorem arrAt_in1 (c : Dev nD) (n : Nat) : (dats m 0 c).arrAt 1 n = V m c main_arg0 := ((dats m 0 c).arrAt_in 1 rfl n).trans (A_eq m c 1)
theorem arrAt_in2 (c : Dev nD) (n : Nat) : (dats m 0 c).arrAt 2 n = V m c main_v0 := ((dats m 0 c).arrAt_in 2 rfl n).trans (A_eq m c 2)
theorem arrAt_in3 (c : Dev nD) (n : Nat) : (dats m 0 c).arrAt 3 n = V m c main_v1 := ((dats m 0 c).arrAt_in 3 rfl n).trans (A_eq m c 3)

/-! ### The arguments end as launched: no host operation writes one, and the region writes only its output -/

theorem W₁_arg0 (c : Dev nD) : W₁ m c (Proc.devRef .tc main_arg0) = m ((c : Thread nD τ).loc main_arg0) :=
  StableHlo.after_of_forall_not_mem (b := Proc.devRef .tc main_arg0) hostOps0 (V₀ m c) (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W₁_arg1 (c : Dev nD) : W₁ m c (Proc.devRef .tc main_arg1) = m ((c : Thread nD τ).loc main_arg1) :=
  StableHlo.after_of_forall_not_mem (b := Proc.devRef .tc main_arg1) hostOps0 (V₀ m c) (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W₃_arg0 (c : Dev nD) : W₃ m c (Proc.devRef .tc main_arg0) = m ((c : Thread nD τ).loc main_arg0) :=
  (StableHlo.after_of_forall_not_mem (b := Proc.devRef .tc main_arg0) hostOps1 (W₂ m c) (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans
    ((W₂_of_ne m c main_arg0 (by decide)).trans (W₁_arg0 m c))
theorem W₃_arg1 (c : Dev nD) : W₃ m c (Proc.devRef .tc main_arg1) = m ((c : Thread nD τ).loc main_arg1) :=
  (StableHlo.after_of_forall_not_mem (b := Proc.devRef .tc main_arg1) hostOps1 (W₂ m c) (List.forall_iff_forall_mem.mp (by
          simp only [List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans
    ((W₂_of_ne m c main_arg1 (by decide)).trans (W₁_arg1 m c))

/-! ## The windows' arrays, dealt from the buffers behind them and put back

Four buffers stand behind the five windows. The first argument's is read through two windows, so its full share is
split in two halves on the way in and the halves, still at the same contents, are joined on the way out. -/

/-- The distinct buffers behind the windows' arrays, one by one. -/
theorem arrBufs_eq (c : Dev nD) (Vf : (b : Ref sig .tc) → Buf (Elt F) ((c : Thread nD τ).loc b)) :
    (Pipeline.arrBufs (Ix := Unit) (Name := ℕ) (U := UR sig nD τ) (Lvl := ℕ) spec0 c Vf : sProp 𝕄)
      = iprop((((c : Thread nD τ).loc main_arg0) ↦{fullShare} Vf main_arg0) ∗ (((c : Thread nD τ).loc main_v0) ↦{fullShare} Vf main_v0)
          ∗ (((c : Thread nD τ).loc main_v1) ↦{fullShare} Vf main_v1) ∗ (((c : Thread nD τ).loc main_v2) ↦{fullShare} Vf main_v2)) := by
  unfold Pipeline.arrBufs
  exact bigSep_eq_bigSepL_of_eq [main_arg0, main_v0, main_v1, main_v2] (by decide) (by decide) _

/-- The proof data's arrays, window by window: the two windows on the first argument at a half each. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl]
  rw [(arr_whole0 0).set_eq_univ, (arr_whole0 2).set_eq_univ, (arr_whole0 3).set_eq_univ, (arr_whole0 4).set_eq_univ]

/-- ENTRY: the buffers behind the arrays, whole, give the proof data's arrays at the region's entry contents. -/
theorem arrays_of_arrBufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_chain]
  iintro ⟨H0, H2, H3, H4⟩
  ihave H01 := (pointsTo_share (PosShare.mem_left_op_right fullShare)).1 $$ H0
  icases H01 with ⟨Hl, Hr⟩
  isplitl [Hl]; · iexact Hl
  isplitl [Hr]; · iexact Hr
  isplitl [H2]; · iexact H2
  isplitl [H3]; · iexact H3
  iexact H4

/-- EXIT: the proof data's arrays after the last point are those buffers, whole, at the exit contents. -/
theorem arrBufs_of_arrays (c : Dev nD) :
    (dats m 0 c).arrays ((dats m 0 c).arrAt · cfg0.N)
      ⊢ (Pipeline.arrBufs (Ix := Unit) (Name := ℕ) (U := UR sig nD τ) (Lvl := ℕ) spec0 c (V₂ m c) : sProp 𝕄) := by
  rw [arrBufs_eq, arrays_chain]
  rw [arrAt_in0, arrAt_in1, arrAt_in2, arrAt_in3]
  rw [show V₂ m c main_arg0 = V m c main_arg0 from W₂_of_ne m c main_arg0 (by decide),
    show V₂ m c main_v0 = V m c main_v0 from W₂_of_ne m c main_v0 (by decide),
    show V₂ m c main_v1 = V m c main_v1 from W₂_of_ne m c main_v1 (by decide),
    show V₂ m c main_v2 = (dats m 0 c).arrAt 4 cfg0.N from W₂_v2 m c]
  iintro ⟨Hl, Hr, H2, H3, H4⟩
  isplitl [Hl Hr]
  · iapply (pointsTo_share (PosShare.mem_left_op_right fullShare)).2
    isplitl [Hl]; · iexact Hl
    iexact Hr
  isplitl [H2]; · iexact H2
  isplitl [H3]; · iexact H3
  iexact H4

/-- Every unscoped buffer at the entry contents: the arrays and the rest. -/
theorem entry_split (c : Dev nD) :
    (StableHlo.held (c : Thread nD τ) (Pipeline.ucRefs τ sig) (W₁ m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [← Pipeline.unscopedBufs_held c (W₁ m c), Pipeline.unscopedBufs_split₀ cfgs (0 : Fin 1) winFacts₀0.arr_unscoped c (V m c)]
  exact sep_mono (arrays_of_arrBufs m c) .rfl

/-- The arrays after the last point and the rest are every unscoped buffer at the exit contents. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W₂ m c) : sProp 𝕄) := by
  rw [← Pipeline.unscopedBufs_held c (W₂ m c), Pipeline.unscopedBufs_split₀ cfgs (0 : Fin 1) winFacts₀0.arr_unscoped c (V₂ m c)]
  refine sep_mono (arrBufs_of_arrays m c) (Entails.of_eq ?_)
  rw [unscopedRest0_eq, unscopedRest0_eq]
  rw [show V₂ m c main_arg1 = V m c main_arg1 from W₂_of_ne m c main_arg1 (by decide),
    show V₂ m c main_cst = V m c main_cst from W₂_of_ne m c main_cst (by decide),
    show V₂ m c main_v3 = V m c main_v3 from W₂_of_ne m c main_v3 (by decide),
    show V₂ m c main_cst_0 = V m c main_cst_0 from W₂_of_ne m c main_cst_0 (by decide),
    show V₂ m c main_v4 = V m c main_v4 from W₂_of_ne m c main_v4 (by decide)]

/-! ## The thread state, and the segments of @main -/

/-- The prefetched tables' admissible contents: no table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the region's
    invariant takes it in and gives it back) and its `owes`, at nothing. -/
abbrev R (c : Dev nD) : sProp 𝕄 := iprop((∃ r, prngReg c r) ∗ ∃ W, owes (c : Thread nD τ) (0 : CellTallies nD τ sig Unit) W)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations as a segment: every unscoped buffer held at the contents `W`, `R` riding along; it
    ends with them at the operations' fold over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the final contents, the generator register at
    some state. -/
abbrev Tₙ (c : Dev nD) : sProp 𝕄 := iprop(StableHlo.held (c : Thread nD τ) (Pipeline.ucRefs τ sig) (W₃ m c) ∗ ∃ r, prngReg c r)

set_option backward.isDefEq.respectTransparency.types false in
/-- THE REGION over the thread state: entered from every unscoped buffer at the contents the two reshapes leave, left
    with the output array at what the write-backs leave and every other buffer as entered. The arrays are dealt out of
    the unscoped buffers — the first argument's full share split between its two windows — and put back at the exit;
    the generator register goes into the invariant and comes out; nothing is owed; the kernel has no semaphore of its
    own. -/
def reg0 : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W₁ m c) ∗ R c)
  post c := iprop(StableHlo.held (c : Thread nD τ) (Pipeline.ucRefs τ sig) (W₂ m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The two reshapes, from the launch contents; -/
abbrev seg0 : Pipeline.HostSeg (Name := ℕ) (U := UR sig nD τ) (pcfgs (F := F)) defs₀ 𝒱₀ L lv :=
  hseg hostOps0 hostOps0_sub hostOps0_fresh (V₀ m)
/-- and the sum and the division, from what the region leaves. -/
abbrev seg1 : Pipeline.HostSeg (Name := ℕ) (U := UR sig nD τ) (pcfgs (F := F)) defs₀ 𝒱₀ L lv :=
  hseg hostOps1 hostOps1_sub hostOps1_fresh (W₂ m)

/-- @main's three segments in order. -/
abbrev segs : List (Pipeline.Seg (pcfgs (F := F)) adm (dats m) () defs₀ 𝒱₀ L lv) :=
  [.host (seg0 m), .region (reg0 m), .host (seg1 m)]

set_option backward.isDefEq.respectTransparency.types false in
/-- At the compiled mesh, for any float values, from any memory with zero counters: every weakly fair execution of
    @main on the TensorCores terminates, nothing faulting, and every final state has the result at the last host
    operations' fold over what the region leaves, and both arguments as launched. -/
theorem run_main : θ_run defs (onTc (τ := τ) (main (F := F))) ⟨m, fun _ => 0, ρ⟩ (fun r => ∀ c : Dev nD,
      r.2.mem ((c.tc : Thread nD τ).loc main_v4) = W₃ m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj emb₁ defs₀ 𝒱₀ L lv m ρ main (segs m)
    (fun c Q => by rw [main_segs adm (dats m) () 𝒱₀ L lv (seg0 m) (seg1 m) (reg0 m) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (W₃ m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W₃ m c b)
    (hfin := fun c s' => by
      iintro ⟨⟨Hh, -⟩, HSI⟩
      unfold StableHlo.held
      imodintro
      iapply (pointsTo_read_all (Pipeline.ucRefs τ sig) (fun b => (((c : Thread nD τ)).1, b)) (W₃ m c) s')
      isplitl [Hh] <;> iassumption)
    (hQ := fun s h c =>
      ⟨h c _ (mem_uc main_v4 (by decide)),
       (h c _ (mem_uc main_arg0 (by decide))).trans (W₃_arg0 m c),
       (h c _ (mem_uc main_arg1 (by decide))).trans (W₃_arg1 m c)⟩)

/-- THE FRAME: every weakly fair execution of @main terminates, nothing faulting, and both argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.HandFrame

end
-- ==== Proof.KernelTrip.lean ====
/-
  One trip of the kernel's loop over key tiles, as a function of the carried state.

  Trip `k` loads rows `512·k … 512·k + 511` of the staged key array (`keyTile`) and the same 512 entries of the staged
  label row (`labTile`), and from the carried `(m, l, masked sum, count)` yields the new running maximum, the rescaled sum
  of exponentials plus the tile's, the masked sum plus the tile's masked scores, and the count plus the tile's mask bits —
  each a named payload of the query block `v0`, the query labels `v10`, the grid point `i` and the two tiles.
-/
import proofs.«123914_j68728066671109_1_alg».proof.Proof.Gen.KernelIdeal.Loops

set_option maxRecDepth 8192

noncomputable section

namespace Cert.KernelIdeal.Gen

open Idealize.ShloMosaic Idealize.ShloMosaic.TcCoe Idealize.SL.Sem

variable {F : FTy → Type} [FloatOps F] [Named F]

/-- The key rows trip `k` loads: rows `512·k …` of the staged [8192, 256] array. -/
def keyTile (arg2 : Memref sig .tc .vmem S8192x256 .f32) (X_arg2 : BufTy.Contents (Elt F) arg2.view.ty) (k : Fin k0_t1_loop.trips) :
    Vec F S512x256 .f32 :=
  View.readAt (Elt F) arg2.view (Rect.unit (s := S8192x256) (k0_off1 k) S512x256.size (k0_off1_inb k)).toLoadRect X_arg2

/-- The labels trip `k` loads: entries `512·k …` of the staged [1, 8192] row. -/
def labTile (arg4 : Memref sig .tc .vmem S1x8192 .i32) (X_arg4 : BufTy.Contents (Elt F) arg4.view.ty) (k : Fin k0_t1_loop.trips) :
    Vec F S1x512 .i32 :=
  View.readAt (Elt F) arg4.view (Rect.unit (s := S1x8192) (k0_off2 k) S1x512.size (k0_off2_inb k)).toLoadRect X_arg4

/-- What one trip yields. -/
theorem trip_eq (𝒱 : Variants) (c : Dev nD) (bd : Option 𝒱.V) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (v0 : Vec F S1024x256 .f32) (v10 : Vec F S1024x1 .i32) (X_arg2 : BufTy.Contents (Elt F) arg2.view.ty) (X_arg4 : BufTy.Contents (Elt F) arg4.view.ty) (k : Fin k0_t1_loop.trips)
    (acc : FVec F S1024x1 .f32 × FVec F S1024x1 .f32 × FVec F S1024x1 .f32 × FVec F S1024x1 .f32) :
    tripR_k0_t1 (F := F) 𝒱 c bd i arg1 harg1 arg2 harg2 arg3 harg3 arg4 harg4 arg5 harg5 v0 v10 X_arg2 X_arg4 k acc
      = (k0_pay12 (k0_pay1 v0) acc.1 (keyTile arg2 X_arg2 k),
         k0_pay13 (k0_pay1 v0) acc.1 acc.2.1 (keyTile arg2 X_arg2 k),
         k0_pay14 (k0_pay1 v0) (k0_pay2 v10) (k0_pay3 i) (0#32) (1#32) k acc.2.2.1 (keyTile arg2 X_arg2 k) (labTile arg4 X_arg4 k),
         k0_pay8 acc.2.2.2 (k0_pay15 (k0_pay2 v10) (k0_pay3 i) (0#32) (1#32) k (labTile arg4 X_arg4 k))) := by
  unfold tripR_k0_t1 trip_k0_t1
  dsimp only
  unfold trip_k0_t1.sl.r trip_k0_t1.sl.r_1 trip_k0_t1.sl.r_2 trip_k0_t1.sl.r_3
  rfl

end Cert.KernelIdeal.Gen

end
-- ==== Proof.LibSoftmaxRow.lean ====
/-
  One row of a masked log-softmax loss, written two ways over the extended reals.

  A row of scores `s j` (the similarities of one query against every key) and a row of mask bits `b j` give the loss
  `-(∑_j (log-softmax s)_j · b_j) / max (∑_j b_j) 1` when some mask bit is set, and `0` otherwise (`refRow`): the
  log-softmax taken the usual shifted way, `(s_j - M) - log ∑_j exp (s_j - M)` with `M` the row's maximum.

  The same row can be consumed tile by tile, keeping four numbers (`State`): the running maximum `m`, the running sum
  `l = ∑ exp (s - m)` over the columns seen so far (rescaled by `exp (m - m')` whenever the maximum moves to `m'`), the
  masked sum of scores and the mask count (`step`, `iter`); the row's loss is then `(m + log l) - masked sum / max count 1`
  (`finish`).

  This module only states the two forms, over the exact operations of the ideal float instance (`Ideal.exp`, `Ideal.log`,
  `Ideal.div`; `+`, `-`, `*`, `max` are the extended reals' own), so that a kernel's value and a reference's value can both
  be stated through them.
-/
import Idealize.ShloMosaic.PureOps.Ideal
import Idealize.ShloMosaic.PureOps.Ideal.Laws

noncomputable section

namespace Cert.SoftmaxRow

open Idealize.ShloMosaic

/-- A mask bit as a weight: `1` where set, `0` elsewhere. -/
def wt (b : Bool) : EReal := if b then 1 else 0

/-- Running maximum, running rescaled sum of exponentials, masked sum of scores, mask count. -/
abbrev State := EReal × EReal × EReal × EReal

/-- One tile of `W` columns folded into the state: the maximum moves to `m' = max m (tile maximum)`, the old sum is
    rescaled by `exp (m - m')` and the tile's `exp (x - m')` are added; the masked scores and the mask bits are summed. -/
def step {W : ℕ} (x : Fin W → EReal) (b : Fin W → Bool) (a : State) : State :=
  let m' := max a.1 ((Finset.univ : Finset (Fin W)).fold max ⊥ x)
  (m',
   a.2.1 * Ideal.exp (a.1 - m') + ∑ q, Ideal.exp (x q - m'),
   a.2.2.1 + ∑ q, (if b q then x q else 0),
   a.2.2.2 + ∑ q, wt (b q))

/-- The state before tile `k`: `(-∞, 0, 0, 0)` before the first, one `step` per tile after that (unchanged past the
    last tile). -/
def iter {T W : ℕ} (x : Fin T → Fin W → EReal) (b : Fin T → Fin W → Bool) : ℕ → State
  | 0 => (⊥, 0, 0, 0)
  | k + 1 => if h : k < T then step (x ⟨k, h⟩) (b ⟨k, h⟩) (iter x b k) else iter x b k

/-- The row's loss from the final state: `(m + log l) - masked sum / max count 1` when the count is positive, else `0`. -/
def finish (a : State) : EReal :=
  if 0 < a.2.2.2 then (a.1 + Ideal.log a.2.1) - Ideal.div a.2.2.1 (max a.2.2.2 1) else 0

/-- The row's loss from the whole row at once: minus the masked sum of the shifted log-softmax, over `max count 1`,
    when the count is positive, else `0`. -/
def refRow {J : Type} [Fintype J] (s : J → EReal) (b : J → Bool) : EReal :=
  let M := (Finset.univ : Finset J).fold max ⊥ s
  let L := Ideal.log (∑ j, Ideal.exp (s j - M))
  let cnt := ∑ j, wt (b j)
  if 0 < cnt then Ideal.div (-(∑ j, ((s j - M) - L) * wt (b j))) (max cnt 1) else 0

end Cert.SoftmaxRow

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Spec.lean ====
/-
  The supervised-contrastive loss both programs compute, as one function of the argument arrays over the extended reals.

  `E` is the [8192, 256] array of embeddings, `Lb` the 8192 integer labels. Row `i` of `E` is normalised by
  `max (‖E_i‖) ε` (`nrm`, `en`; `ε` the float word both programs carry); the similarity of rows `i` and `j` is the inner
  product of the normalised rows (`dotp`) scaled by the temperature — divided by the reference's temperature word `D`
  (`simR`), or multiplied by its exact reciprocal `1/D` (`simK`): the same extended real, `simK_eq_simR` —; column `j` is a
  positive of row `i` when the labels agree and `j ≠ i` (`maskb`); the row's loss is the masked mean of minus its
  log-softmax (`SoftmaxRow.refRow`), and the result the mean of the 8192 rows' losses (`G`).
-/
import Idealize.ShloMosaic.PureOps.Ideal
import Idealize.ShloMosaic.Lib.ValueIdx
import proofs.«123914_j68728066671109_1_alg».proof.Proof.LibSoftmaxRow

noncomputable section

namespace Cert.Spec

open Idealize.ShloMosaic Idealize.ShloMosaic.ValueIdx Cert.SoftmaxRow

/-- The embeddings' and the labels' contents. -/
abbrev Emb := (⟨2, ![8192, 256]⟩ : Shape).Idx → EReal
abbrev Lab := (⟨1, ![8192]⟩ : Shape).Idx → BitVec 32

/-- The clamp on a row's norm: the float word `9.99999996e-13` both programs carry. -/
def eps : EReal := Ideal.ofBits .f32 0x2B8CBCCC#32

/-- The reference's temperature word, `f32(0.07) = 9395241 / 2^27`. -/
def tempD : EReal := Ideal.ofBits .f32 0x3D8F5C29#32

/-- Its exact reciprocal, the value the kernel's named scale denotes. -/
def invTemp : EReal := ((134217728 / 9395241 : ℝ) : EReal)

/-- The number of rows as a float, `8192.0`. -/
def nRows : EReal := Ideal.ofBits .f32 0x46000000#32

/-- A row's clamped norm: `max (√(∑_d E_id²)) ε`. -/
def nrm (E : Emb) (i : Fin 8192) : EReal := max (Ideal.sqrt (∑ d : Fin 256, E (ix2 i d) * E (ix2 i d))) eps

/-- The normalised embedding. -/
def en (E : Emb) (i : Fin 8192) (d : Fin 256) : EReal := Ideal.div (E (ix2 i d)) (nrm E i)

/-- The inner product of two normalised rows. -/
def dotp (E : Emb) (i j : Fin 8192) : EReal := ∑ d : Fin 256, en E i d * en E j d

/-- The similarity as the reference scales it: divided by the temperature word. -/
def simR (E : Emb) (i j : Fin 8192) : EReal := Ideal.div (dotp E i j) tempD

/-- The similarity as the kernel scales it: multiplied by the reciprocal. -/
def simK (E : Emb) (i j : Fin 8192) : EReal := dotp E i j * invTemp

/-- Column `j` is a positive of row `i`: same label, another row. -/
def maskb (Lb : Lab) (i j : Fin 8192) : Bool := decide (Lb (ix1 i) = Lb (ix1 j)) && decide (i ≠ j)

/-- Row `i`'s loss. -/
def rowLoss (E : Emb) (Lb : Lab) (i : Fin 8192) : EReal := refRow (J := Fin 8192) (simR E i) (maskb Lb i)

/-- The loss: the mean of the rows' losses. -/
def G (E : Emb) (Lb : Lab) : EReal := Ideal.div (∑ i : Fin 8192, rowLoss E Lb i) nRows

end Cert.Spec

end
-- ==== Proof.KernelPay1.lean ====
/-
  The kernel's small payloads read at an index, at the ideal values: the named temperature scale, the loop's starting
  state (the running maximum at minus infinity, the three sums at zero), and the closing select of the row's loss.
-/
import proofs.«123914_j68728066671109_1_alg».proof.Proof.Gen.KernelIdeal.Skeleton
import proofs.«123914_j68728066671109_1_alg».proof.Proof.Spec
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen

/-- The kernel's named scale denotes the exact reciprocal of the temperature word, by the certificate's table. -/
theorem inv_temp : Named.named (F := Ideal) Cert.KernelIdeal.κ "inv_temp" (φ := .f32) 0x41649249#32 = Cert.Spec.invTemp :=
  IdealRules.named_const.ideal_named_scalar _ _ _ _ rfl

/-- The word of minus infinity denotes the bottom of the extended reals. -/
theorem ofBits_neg_inf : Ideal.ofBits .f32 0xFF800000#32 = (⊥ : EReal) := by
  simp [Ideal.ofBits, Ideal.ieee]

/-- The word of one denotes one. -/
theorem ofBits_one : Ideal.ofBits .f32 0x3F800000#32 = (1 : EReal) :=
  IdealRules.sign_bit.ideal_onePat .f32

/-- The loop starts, at every row, from the maximum at minus infinity and the three sums at zero. -/
theorem init_apply (p : Fin 1024) :
    (k0_pay4 (F := Ideal) (ix2 p (0 : Fin 1)), k0_pay5 (F := Ideal) (ix2 p (0 : Fin 1)),
      k0_pay6 (F := Ideal) (ix2 p (0 : Fin 1)), k0_pay7 (F := Ideal) (ix2 p (0 : Fin 1)))
      = ((⊥ : EReal), (0 : EReal), (0 : EReal), (0 : EReal)) := by
  unfold k0_pay4 k0_pay5 k0_pay6 k0_pay7
  show (Ideal.ofBits .f32 0xFF800000#32, Ideal.ofBits .f32 0x00000000#32, Ideal.ofBits .f32 0x00000000#32,
    Ideal.ofBits .f32 0x00000000#32) = _
  rw [ofBits_neg_inf, Ideal.ofBits_zero_f32]

/-- A select on a decided comparison is the `if` on the comparison. -/
theorem select_ofBool {α : Type} (c : Bool) (a b : α) : Scalar.select (BitVec.ofBool c) a b = if c then a else b := by
  cases c
  · exact select_zero a b
  · exact select_one a b

/-- The closing select, at a row: the loss `(m + log l) - masked sum / max count 1` where the count is positive,
    zero elsewhere. -/
theorem finish_row (s0 s1 s2 s3 : FVec Ideal S1024x1 .f32) (p : Fin 1024) :
    k0_pay9 s0 s1 s2 s3 (ix2 p (0 : Fin 1))
      = Cert.SoftmaxRow.finish (s0 (ix2 p (0 : Fin 1)), s1 (ix2 p (0 : Fin 1)), s2 (ix2 p (0 : Fin 1)), s3 (ix2 p (0 : Fin 1))) := by
  unfold k0_pay9 Cert.SoftmaxRow.finish
  show Scalar.select (Ideal.cmp .ogt (s3 (ix2 p (0 : Fin 1))) (Ideal.ofBits .f32 0x00000000#32))
      ((s0 (ix2 p (0 : Fin 1)) + Ideal.log (s1 (ix2 p (0 : Fin 1))))
        - Ideal.div (s2 (ix2 p (0 : Fin 1))) (max (s3 (ix2 p (0 : Fin 1))) (Ideal.ofBits .f32 0x3F800000#32)))
      (Ideal.ofBits .f32 0x00000000#32) = _
  rw [Ideal.ofBits_zero_f32, ofBits_one]
  unfold Ideal.cmp
  rw [select_ofBool]
  simp only [decide_eq_true_eq]

end Cert.KernelIdeal.Pay

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.KernelPay2.lean ====
/-
  The kernel's two normalised operands and its tile of scaled similarities, read at an index, at the ideal values.

  A block of rows is normalised row by row: each entry divided by `max (√(∑ of the row's squares)) ε` (the cast to the
  narrower float format is the identity on extended reals). A tile of similarities at `(p, q)` is the inner product of the
  normalised query row `p` with the normalised key row `q` (the key tile is normalised, transposed, and contracted into a
  zero accumulator), times the named temperature scale.
-/
import proofs.«123914_j68728066671109_1_alg».proof.Proof.Gen.KernelIdeal.Skeleton
import proofs.«123914_j68728066671109_1_alg».proof.Proof.Spec
import proofs.«123914_j68728066671109_1_alg».proof.Proof.LibColumnLayout
import proofs.«123914_j68728066671109_1_alg».proof.Proof.LibDenseRows
import proofs.«123914_j68728066671109_1_alg».proof.Proof.KernelPay1
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-! ## A reduction along the columns, laid out as a column -/

/-- The source index of a column reduction: row `r` with column `k` put back. -/
theorem lift_col {M N : ℕ} (h : (⟨2, ![M, N]⟩ : Shape).Reduces [(1 : Fin 2)] ⟨1, ![M]⟩) (r : Fin M) (k : Fin N) :
    h.lift (ix1 r) k = ix2 r k := by
  funext a
  match a with
  | ⟨0, _⟩ => exact Fin.ext rfl
  | ⟨1, _⟩ => exact Fin.ext rfl

/-- A lane sum from the zero word, cast to a column `[M, 1]`, reads at row `r` the sum of the source's row `r`. -/
theorem colSum_apply {M N : ℕ} (src : FVec Ideal ⟨2, ![M, N]⟩ .f32)
    (h : (⟨2, ![M, N]⟩ : Shape).Reduces [(1 : Fin 2)] ⟨1, ![M]⟩) (hc : (⟨1, ![M]⟩ : Shape).ShapeCasts ⟨2, ![M, 1]⟩)
    (hφ : FKind.Formats .f32) (hacc : (0x00000000#32 : BitVec 32) = FKind.add.neutral .f32 hφ) (r : Fin M) (u : Fin 1) :
    shapeCast ⟨2, ![M, 1]⟩ (multiReduction .add [(1 : Fin 2)] ⟨1, ![M]⟩ src 0x00000000#32 h hφ hacc) hc (ix2 r u)
      = ∑ k : Fin N, src (ix2 r k) :=
  (Cert.ColumnLayout.shapeCast_a_a1_apply _ hc r u).trans (Cert.DenseRows.laneSum_apply src h hφ hacc (lift_col h) r)

/-- A lane maximum from the accumulator word `acc`, cast to a column `[M, 1]`, reads at row `r` the fold of `max`, from
    the value of `acc`, over the source's row `r`. -/
theorem colMax_apply {M N : ℕ} (src : FVec Ideal ⟨2, ![M, N]⟩ .f32) (acc : BitVec 32)
    (h : (⟨2, ![M, N]⟩ : Shape).Reduces [(1 : Fin 2)] ⟨1, ![M]⟩) (hc : (⟨1, ![M]⟩ : Shape).ShapeCasts ⟨2, ![M, 1]⟩)
    (hφ : FKind.Formats .f32) (hacc : acc = FKind.maximumf.neutral .f32 hφ) (r : Fin M) (u : Fin 1) :
    shapeCast ⟨2, ![M, 1]⟩ (multiReduction .maximumf [(1 : Fin 2)] ⟨1, ![M]⟩ src acc h hφ hacc) hc (ix2 r u)
      = (Finset.univ : Finset (Fin N)).fold max (Ideal.ofBits .f32 acc) (fun k => src (ix2 r k)) := by
  refine (Cert.ColumnLayout.shapeCast_a_a1_apply _ hc r u).trans ?_
  refine (Ideal.multiReduction_maximumf_single src acc h hφ hacc (ix1 r)).trans ?_
  have e : (src ∘ h.lift (ix1 r)) = fun k : Fin N => src (ix2 r k) := funext fun k => congrArg src (lift_col h r k)
  rw [e]
  rfl

/-! ## Rows normalised -/

/-- A block divided, row by row, by the row's clamped norm: at `(r, c)` the entry over
    `max (√(∑ of row r's squares)) (the clamp word's value)`. -/
theorem rowNorm_apply {M N : ℕ} (x : FVec Ideal ⟨2, ![M, N]⟩ .f32) (w : BitVec 32)
    (h : (⟨2, ![M, N]⟩ : Shape).Reduces [(1 : Fin 2)] ⟨1, ![M]⟩) (hc : (⟨1, ![M]⟩ : Shape).ShapeCasts ⟨2, ![M, 1]⟩)
    (hb : (⟨2, ![M, 1]⟩ : Shape).Broadcasts ⟨2, ![M, N]⟩)
    (hφ : FKind.Formats .f32) (hacc : (0x00000000#32 : BitVec 32) = FKind.add.neutral .f32 hφ) (r : Fin M) (c : Fin N) :
    divf x (broadcastTo ⟨2, ![M, N]⟩
        (maximumf (sqrt (shapeCast ⟨2, ![M, 1]⟩ (multiReduction .add [(1 : Fin 2)] ⟨1, ![M]⟩ (mulf x x) 0x00000000#32 h hφ hacc) hc))
          (broadcast ⟨2, ![M, 1]⟩ (Scalar.ofBits (F := Ideal) .f32 w))) hb) (ix2 r c)
      = Ideal.div (x (ix2 r c)) (max (Ideal.sqrt (∑ k : Fin N, x (ix2 r k) * x (ix2 r k))) (Ideal.ofBits .f32 w)) := by
  rw [divf_apply]
  refine congrArg (Ideal.div (x (ix2 r c))) ?_
  refine (Cert.ColumnLayout.broadcastTo_a1_ab_apply _ hb r c).trans ?_
  refine congrArg (fun t => max (Ideal.sqrt t) (Ideal.ofBits .f32 w)) ?_
  exact colSum_apply (mulf x x) h hc hφ hacc r 0

/-- The query block normalised, at `(p, d)`. -/
theorem qn_apply (v0 : Vec Ideal S1024x256 .f32) (p : Fin 1024) (d : Fin 256) :
    k0_pay1 v0 (ix2 p d)
      = Ideal.div (v0 (ix2 p d)) (max (Ideal.sqrt (∑ d' : Fin 256, v0 (ix2 p d') * v0 (ix2 p d'))) Cert.Spec.eps) := by
  unfold k0_pay1
  exact rowNorm_apply (M := 1024) (N := 256) v0 0x2B8CBCCC#32 _ _ _ _ _ p d

/-- A key tile normalised, at key row `q` and feature `d`. -/
def kn (v36 : Vec Ideal S512x256 .f32) (q : Fin 512) (d : Fin 256) : EReal :=
  Ideal.div (v36 (ix2 q d)) (max (Ideal.sqrt (∑ d' : Fin 256, v36 (ix2 q d') * v36 (ix2 q d'))) Cert.Spec.eps)

/-- A tile of scaled similarities, at `(p, q)`: the inner product of the query block's row `p` with the normalised key
    row `q`, times the temperature scale. -/
theorem sim_apply (v9 : FVec Ideal S1024x256 .bf16) (v36 : Vec Ideal S512x256 .f32) (p : Fin 1024) (q : Fin 512) :
    k0_pay10 v9 v36 (ix2 p q) = (∑ d : Fin 256, v9 (ix2 p d) * kn v36 q d) * Cert.Spec.invTemp := by
  unfold k0_pay10
  rw [mulf_apply, broadcast_apply, inv_temp]
  refine congrArg (· * Cert.Spec.invTemp) ?_
  refine (Cert.DenseRows.matmul_zero_plain_apply (M := 1024) (K := 256) (N := 512)
    dot_S1024x256_S256x512_S1024x512_1_0_0_1_n_n rfl rfl rfl rfl (fun _ _ => rfl) (fun _ _ => rfl) v9 _ p q).trans ?_
  refine Finset.sum_congr rfl fun d _ => congrArg (v9 (ix2 p d) * ·) ?_
  refine (transpose_ix2_apply (a := 512) (b := 256) _ _ d q).trans ?_
  exact rowNorm_apply (M := 512) (N := 256) v36 0x2B8CBCCC#32 _ _ _ _ _ q d

end Cert.KernelIdeal.Pay

end
-- ==== Proof.KernelPay3.lean ====
/-
  The kernel's mask bits read at an index: column `q` of a tile is a positive of row `p` when the two labels agree and the
  row's global number differs from the column's (the tile's first column number plus `q`, as 32-bit words). Also the two
  integer columns the mask reads: the block's labels (a cast to the same shape) and its rows' global numbers.
-/
import proofs.«123914_j68728066671109_1_alg».proof.Proof.Gen.KernelIdeal.Skeleton
import proofs.«123914_j68728066671109_1_alg».proof.Proof.LibColumnLayout
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen

/-- The conjunction of an equality bit and a disequality bit is the bit of the conjunction. -/
theorem andi_eq_ne {w : ℕ} (a b c d : BitVec w) :
    IntOp.andi (IntOp.cmpi .eq a b) (IntOp.cmpi .ne c d) = BitVec.ofBool (decide (a = b) && decide (c ≠ d)) := by
  have hb1 : (a == b) = decide (a = b) := by
    by_cases h : a = b
    · subst h; simp
    · rw [decide_eq_false h]; exact beq_eq_false_iff_ne.mpr h
  have hb2 : (c != d) = decide (c ≠ d) := by
    by_cases h : c = d
    · subst h; simp
    · rw [decide_eq_true h]; exact bne_iff_ne.mpr h
  show BitVec.ofBool (a == b) &&& BitVec.ofBool (c != d) = _
  rw [hb1, hb2]
  generalize decide (a = b) = x
  generalize decide (c ≠ d) = y
  cases x <;> cases y <;> decide

/-- The global number of column `q` of the tile at trip `k` of a counted loop from `c0` by `c1`, as the kernel computes
    it in 32-bit words: the induction variable times the tile width, plus `q`. -/
def colWord (c0 c1 : BitVec 32) (k : ℕ) (q : Fin 512) : BitVec 32 :=
  Scf.iv c0 c1 k * 512#32 + BitVec.ofNat 32 q.val

/-- The mask bit of row `p` and column `q` as a Boolean: the labels agree and the row's number is not the column's. -/
def mb (v11 v15 : IVec S1024x1 32) (c0 c1 : BitVec 32) (k : Fin k0_t1_loop.trips) (v51 : Vec Ideal S1x512 .i32)
    (p : Fin 1024) (q : Fin 512) : Bool :=
  decide (v11 (ix2 p (0 : Fin 1)) = v51 (ix2 (0 : Fin 1) q)) && decide (v15 (ix2 p (0 : Fin 1)) ≠ colWord c0 c1 k.val q)

/-- The kernel's mask bit at `(p, q)` is the bit of `mb`. -/
theorem mask_apply (v11 v15 : IVec S1024x1 32) (c0 c1 : BitVec 32) (k : Fin k0_t1_loop.trips) (v51 : Vec Ideal S1x512 .i32)
    (p : Fin 1024) (q : Fin 512) :
    k0_pay11 v11 v15 c0 c1 k v51 (ix2 p q) = BitVec.ofBool (mb v11 v15 c0 c1 k v51 p q) := by
  have e1 : broadcastTo S1024x512 v11 broadcasts_S1024x1_S1024x512 (ix2 p q) = v11 (ix2 p (0 : Fin 1)) :=
    Cert.ColumnLayout.broadcastTo_a1_ab_apply v11 _ p q
  have e2 : broadcastTo S1024x512 (shapeCast S1x512 v51 shapeCasts_S1x512_S1x512) broadcasts_S1x512_S1024x512 (ix2 p q)
      = v51 (ix2 (0 : Fin 1) q) :=
    (broadcastTo_1b_ab_apply _ _ p q).trans (by rw [shapeCast_self])
  have e3 : broadcastTo S1024x512 v15 broadcasts_S1024x1_S1024x512 (ix2 p q) = v15 (ix2 p (0 : Fin 1)) :=
    Cert.ColumnLayout.broadcastTo_a1_ab_apply v15 _ p q
  have e4 : broadcastTo S1024x512
      (addi (broadcast S1x512 (Scalar.muli (Scf.iv c0 c1 k.val) 512#32)) (iota .tc S1x512 32 [1] iota_S1x512_d1_w32))
      broadcasts_S1x512_S1024x512 (ix2 p q) = colWord c0 c1 k.val q := by
    refine (broadcastTo_1b_ab_apply _ _ p q).trans ?_
    show Scf.iv c0 c1 k.val * 512#32 + BitVec.ofNat 32 (0 * 512 + q.val) = _
    rw [Nat.zero_mul, Nat.zero_add]
    rfl
  unfold k0_pay11 mb
  show IntOp.andi (IntOp.cmpi .eq _ _) (IntOp.cmpi .ne _ _) = _
  rw [e1, e2, e3, e4]
  exact andi_eq_ne _ _ _ _

/-- The bit is set exactly when `mb` holds. -/
theorem mask_eq_one_iff (v11 v15 : IVec S1024x1 32) (c0 c1 : BitVec 32) (k : Fin k0_t1_loop.trips) (v51 : Vec Ideal S1x512 .i32)
    (p : Fin 1024) (q : Fin 512) :
    k0_pay11 v11 v15 c0 c1 k v51 (ix2 p q) = 1#1
      ↔ (v11 (ix2 p (0 : Fin 1)) = v51 (ix2 (0 : Fin 1) q) ∧ v15 (ix2 p (0 : Fin 1)) ≠ colWord c0 c1 k.val q) := by
  rw [mask_apply]
  unfold mb
  cases h : (decide (v11 (ix2 p (0 : Fin 1)) = v51 (ix2 (0 : Fin 1) q)) && decide (v15 (ix2 p (0 : Fin 1)) ≠ colWord c0 c1 k.val q))
  · simp only [Bool.and_eq_false_iff, decide_eq_false_iff_not] at h
    constructor
    · intro h'; exact absurd h' (by decide)
    · rintro ⟨h1, h2⟩; rcases h with h | h
      · exact absurd h1 h
      · exact absurd h2 h
  · simp only [Bool.and_eq_true, decide_eq_true_eq] at h
    exact ⟨fun _ => h, fun _ => rfl⟩

/-! ## The two integer columns the mask reads -/

/-- The block's labels: the cast to the same shape is the identity. -/
theorem labels_eq (v10 : Vec Ideal S1024x1 .i32) : k0_pay2 v10 = v10 := by
  unfold k0_pay2
  exact shapeCast_self _ _

/-- Row `p` of grid point `i`'s block has the global number `i · 1024 + p`, as 32-bit words. -/
theorem rownum_apply (i : grid0.Coords) (p : Fin 1024) :
    k0_pay3 i (ix2 p (0 : Fin 1)) = BitVec.ofNat 32 (i 0).val * 1024#32 + BitVec.ofNat 32 p.val := by
  unfold k0_pay3
  show BitVec.ofNat 32 (i 0).val * 1024#32 + BitVec.ofNat 32 (0 * 1024 + p.val) = _
  rw [Nat.zero_mul, Nat.zero_add]

/-- In a loop from `0` by `1` the tile at trip `k` starts at column `k · 512`: column `q` has the number `k · 512 + q`. -/
theorem colWord_zero_one (k : ℕ) (q : Fin 512) : colWord 0#32 1#32 k q = BitVec.ofNat 32 (k * 512 + q.val) := by
  unfold colWord Scf.iv
  rw [BitVec.zero_add, BitVec.mul_one, BitVec.ofNat_add, BitVec.ofNat_mul]

/-- The row's number as one word. -/
theorem rownum_apply' (i : grid0.Coords) (p : Fin 1024) :
    k0_pay3 i (ix2 p (0 : Fin 1)) = BitVec.ofNat 32 ((i 0).val * 1024 + p.val) := by
  rw [rownum_apply, BitVec.ofNat_add, BitVec.ofNat_mul]

end Cert.KernelIdeal.Pay

end
-- ==== Proof.KernelPay4.lean ====
/-
  One trip of the kernel's loop over key tiles, read at one row of the query block, at the ideal values: the four carried
  columns — running maximum, rescaled sum of exponentials, masked sum of scores, mask count — move by one step of the
  online row softmax (`Cert.SoftmaxRow.step`) over the tile's row of scaled similarities and its row of mask bits.
-/
import proofs.«123914_j68728066671109_1_alg».proof.Proof.Gen.KernelIdeal.Skeleton
import proofs.«123914_j68728066671109_1_alg».proof.Proof.LibSoftmaxRow
import proofs.«123914_j68728066671109_1_alg».proof.Proof.LibColumnLayout
import proofs.«123914_j68728066671109_1_alg».proof.Proof.KernelPay1
import proofs.«123914_j68728066671109_1_alg».proof.Proof.KernelPay2
import proofs.«123914_j68728066671109_1_alg».proof.Proof.KernelPay3
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- A mask bit widened to 32 bits and read as a signed integer is the bit's weight: `1` where set, `0` elsewhere. -/
theorem sitofp_bit (b : Bool) :
    FloatOps.sitofp (F := Ideal) .f32 ((BitVec.ofBool b).setWidth 32) = Cert.SoftmaxRow.wt b := by
  cases b
  · show (((((BitVec.ofBool false).setWidth 32).toInt : ℤ) : ℝ) : EReal) = _
    have h : ((BitVec.ofBool false).setWidth 32).toInt = 0 := by decide
    rw [h]
    simp [Cert.SoftmaxRow.wt]
  · show (((((BitVec.ofBool true).setWidth 32).toInt : ℤ) : ℝ) : EReal) = _
    have h : ((BitVec.ofBool true).setWidth 32).toInt = 1 := by decide
    rw [h]
    simp [Cert.SoftmaxRow.wt]

section Trip

variable (v9 : FVec Ideal S1024x256 .bf16) (v36 : Vec Ideal S512x256 .f32)
  (v11 v15 : IVec S1024x1 32) (c0 c1 : BitVec 32) (k : Fin k0_t1_loop.trips) (v51 : Vec Ideal S1x512 .i32)
  (a7 a8 a9 a10 : FVec Ideal S1024x1 .f32) (p : Fin 1024)

/-- The new running maximum at row `p`: the old one against the tile row's maximum. -/
theorem newMax_row :
    k0_pay12 v9 a7 v36 (ix2 p (0 : Fin 1))
      = max (a7 (ix2 p (0 : Fin 1)))
          ((Finset.univ : Finset (Fin 512)).fold max ⊥ (fun q => k0_pay10 v9 v36 (ix2 p q))) := by
  unfold k0_pay12
  rw [maximumf_apply]
  refine congrArg (max (a7 (ix2 p (0 : Fin 1)))) ?_
  refine (colMax_apply (M := 1024) (N := 512) (k0_pay10 v9 v36) 0xFF800000#32 _ _ _ _ p 0).trans ?_
  rw [ofBits_neg_inf]

/-- The new rescaled sum at row `p`: the old one times `exp (old maximum - new maximum)`, plus the tile row's
    `exp (score - new maximum)`. -/
theorem newSum_row :
    k0_pay13 v9 a7 a8 v36 (ix2 p (0 : Fin 1))
      = a8 (ix2 p (0 : Fin 1)) * Ideal.exp (a7 (ix2 p (0 : Fin 1)) - k0_pay12 v9 a7 v36 (ix2 p (0 : Fin 1)))
        + ∑ q : Fin 512, Ideal.exp (k0_pay10 v9 v36 (ix2 p q) - k0_pay12 v9 a7 v36 (ix2 p (0 : Fin 1))) := by
  unfold k0_pay13
  rw [addf_apply]
  refine congrArg₂ (· + ·) rfl ?_
  refine (colSum_apply (M := 1024) (N := 512) _ _ _ _ _ p 0).trans ?_
  refine Finset.sum_congr rfl fun q _ => ?_
  show Ideal.exp (k0_pay10 v9 v36 (ix2 p q)
    - broadcastTo S1024x512 (k0_pay12 v9 a7 v36) broadcasts_S1024x1_S1024x512 (ix2 p q)) = _
  rw [Cert.ColumnLayout.broadcastTo_a1_ab_apply]

/-- The new masked sum at row `p`: the old one plus the tile row's scores where the mask bit is set. -/
theorem maskedSum_row :
    k0_pay14 v9 v11 v15 c0 c1 k a9 v36 v51 (ix2 p (0 : Fin 1))
      = a9 (ix2 p (0 : Fin 1))
        + ∑ q : Fin 512, (if mb v11 v15 c0 c1 k v51 p q then k0_pay10 v9 v36 (ix2 p q) else 0) := by
  unfold k0_pay14
  rw [addf_apply]
  refine congrArg (a9 (ix2 p (0 : Fin 1)) + ·) ?_
  refine (colSum_apply (M := 1024) (N := 512) _ _ _ _ _ p 0).trans ?_
  refine Finset.sum_congr rfl fun q _ => ?_
  rw [select_apply, mask_apply, select_ofBool, broadcast_apply]
  show (if mb v11 v15 c0 c1 k v51 p q = true then k0_pay10 v9 v36 (ix2 p q) else Ideal.ofBits .f32 0x00000000#32) = _
  rw [Ideal.ofBits_zero_f32]

/-- The new mask count at row `p`: the old one plus the number of set mask bits of the tile row. -/
theorem count_row :
    k0_pay8 a10 (k0_pay15 v11 v15 c0 c1 k v51) (ix2 p (0 : Fin 1))
      = a10 (ix2 p (0 : Fin 1)) + ∑ q : Fin 512, Cert.SoftmaxRow.wt (mb v11 v15 c0 c1 k v51 p q) := by
  unfold k0_pay8
  rw [addf_apply]
  refine congrArg (a10 (ix2 p (0 : Fin 1)) + ·) ?_
  refine (colSum_apply (M := 1024) (N := 512) _ _ _ _ _ p 0).trans ?_
  refine Finset.sum_congr rfl fun q _ => ?_
  unfold k0_pay15
  rw [sitofp_apply, extui_apply, mask_apply]
  exact sitofp_bit _

/-- One trip at row `p` is one step of the online row softmax over the tile's row of scores and mask bits. -/
theorem trip_row :
    ( k0_pay12 v9 a7 v36 (ix2 p (0 : Fin 1)),
      k0_pay13 v9 a7 a8 v36 (ix2 p (0 : Fin 1)),
      k0_pay14 v9 v11 v15 c0 c1 k a9 v36 v51 (ix2 p (0 : Fin 1)),
      k0_pay8 a10 (k0_pay15 v11 v15 c0 c1 k v51) (ix2 p (0 : Fin 1)) )
      = Cert.SoftmaxRow.step (fun q : Fin 512 => k0_pay10 v9 v36 (ix2 p q)) (fun q => mb v11 v15 c0 c1 k v51 p q)
          (a7 (ix2 p (0 : Fin 1)), a8 (ix2 p (0 : Fin 1)), a9 (ix2 p (0 : Fin 1)), a10 (ix2 p (0 : Fin 1))) := by
  rw [newSum_row, maskedSum_row, count_row, newMax_row]
  rfl

end Trip

end Cert.KernelIdeal.Pay

end
-- ==== Proof.LibOnlineSoftmax1.lean ====
/-
  One tile of the tile-by-tile (online) masked log-softmax recurrence, over real scores.

  Finite sums and maxima of coerced reals are coerced reals: the coercion ℝ → EReal is additive and monotone, and a fold of
  max from -∞ over coerced reals equals any real that dominates them and is attained.

  Hence one step from a state of coerced reals (M, S, P, C), over a tile of real scores with attained maximum Mt, is again
  a state of coerced reals:
    (max M Mt,  S · exp (M - max M Mt) + ∑ exp (x - max M Mt),  P + masked sum,  C + mask count),
  and from the empty state (-∞, 0, 0, 0) the rescaled old sum is 0 · exp (-∞) = 0 · 0 = 0, so the first step gives
    (Mt,  ∑ exp (x - Mt),  masked sum,  mask count).
-/
import proofs.«123914_j68728066671109_1_alg».proof.Proof.LibSoftmaxRow

noncomputable section

namespace Cert.SoftmaxRow

open Idealize.ShloMosaic

/-! ### Coercions of finite sums and maxima -/

/-- The coercion of a finite real sum is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a real maximum is the maximum of the coercions. -/
theorem coe_max (a c : ℝ) : ((max a c : ℝ) : EReal) = max (a : EReal) (c : EReal) :=
  (EReal.coe_strictMono.monotone).map_max

/-- A fold of max from -∞ over coerced reals that are dominated by a real M which is attained equals M. -/
theorem fold_max_coe_eq {ι : Type} (s : Finset ι) (f : ι → ℝ) (M : ℝ)
    (hle : ∀ i ∈ s, f i ≤ M) (hat : ∃ i ∈ s, f i = M) :
    s.fold max ⊥ (fun i => ((f i : ℝ) : EReal)) = (M : EReal) := by
  apply le_antisymm
  · rw [Finset.fold_max_le]
    exact ⟨bot_le, fun i hi => EReal.coe_le_coe_iff.2 (hle i hi)⟩
  · rw [Finset.le_fold_max]
    obtain ⟨i, hi, h⟩ := hat
    exact Or.inr ⟨i, hi, by rw [h]⟩

/-- A nonempty finite family of reals has a maximum that is attained. -/
theorem exists_max_attained {ι : Type} [Fintype ι] [Nonempty ι] (f : ι → ℝ) :
    ∃ M : ℝ, (∀ i, f i ≤ M) ∧ ∃ i, f i = M := by
  obtain ⟨i, -, hi⟩ := Finset.exists_max_image (Finset.univ : Finset ι) f Finset.univ_nonempty
  exact ⟨f i, fun j => hi j (Finset.mem_univ j), i, rfl⟩

/-- A mask weight is the coercion of the real weight. -/
theorem wt_eq_coe (c : Bool) : wt c = (((if c then 1 else 0 : ℝ)) : EReal) := by
  cases c <;> simp [wt]

/-- A masked coerced score is the coercion of the masked score. -/
theorem ite_coe (c : Bool) (r : ℝ) :
    (if c then (r : EReal) else 0) = (((if c then r else 0 : ℝ)) : EReal) := by
  cases c <;> simp

/-! ### One tile folded into a state of coerced reals -/

/-- One step from a state of coerced reals \`(M, S, P, C)\` over a tile of real scores whose maximum \`Mt\` is attained:
    the new maximum is \`max M Mt\`, the old sum is rescaled by \`exp (M - max M Mt)\` and the tile's exponentials are added;
    all four components stay coerced reals. -/
theorem step_coe {W : ℕ} (x : Fin W → ℝ) (b : Fin W → Bool) (M S P C Mt : ℝ)
    (hle : ∀ q, x q ≤ Mt) (hat : ∃ q, x q = Mt) :
    step (fun q => ((x q : ℝ) : EReal)) b ((M : EReal), (S : EReal), (P : EReal), (C : EReal))
      = (((max M Mt : ℝ) : EReal),
         ((S * Real.exp (M - max M Mt) + ∑ q, Real.exp (x q - max M Mt) : ℝ) : EReal),
         ((P + ∑ q, (if b q then x q else 0) : ℝ) : EReal),
         ((C + ∑ q, (if b q then (1 : ℝ) else 0) : ℝ) : EReal)) := by
  have hf : (Finset.univ : Finset (Fin W)).fold max ⊥ (fun q => ((x q : ℝ) : EReal)) = (Mt : EReal) :=
    fold_max_coe_eq _ x Mt (fun q _ => hle q) (by obtain ⟨q, h⟩ := hat; exact ⟨q, Finset.mem_univ q, h⟩)
  unfold step
  simp only [hf]
  rw [← coe_max]
  refine Prod.ext rfl (Prod.ext ?_ (Prod.ext ?_ ?_))
  · simp only [← EReal.coe_sub, Ideal.exp_coe, ← EReal.coe_mul, ← coe_finset_sum, ← EReal.coe_add]
  · simp only [ite_coe, ← coe_finset_sum, ← EReal.coe_add]
  · simp only [wt_eq_coe, ← coe_finset_sum, ← EReal.coe_add]

/-- The first step, from the empty state \`(-∞, 0, 0, 0)\`: the rescaled old sum is \`0 · exp (-∞) = 0\`, so the state
    becomes the tile's own maximum, sum of shifted exponentials, masked sum and mask count. -/
theorem step_bot {W : ℕ} (x : Fin W → ℝ) (b : Fin W → Bool) (Mt : ℝ)
    (hle : ∀ q, x q ≤ Mt) (hat : ∃ q, x q = Mt) :
    step (fun q => ((x q : ℝ) : EReal)) b ((⊥ : EReal), (0 : EReal), (0 : EReal), (0 : EReal))
      = ((Mt : EReal),
         ((∑ q, Real.exp (x q - Mt) : ℝ) : EReal),
         ((∑ q, (if b q then x q else 0) : ℝ) : EReal),
         ((∑ q, (if b q then (1 : ℝ) else 0) : ℝ) : EReal)) := by
  have hf : (Finset.univ : Finset (Fin W)).fold max ⊥ (fun q => ((x q : ℝ) : EReal)) = (Mt : EReal) :=
    fold_max_coe_eq _ x Mt (fun q _ => hle q) (by obtain ⟨q, h⟩ := hat; exact ⟨q, Finset.mem_univ q, h⟩)
  unfold step
  simp only [hf]
  rw [max_eq_right (bot_le : (⊥ : EReal) ≤ (Mt : EReal))]
  refine Prod.ext rfl (Prod.ext ?_ (Prod.ext ?_ ?_))
  · simp only [zero_mul, zero_add, ← EReal.coe_sub, Ideal.exp_coe, ← coe_finset_sum]
  · simp only [zero_add, ite_coe, ← coe_finset_sum]
  · simp only [zero_add, wt_eq_coe, ← coe_finset_sum]

end Cert.SoftmaxRow

end
-- ==== Proof.LibOnlineSoftmax.lean ====
/-
  The tile-by-tile (online) form of one row of a masked log-softmax loss ends at the whole-row form.

  Invariant.  For real scores x, after k ≥ 1 tiles the running state is the quadruple of (coerced) reals
    M_k = the maximum of the scores in tiles < k (dominating, and attained),
    S_k = ∑ over tiles < k of exp (x - M_k),
    P_k = the masked sum of the scores in tiles < k,
    C_k = the number of set mask bits in tiles < k.
  One step keeps it: the new maximum is M' = max M_k (tile maximum), and
    S_k · exp (M_k - M') = ∑ exp (x - M_k) · exp (M_k - M') = ∑ exp (x - M')
  by exp a · exp b = exp (a + b).

  Closing.  At the end M is the row's maximum and S ≥ 1 (the maximal column contributes exp 0 = 1), so log S is a real.
  With C ≥ 1 (a positive count of 0/1 weights),
    -(∑_j ((x_j - M) - log S) · w_j) / C = -(P - (M + log S) · C) / C = (M + log S) - P / C,
  and with C = 0 both forms are 0.
-/
import proofs.«123914_j68728066671109_1_alg».proof.Proof.LibOnlineSoftmax1

noncomputable section

namespace Cert.SoftmaxRow

open Idealize.ShloMosaic

/-! ### Re-indexing the whole-row form -/

/-- The whole-row form does not depend on how the columns are indexed: a bijection of index types carries it over. -/
theorem refRow_equiv {J J' : Type} [Fintype J] [Fintype J'] (e : J ≃ J') (s : J' → EReal) (b : J' → Bool) :
    refRow (fun j => s (e j)) (fun j => b (e j)) = refRow s b := by
  have hM : (Finset.univ : Finset J).fold max ⊥ (fun j => s (e j)) = (Finset.univ : Finset J').fold max ⊥ s := by
    rw [← Finset.map_univ_equiv e, Finset.fold_map]
    rfl
  unfold refRow
  simp only [hM]
  rw [Equiv.sum_comp e (fun j => Ideal.exp (s j - (Finset.univ : Finset J').fold max ⊥ s)),
    Equiv.sum_comp e (fun j => wt (b j)),
    Equiv.sum_comp e (fun j => ((s j - (Finset.univ : Finset J').fold max ⊥ s)
      - Ideal.log (∑ j, Ideal.exp (s j - (Finset.univ : Finset J').fold max ⊥ s))) * wt (b j))]

/-! ### The tiles before tile k -/

/-- The tiles with index below \`k\`. -/
def tilesBelow (T k : ℕ) : Finset (Fin T) := Finset.univ.filter (fun t => t.val < k)

/-- A tile is below `k` exactly when its index is less than `k`. -/
theorem mem_tilesBelow {T k : ℕ} (t : Fin T) : t ∈ tilesBelow T k ↔ t.val < k := by
  simp [tilesBelow]

/-- Tile \`k\` is not among the tiles below \`k\`. -/
theorem not_mem_tilesBelow {T k : ℕ} (h : k < T) : (⟨k, h⟩ : Fin T) ∉ tilesBelow T k := by
  simp [mem_tilesBelow]

/-- The tiles below \`k + 1\` are tile \`k\` and the tiles below \`k\`. -/
theorem tilesBelow_succ {T k : ℕ} (h : k < T) :
    tilesBelow T (k + 1) = insert (⟨k, h⟩ : Fin T) (tilesBelow T k) := by
  ext t
  simp only [mem_tilesBelow, Finset.mem_insert, Fin.ext_iff]
  omega

/-- No tile is below \`0\`. -/
theorem tilesBelow_zero {T : ℕ} : tilesBelow T 0 = ∅ := by
  ext t
  simp [mem_tilesBelow]

/-- Every tile is below \`T\`. -/
theorem tilesBelow_self {T : ℕ} : tilesBelow T T = Finset.univ := by
  ext t
  simp [mem_tilesBelow]

/-! ### The invariant -/

/-- The state after the tiles below \`k\`: coerced reals \`(M, S, P, C)\` with \`M\` the attained maximum of the scores seen,
    \`S = ∑ exp (x - M)\`, \`P\` the masked sum of scores and \`C\` the mask count, all over the tiles below \`k\`. -/
def Inv {T W : ℕ} (x : Fin T → Fin W → ℝ) (b : Fin T → Fin W → Bool) (k : ℕ) (a : State) : Prop :=
  ∃ M : ℝ, (∀ t ∈ tilesBelow T k, ∀ q, x t q ≤ M) ∧ (∃ t ∈ tilesBelow T k, ∃ q, x t q = M) ∧
    a = ((M : EReal),
         ((∑ t ∈ tilesBelow T k, ∑ q, Real.exp (x t q - M) : ℝ) : EReal),
         ((∑ t ∈ tilesBelow T k, ∑ q, (if b t q then x t q else 0) : ℝ) : EReal),
         ((∑ t ∈ tilesBelow T k, ∑ q, (if b t q then (1 : ℝ) else 0) : ℝ) : EReal))

/-- Unfolding one tile of the recurrence. -/
theorem iter_succ {T W : ℕ} (x : Fin T → Fin W → EReal) (b : Fin T → Fin W → Bool) {k : ℕ} (h : k < T) :
    iter x b (k + 1) = step (x ⟨k, h⟩) (b ⟨k, h⟩) (iter x b k) := by
  rw [iter, dif_pos h]

/-- The invariant holds after the first tile. -/
theorem inv_one {T W : ℕ} (hT : 0 < T) (hW : 0 < W) (x : Fin T → Fin W → ℝ) (b : Fin T → Fin W → Bool) :
    Inv x b 1 (iter (fun k q => ((x k q : ℝ) : EReal)) b 1) := by
  haveI : Nonempty (Fin W) := ⟨⟨0, hW⟩⟩
  obtain ⟨Mt, hle, hat⟩ := exists_max_attained (x ⟨0, hT⟩)
  have h0 : tilesBelow T 1 = {(⟨0, hT⟩ : Fin T)} := by
    rw [tilesBelow_succ hT, tilesBelow_zero]; rfl
  refine ⟨Mt, ?_, ?_, ?_⟩
  · intro t ht q
    rw [h0, Finset.mem_singleton] at ht
    subst ht
    exact hle q
  · obtain ⟨q, hq⟩ := hat
    exact ⟨⟨0, hT⟩, by rw [h0]; exact Finset.mem_singleton_self _, q, hq⟩
  · rw [iter_succ _ _ hT]
    show step (fun q => ((x ⟨0, hT⟩ q : ℝ) : EReal)) (b ⟨0, hT⟩) ((⊥ : EReal), (0 : EReal), (0 : EReal), (0 : EReal)) = _
    rw [step_bot (x ⟨0, hT⟩) (b ⟨0, hT⟩) Mt hle hat, h0]
    simp only [Finset.sum_singleton]

/-- One more tile keeps the invariant: the rescaling \`exp (M - M')\` turns every \`exp (x - M)\` into \`exp (x - M')\`. -/
theorem inv_succ {T W : ℕ} (hW : 0 < W) (x : Fin T → Fin W → ℝ) (b : Fin T → Fin W → Bool) {k : ℕ} (h : k < T)
    (hk : Inv x b k (iter (fun k q => ((x k q : ℝ) : EReal)) b k)) :
    Inv x b (k + 1) (iter (fun k q => ((x k q : ℝ) : EReal)) b (k + 1)) := by
  haveI : Nonempty (Fin W) := ⟨⟨0, hW⟩⟩
  obtain ⟨M, hle, hat, heq⟩ := hk
  obtain ⟨Mt, hlet, hatt⟩ := exists_max_attained (x ⟨k, h⟩)
  have hn := not_mem_tilesBelow h
  refine ⟨max M Mt, ?_, ?_, ?_⟩
  · intro t ht q
    rw [tilesBelow_succ h, Finset.mem_insert] at ht
    rcases ht with rfl | ht
    · exact le_trans (hlet q) (le_max_right _ _)
    · exact le_trans (hle t ht q) (le_max_left _ _)
  · rcases le_total M Mt with hm | hm
    · obtain ⟨q, hq⟩ := hatt
      exact ⟨⟨k, h⟩, by rw [tilesBelow_succ h]; exact Finset.mem_insert_self _ _, q, by rw [max_eq_right hm]; exact hq⟩
    · obtain ⟨t, ht, q, hq⟩ := hat
      exact ⟨t, by rw [tilesBelow_succ h]; exact Finset.mem_insert_of_mem ht, q, by rw [max_eq_left hm]; exact hq⟩
  · rw [iter_succ _ _ h, heq]
    show step (fun q => ((x ⟨k, h⟩ q : ℝ) : EReal)) (b ⟨k, h⟩) _ = _
    rw [step_coe (x ⟨k, h⟩) (b ⟨k, h⟩) M _ _ _ Mt hlet hatt, tilesBelow_succ h,
      Finset.sum_insert hn, Finset.sum_insert hn, Finset.sum_insert hn]
    have hS : (∑ t ∈ tilesBelow T k, ∑ q, Real.exp (x t q - M)) * Real.exp (M - max M Mt)
        = ∑ t ∈ tilesBelow T k, ∑ q, Real.exp (x t q - max M Mt) := by
      rw [Finset.sum_mul]
      refine Finset.sum_congr rfl fun t _ => ?_
      rw [Finset.sum_mul]
      refine Finset.sum_congr rfl fun q _ => ?_
      rw [← Real.exp_add]
      congr 1
      ring
    rw [hS, add_comm (∑ t ∈ tilesBelow T k, ∑ q, Real.exp (x t q - max M Mt)),
      add_comm (∑ t ∈ tilesBelow T k, ∑ q, (if b t q then x t q else 0)),
      add_comm (∑ t ∈ tilesBelow T k, ∑ q, (if b t q then (1 : ℝ) else 0))]

/-- The invariant holds after any positive number of tiles. -/
theorem inv_iter {T W : ℕ} (hT : 0 < T) (hW : 0 < W) (x : Fin T → Fin W → ℝ) (b : Fin T → Fin W → Bool) :
    ∀ k, 1 ≤ k → k ≤ T → Inv x b k (iter (fun k q => ((x k q : ℝ) : EReal)) b k) := by
  intro k hk
  induction k, hk using Nat.le_induction with
  | base => intro _; exact inv_one hT hW x b
  | succ k _ ih => intro hkT; exact inv_succ hW x b (Nat.lt_of_succ_le hkT) (ih (Nat.le_of_succ_le hkT))

/-! ### The closing algebra -/

/-- A positive sum of 0/1 weights is at least 1. -/
theorem one_le_count {J : Type} [Fintype J] (b : J → Bool)
    (h : 0 < ∑ j, (if b j then (1 : ℝ) else 0)) : 1 ≤ ∑ j, (if b j then (1 : ℝ) else 0) := by
  by_contra hlt
  have hall : ∀ j, b j = false := by
    intro j
    by_contra hj
    apply hlt
    have hj' : b j = true := by simpa using hj
    calc (1 : ℝ) = (if b j then (1 : ℝ) else 0) := by simp [hj']
      _ ≤ ∑ j, (if b j then (1 : ℝ) else 0) :=
        Finset.single_le_sum (f := fun j => if b j then (1 : ℝ) else 0)
          (fun i _ => by split <;> norm_num) (Finset.mem_univ j)
  simp [hall] at h

/-- The masked sum of the shifted log-softmax, in the reals: \`∑ ((x - M) - L) · w = P - (M + L) · C\`. -/
theorem sum_shifted_mul_wt {J : Type} [Fintype J] (x : J → ℝ) (b : J → Bool) (M L : ℝ) :
    ∑ j, ((x j - M) - L) * (if b j then (1 : ℝ) else 0)
      = (∑ j, (if b j then x j else 0)) - (M + L) * ∑ j, (if b j then (1 : ℝ) else 0) := by
  rw [Finset.mul_sum, ← Finset.sum_sub_distrib]
  refine Finset.sum_congr rfl fun j _ => ?_
  cases b j <;> simp <;> ring

/-- From a final state of coerced reals \`(M, ∑ exp (x - M), P, C)\` with \`M\` the attained maximum of the row, the
    tile-by-tile loss \`(M + log S) - P / C\` is the whole-row loss \`-(∑ ((x - M) - log S) · w) / C\`; both are \`0\` when no
    mask bit is set. -/
theorem finish_coe_eq_refRow {J : Type} [Fintype J] (x : J → ℝ) (b : J → Bool) (M : ℝ)
    (hle : ∀ j, x j ≤ M) (hat : ∃ j, x j = M) :
    finish ((M : EReal),
            ((∑ j, Real.exp (x j - M) : ℝ) : EReal),
            ((∑ j, (if b j then x j else 0) : ℝ) : EReal),
            ((∑ j, (if b j then (1 : ℝ) else 0) : ℝ) : EReal))
      = refRow (fun j => ((x j : ℝ) : EReal)) b := by
  have hS : 1 ≤ ∑ j, Real.exp (x j - M) := by
    obtain ⟨j, hj⟩ := hat
    calc (1 : ℝ) = Real.exp (x j - M) := by rw [hj, sub_self, Real.exp_zero]
      _ ≤ ∑ j, Real.exp (x j - M) :=
        Finset.single_le_sum (f := fun j => Real.exp (x j - M))
          (fun i _ => (Real.exp_pos _).le) (Finset.mem_univ j)
  have hfold : (Finset.univ : Finset J).fold max ⊥ (fun j => ((x j : ℝ) : EReal)) = (M : EReal) :=
    fold_max_coe_eq _ x M (fun j _ => hle j) (by obtain ⟨j, h⟩ := hat; exact ⟨j, Finset.mem_univ j, h⟩)
  have hsum : ∑ j, Ideal.exp (((x j : ℝ) : EReal) - (M : EReal)) = ((∑ j, Real.exp (x j - M) : ℝ) : EReal) := by
    simp only [← EReal.coe_sub, Ideal.exp_coe, ← coe_finset_sum]
  have hlog : Ideal.log ((∑ j, Real.exp (x j - M) : ℝ) : EReal)
      = ((Real.log (∑ j, Real.exp (x j - M)) : ℝ) : EReal) := by
    rw [Ideal.log_coe, if_neg (not_le.2 (lt_of_lt_of_le one_pos hS))]
  have hcnt : ∑ j, wt (b j) = ((∑ j, (if b j then (1 : ℝ) else 0) : ℝ) : EReal) := by
    simp only [wt_eq_coe, ← coe_finset_sum]
  have hnum : ∑ j, ((((x j : ℝ) : EReal) - (M : EReal)) - ((Real.log (∑ j, Real.exp (x j - M)) : ℝ) : EReal)) * wt (b j)
      = ((∑ j, ((x j - M) - Real.log (∑ j, Real.exp (x j - M))) * (if b j then (1 : ℝ) else 0) : ℝ) : EReal) := by
    simp only [wt_eq_coe, ← EReal.coe_sub, ← EReal.coe_mul, ← coe_finset_sum]
  unfold finish refRow
  simp only [hfold, hsum, hlog, hcnt, hnum]
  by_cases hC : 0 < ∑ j, (if b j then (1 : ℝ) else 0)
  · have hC1 : 1 ≤ ∑ j, (if b j then (1 : ℝ) else 0) := one_le_count b hC
    have hmax : max ((∑ j, (if b j then (1 : ℝ) else 0) : ℝ) : EReal) 1
        = ((∑ j, (if b j then (1 : ℝ) else 0) : ℝ) : EReal) :=
      max_eq_left (by exact_mod_cast hC1)
    rw [if_pos (EReal.coe_pos.2 hC), if_pos (EReal.coe_pos.2 hC), hmax,
      Ideal.div_coe (ne_of_gt hC), Ideal.div_coe (ne_of_gt hC),
      ← EReal.coe_neg, ← EReal.coe_mul, ← EReal.coe_mul, ← EReal.coe_add, ← EReal.coe_sub,
      sum_shifted_mul_wt]
    congr 1
    field_simp
    ring
  · rw [if_neg (fun h => hC (EReal.coe_pos.1 h)), if_neg (fun h => hC (EReal.coe_pos.1 h))]

/-! ### The tile-by-tile form ends at the whole-row form -/

/-- For real scores in \`T ≥ 1\` tiles of \`W ≥ 1\` columns, the loss read off the final state of the tile-by-tile recurrence
    (running maximum, rescaled running sum, masked sum, mask count) is the whole-row masked log-softmax loss over the
    \`T · W\` columns. -/
theorem finish_iter_eq_refRow {T W : ℕ} (hT : 0 < T) (hW : 0 < W) (x : Fin T → Fin W → ℝ) (b : Fin T → Fin W → Bool) :
    finish (iter (fun k q => ((x k q : ℝ) : EReal)) b T)
      = refRow (J := Fin T × Fin W) (fun kq => ((x kq.1 kq.2 : ℝ) : EReal)) (fun kq => b kq.1 kq.2) := by
  obtain ⟨M, hle, hat, heq⟩ := inv_iter hT hW x b T hT le_rfl
  rw [tilesBelow_self] at hle hat heq
  have h := finish_coe_eq_refRow (J := Fin T × Fin W) (fun p => x p.1 p.2) (fun p => b p.1 p.2) M
    (fun p => hle p.1 (Finset.mem_univ _) p.2)
    (by obtain ⟨t, _, q, hq⟩ := hat; exact ⟨(t, q), hq⟩)
  rw [Fintype.sum_prod_type, Fintype.sum_prod_type, Fintype.sum_prod_type] at h
  rw [heq]
  exact h

end Cert.SoftmaxRow

end
-- ==== Proof.KernelState.lean ====
/-
  The kernel's loop state, row by row.

  Before trip `n` the four carried [1024, 1] vectors hold, at row `p`, exactly the state of the tile recurrence
  `SoftmaxRow.iter` after `n` tiles, fed with row `p` of each tile's scaled similarities and mask bits: they start at
  `(-∞, 0, 0, 0)`, and one trip is one `SoftmaxRow.step` at every row (the trip's yield, read at the row).
-/
import proofs.«123914_j68728066671109_1_alg».proof.Proof.KernelTrip
import proofs.«123914_j68728066671109_1_alg».proof.Proof.KernelPay4
import proofs.«123914_j68728066671109_1_alg».proof.Proof.LibOnlineSoftmax

set_option maxRecDepth 8192

noncomputable section

namespace Cert.KernelIdeal.Pay

open Cert.KernelIdeal Cert.KernelIdeal.Gen Idealize.ShloMosaic Idealize.ShloMosaic.ValueIdx Idealize.SL.Sem Cert.SoftmaxRow

/-- Row `p` of tile `k`'s scaled similarities. -/
def tileScore (arg2 : Memref sig .tc .vmem S8192x256 .f32) (v0 : Vec Ideal S1024x256 .f32) (X2 : BufTy.Contents (Elt Ideal) arg2.view.ty)
    (p : Fin 1024) (k : Fin k0_t1_loop.trips) (q : Fin 512) : EReal :=
  k0_pay10 (k0_pay1 v0) (keyTile arg2 X2 k) (ix2 p q)

/-- Row `p` of tile `k`'s mask bits. -/
def tileMask (i : grid0.Coords) (arg4 : Memref sig .tc .vmem S1x8192 .i32) (v10 : Vec Ideal S1024x1 .i32) (X4 : BufTy.Contents (Elt Ideal) arg4.view.ty)
    (p : Fin 1024) (k : Fin k0_t1_loop.trips) (q : Fin 512) : Bool :=
  mb (k0_pay2 v10) (k0_pay3 i) (0#32) (1#32) k (labTile arg4 X4 k) p q

theorem state_row (𝒱 : Variants) (c : Dev nD) (bd : Option 𝒱.V) (i : grid0.Coords) (arg1 : Memref sig .tc .vmem S1024x256 .f32) (harg1 : arg1.IsWhole) (arg2 : Memref sig .tc .vmem S8192x256 .f32) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (v0 : Vec Ideal S1024x256 .f32) (v10 : Vec Ideal S1024x1 .i32) (X2 : BufTy.Contents (Elt Ideal) arg2.view.ty) (X4 : BufTy.Contents (Elt Ideal) arg4.view.ty) (p : Fin 1024) :
    ∀ n, n ≤ k0_t1_loop.trips →
      ((st_k0_t1 (F := Ideal) 𝒱 c bd i arg1 harg1 arg2 harg2 arg3 harg3 arg4 harg4 arg5 harg5 v0 v10 X2 X4 (k0_pay4, k0_pay5, k0_pay6, k0_pay7) n).1 (ix2 p (0 : Fin 1)),
       (st_k0_t1 (F := Ideal) 𝒱 c bd i arg1 harg1 arg2 harg2 arg3 harg3 arg4 harg4 arg5 harg5 v0 v10 X2 X4 (k0_pay4, k0_pay5, k0_pay6, k0_pay7) n).2.1 (ix2 p (0 : Fin 1)),
       (st_k0_t1 (F := Ideal) 𝒱 c bd i arg1 harg1 arg2 harg2 arg3 harg3 arg4 harg4 arg5 harg5 v0 v10 X2 X4 (k0_pay4, k0_pay5, k0_pay6, k0_pay7) n).2.2.1 (ix2 p (0 : Fin 1)),
       (st_k0_t1 (F := Ideal) 𝒱 c bd i arg1 harg1 arg2 harg2 arg3 harg3 arg4 harg4 arg5 harg5 v0 v10 X2 X4 (k0_pay4, k0_pay5, k0_pay6, k0_pay7) n).2.2.2 (ix2 p (0 : Fin 1)))
        = iter (T := k0_t1_loop.trips) (W := 512) (tileScore arg2 v0 X2 p) (tileMask i arg4 v10 X4 p) n := by
  intro n
  induction n with
  | zero =>
    intro _
    exact init_apply p
  | succ n ih =>
    intro hn
    have h : n < k0_t1_loop.trips := hn
    have e := st_k0_t1_succ (F := Ideal) 𝒱 c bd i arg1 harg1 arg2 harg2 arg3 harg3 arg4 harg4 arg5 harg5 v0 v10 X2 X4 (k0_pay4, k0_pay5, k0_pay6, k0_pay7) (⟨n, h⟩ : Fin k0_t1_loop.trips)
    rw [show (⟨n, h⟩ : Fin k0_t1_loop.trips).val + 1 = n + 1 from rfl] at e
    rw [e, trip_eq, iter_succ _ _ h, ← ih (Nat.le_of_lt h)]
    exact trip_row _ _ _ _ _ _ _ _ _ _ _ _ p

end Cert.KernelIdeal.Pay

end
-- ==== Proof.KernelPay5.lean ====
/-
  The kernel's mask bit at the arguments one trip really passes — the block's labels, its rows' global numbers, a loop
  from `0` by `1` — with the two 32-bit numbers compared as naturals: row `p` of block `i` is row `i · 1024 + p` of the
  array, column `q` of tile `k` is row `k · 512 + q`; both are below `2^32`, so the words differ exactly when the numbers do.
-/
import proofs.«123914_j68728066671109_1_alg».proof.Proof.Gen.KernelIdeal.Skeleton
import proofs.«123914_j68728066671109_1_alg».proof.Proof.KernelPay3
import Idealize.ShloMosaic.Lib.ValueIdx

noncomputable section

namespace Cert.KernelIdeal.Pay

open Idealize.ShloMosaic Idealize.ShloMosaic.ValueIdx Cert.KernelIdeal Cert.KernelIdeal.Gen

/-- Two naturals below `2^32` have the same 32-bit word exactly when they are equal. -/
theorem ofNat32_eq_iff {a b : ℕ} (ha : a < 4294967296) (hb : b < 4294967296) :
    BitVec.ofNat 32 a = BitVec.ofNat 32 b ↔ a = b := by
  constructor
  · intro h
    have h' := congrArg BitVec.toNat h
    rw [BitVec.toNat_ofNat, BitVec.toNat_ofNat] at h'
    have e : (2 : ℕ) ^ 32 = 4294967296 := by norm_num
    rw [e, Nat.mod_eq_of_lt ha, Nat.mod_eq_of_lt hb] at h'
    exact h'
  · intro h; rw [h]

/-- The loop over key tiles has at most 16 trips. -/
theorem trips_le : k0_t1_loop.trips ≤ 16 := k0_t1_abs.2.1

/-- The mask bit of one trip of grid point `i`: the labels agree and the row's global number `i · 1024 + p` is not the
    column's `k · 512 + q`. -/
theorem mb_numbers (v10 : Vec Ideal S1024x1 .i32) (i : grid0.Coords) (k : Fin k0_t1_loop.trips)
    (v51 : Vec Ideal S1x512 .i32) (p : Fin 1024) (q : Fin 512) :
    mb (k0_pay2 v10) (k0_pay3 i) 0#32 1#32 k v51 p q
      = (decide (v10 (ix2 p (0 : Fin 1)) = v51 (ix2 (0 : Fin 1) q))
          && decide ((i 0).val * 1024 + p.val ≠ k.val * 512 + q.val)) := by
  have hi : (i 0).val < 8 := (i 0).isLt
  have hk : k.val < 16 := Nat.lt_of_lt_of_le k.isLt trips_le
  have hp := p.isLt
  have hq := q.isLt
  unfold mb
  rw [labels_eq, rownum_apply', colWord_zero_one]
  have hne : (BitVec.ofNat 32 ((i 0).val * 1024 + p.val) ≠ BitVec.ofNat 32 (k.val * 512 + q.val))
      ↔ ((i 0).val * 1024 + p.val ≠ k.val * 512 + q.val) :=
    not_congr (ofNat32_eq_iff (by omega) (by omega))
  rw [decide_eq_decide.mpr hne]

end Cert.KernelIdeal.Pay

end
-- ==== Proof.SpecLaws.lean ====
/-
  Laws of the specification (Spec.lean).

  * The float words it carries denote rationals: the temperature word is `9395241 / 2^27`, so dividing by it is multiplying
    by `2^27 / 9395241` — the two spellings of the similarity agree (`simK_eq_simR`); the clamp `ε` is a positive real.
  * When every embedding entry is a real number, so is every similarity: a row's clamped norm is a positive real (the
    maximum of a square root and `ε > 0`), a quotient by it is a real, and sums and products of reals are reals
    (`simK_real`).
  * Hence a row's loss computed tile by tile — 16 tiles of 512 columns, column `512·k + q` in tile `k` — is the row's loss
    computed from the whole row (`row_eq`): the tile recurrence ends at the whole-row formula over the index pairs
    `(k, q)` (the general online-softmax lemma), and the pairs `(k, q)` are the columns `512·k + q`.
-/
import proofs.«123914_j68728066671109_1_alg».proof.Proof.Spec
import proofs.«123914_j68728066671109_1_alg».proof.Proof.LibOnlineSoftmax

noncomputable section

namespace Cert.Spec

open Idealize.ShloMosaic Idealize.ShloMosaic.ValueIdx Cert.SoftmaxRow

/-! ### The float words -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_ninf : Ideal.ofBits .f32 0xFF800000#32 = ⊥ := by
  simp [Ideal.ofBits, Ideal.ieee]

/-- The temperature word is `9395241 / 2^27`. -/
theorem tempD_eq : tempD = ((9395241 / 134217728 : ℝ) : EReal) := by
  unfold tempD
  simp [Ideal.ofBits, Ideal.ieee, -EReal.coe_mul]; norm_num

/-- The row count is `8192`. -/
theorem nRows_eq : nRows = ((8192 : ℝ) : EReal) := by
  unfold nRows
  simp [Ideal.ofBits, Ideal.ieee, -EReal.coe_mul]; norm_num

/-- The clamp is a positive real. -/
theorem eps_pos : ∃ r : ℝ, 0 < r ∧ eps = (r : EReal) := by
  refine ⟨9223372 / 9223372036854775808, by norm_num, ?_⟩
  unfold eps
  simp [Ideal.ofBits, Ideal.ieee, -EReal.coe_mul]; norm_num

/-! ### The two spellings of the similarity -/

theorem simK_eq_simR (E : Emb) (i j : Fin 8192) : simK E i j = simR E i j := by
  unfold simK simR invTemp
  rw [tempD_eq, Ideal.div_coe (by norm_num : (9395241 / 134217728 : ℝ) ≠ 0)]
  congr 2
  norm_num

/-! ### Real embeddings give real similarities -/

/-- A quotient of a real by a nonzero real is a real. -/
theorem div_real (a r : ℝ) (hr : r ≠ 0) : Ideal.div (a : EReal) (r : EReal) = ((a / r : ℝ) : EReal) := by
  rw [Ideal.div_coe hr, ← EReal.coe_mul]; congr 1; ring

theorem nrm_real (E : Emb) (f : (⟨2, ![8192, 256]⟩ : Shape).Idx → ℝ) (hE : ∀ x, E x = (f x : EReal)) (i : Fin 8192) :
    ∃ r : ℝ, 0 < r ∧ nrm E i = (r : EReal) := by
  obtain ⟨e, he, heq⟩ := eps_pos
  have hs : (∑ d : Fin 256, E (ix2 i d) * E (ix2 i d)) = ((∑ d : Fin 256, f (ix2 i d) * f (ix2 i d) : ℝ) : EReal) := by
    rw [coe_finset_sum]; refine Finset.sum_congr rfl fun d _ => ?_; rw [hE, EReal.coe_mul]
  have hnn : ¬ (∑ d : Fin 256, f (ix2 i d) * f (ix2 i d)) < 0 :=
    not_lt.mpr (Finset.sum_nonneg fun d _ => mul_self_nonneg _)
  refine ⟨max (Real.sqrt (∑ d : Fin 256, f (ix2 i d) * f (ix2 i d))) e, lt_max_of_lt_right he, ?_⟩
  unfold nrm
  rw [hs, Ideal.sqrt_coe, if_neg hnn, heq, coe_max]

theorem en_real (E : Emb) (f : (⟨2, ![8192, 256]⟩ : Shape).Idx → ℝ) (hE : ∀ x, E x = (f x : EReal)) (i : Fin 8192) (d : Fin 256) :
    ∃ r : ℝ, en E i d = (r : EReal) := by
  obtain ⟨n, hn, hnq⟩ := nrm_real E f hE i
  exact ⟨f (ix2 i d) / n, by unfold en; rw [hE, hnq, div_real _ _ hn.ne']⟩

theorem simK_real (E : Emb) (f : (⟨2, ![8192, 256]⟩ : Shape).Idx → ℝ) (hE : ∀ x, E x = (f x : EReal)) (i : Fin 8192) :
    ∃ x : Fin 8192 → ℝ, ∀ j, simK E i j = (x j : EReal) := by
  choose g hg using fun (p : Fin 8192 × Fin 256) => en_real E f hE p.1 p.2
  refine ⟨fun j => (∑ d : Fin 256, g (i, d) * g (j, d)) * (134217728 / 9395241), fun j => ?_⟩
  unfold simK dotp invTemp
  rw [EReal.coe_mul, coe_finset_sum]
  congr 1
  refine Finset.sum_congr rfl fun d _ => ?_
  rw [hg (i, d), hg (j, d), EReal.coe_mul]

/-! ### A row, tile by tile -/

/-- Column `512·k + q`: column `q` of tile `k`. -/
def col (k : Fin 16) (q : Fin 512) : Fin 8192 := ⟨512 * k.val + q.val, by omega⟩

/-- The tiles' columns are all the columns, once each. -/
def colEquiv : Fin 16 × Fin 512 ≃ Fin 8192 where
  toFun kq := col kq.1 kq.2
  invFun j := (⟨j.val / 512, by omega⟩, ⟨j.val % 512, Nat.mod_lt _ (by norm_num)⟩)
  left_inv kq := by
    obtain ⟨⟨k, hk⟩, ⟨q, hq⟩⟩ := kq
    simp only [col, Prod.mk.injEq, Fin.mk.injEq]
    constructor <;> omega
  right_inv j := by
    obtain ⟨j, hj⟩ := j
    simp only [col, Fin.mk.injEq]
    omega

/-- A row's loss folded over the 16 tiles is the row's loss. -/
theorem row_eq (E : Emb) (Lb : Lab) (f : (⟨2, ![8192, 256]⟩ : Shape).Idx → ℝ) (hE : ∀ x, E x = (f x : EReal)) (i : Fin 8192) :
    finish (iter (fun (k : Fin 16) (q : Fin 512) => simK E i (col k q)) (fun k q => maskb Lb i (col k q)) 16)
      = rowLoss E Lb i := by
  obtain ⟨x, hx⟩ := simK_real E f hE i
  have h1 : (fun (k : Fin 16) (q : Fin 512) => simK E i (col k q)) = fun k q => ((x (col k q) : ℝ) : EReal) := by
    funext k q; exact hx _
  rw [h1, finish_iter_eq_refRow (by norm_num) (by norm_num) (fun k q => x (col k q)) (fun k q => maskb Lb i (col k q))]
  unfold rowLoss
  have h2 : (fun j => simR E i j) = fun j => ((x j : ℝ) : EReal) := by
    funext j; rw [← simK_eq_simR]; exact hx j
  rw [show simR E i = fun j => ((x j : ℝ) : EReal) from h2]
  exact refRow_equiv colEquiv (fun j => ((x j : ℝ) : EReal)) (maskb Lb i)

/-- The same column, for a tile count known to be 16 only through an equation (a loop's trip count). -/
def colT {T : ℕ} (hT : T = 16) (k : Fin T) (q : Fin 512) : Fin 8192 := ⟨512 * k.val + q.val, by have := k.isLt; omega⟩

/-- `row_eq` at such a tile count. -/
theorem row_eqT {T : ℕ} (hT : T = 16) (E : Emb) (Lb : Lab) (f : (⟨2, ![8192, 256]⟩ : Shape).Idx → ℝ)
    (hE : ∀ x, E x = (f x : EReal)) (i : Fin 8192) :
    finish (iter (fun (k : Fin T) (q : Fin 512) => simK E i (colT hT k q)) (fun k q => maskb Lb i (colT hT k q)) T)
      = rowLoss E Lb i := by
  subst hT
  exact row_eq E Lb f hE i

end Cert.Spec

end
-- ==== Proof.KernelPay6.lean ====
/-
  A tile's scaled similarity and mask bit, in terms of the whole arrays.

  Grid point `t` holds rows `1024·t …` of the embeddings as its query block, and trip `k` loads rows `512·k …` as its key
  tile; likewise the labels. When the block and the tiles read the arrays' entries at those rows, the tile's score at
  `(p, q)` is the specification's similarity of rows `1024·t + p` and `512·k + q` (both rows normalised by their own
  clamped norms, the inner product scaled by the named reciprocal temperature), and the tile's mask bit is the
  specification's: same label, another row — the two 32-bit row numbers differ exactly when the rows do.
-/
import proofs.«123914_j68728066671109_1_alg».proof.Proof.KernelState
import proofs.«123914_j68728066671109_1_alg».proof.Proof.KernelPay2
import proofs.«123914_j68728066671109_1_alg».proof.Proof.KernelPay5
import proofs.«123914_j68728066671109_1_alg».proof.Proof.SpecLaws

noncomputable section

namespace Cert.KernelIdeal.Pay

open Cert.KernelIdeal Cert.KernelIdeal.Gen Idealize.ShloMosaic Idealize.ShloMosaic.ValueIdx Idealize.SL.Sem
open scoped BigOperators

/-- The loop over key tiles has exactly 16 trips. -/
theorem trips_eq : k0_t1_loop.trips = 16 := rfl

/-- The tile's score at `(p, q)` is the similarity of the two rows of the embeddings. -/
theorem score_global (E : Cert.Spec.Emb) (t : Fin 8) (arg2 : Memref sig .tc .vmem S8192x256 .f32)
    (v0 : Vec Ideal S1024x256 .f32) (X2 : BufTy.Contents (Elt Ideal) arg2.view.ty)
    (p : Fin 1024) (k : Fin k0_t1_loop.trips) (q : Fin 512)
    (hv0 : ∀ (p' : Fin 1024) (d : Fin 256), v0 (ix2 p' d) = E (ix2 (⟨1024 * t.val + p'.val, by omega⟩ : Fin 8192) d))
    (hK : ∀ (q' : Fin 512) (d : Fin 256), keyTile arg2 X2 k (ix2 q' d) = E (ix2 (Cert.Spec.colT rfl k q') d)) :
    tileScore arg2 v0 X2 p k q
      = Cert.Spec.simK E (⟨1024 * t.val + p.val, by omega⟩ : Fin 8192) (Cert.Spec.colT rfl k q) := by
  unfold tileScore
  rw [sim_apply]
  unfold Cert.Spec.simK Cert.Spec.dotp
  refine congrArg (· * Cert.Spec.invTemp) (Finset.sum_congr rfl fun d _ => ?_)
  rw [qn_apply]
  unfold kn Cert.Spec.en Cert.Spec.nrm
  simp only [hv0, hK]

/-- The tile's mask bit at `(p, q)` is the specification's: the two rows' labels agree and the rows differ. -/
theorem mask_global (Lb : Cert.Spec.Lab) (t : Fin 8) (i : grid0.Coords) (hi : (i 0).val = t.val)
    (arg4 : Memref sig .tc .vmem S1x8192 .i32) (v10 : Vec Ideal S1024x1 .i32)
    (X4 : BufTy.Contents (Elt Ideal) arg4.view.ty) (p : Fin 1024) (k : Fin k0_t1_loop.trips) (q : Fin 512)
    (hv10 : ∀ p' : Fin 1024, v10 (ix2 p' (0 : Fin 1)) = Lb (ix1 (⟨1024 * t.val + p'.val, by omega⟩ : Fin 8192)))
    (hL : ∀ q' : Fin 512, labTile arg4 X4 k (ix2 (0 : Fin 1) q') = Lb (ix1 (Cert.Spec.colT rfl k q'))) :
    tileMask i arg4 v10 X4 p k q
      = Cert.Spec.maskb Lb (⟨1024 * t.val + p.val, by omega⟩ : Fin 8192) (Cert.Spec.colT rfl k q) := by
  have hk : k.val < 16 := k.isLt
  have hne : ((i 0).val * 1024 + p.val ≠ k.val * 512 + q.val)
      ↔ ((⟨1024 * t.val + p.val, by omega⟩ : Fin 8192) ≠ Cert.Spec.colT rfl k q) := by
    unfold Cert.Spec.colT
    rw [hi, Ne, Ne, Fin.mk.injEq]
    omega
  unfold tileMask Cert.Spec.maskb
  rw [mb_numbers, hv10, hL, decide_eq_decide.mpr hne]

end Cert.KernelIdeal.Pay

end
-- ==== Proof.KernelPay7.lean ====
/-
  The two tile loads of one trip, read at an index, through a whole staging memref held at the contents that read a given
  array: trip `k` loads rows `512·k …` of the staged `[8192, 256]` array, so its key tile at `(q, d)` is the array at
  `(512·k + q, d)`; and entries `512·k …` of the staged `[1, 8192]` label row, so its label tile at `(0, q)` is the row
  at `(0, 512·k + q)`. A unit-stride load reads, on each axis, its offset plus the coordinate.
-/
import proofs.«123914_j68728066671109_1_alg».proof.Proof.KernelTrip
import proofs.«123914_j68728066671109_1_alg».proof.Proof.SpecLaws
import Idealize.ShloMosaic.Lib.ValueIdx
import Idealize.ShloMosaic.Lib.WholeRead

noncomputable section

namespace Cert.KernelIdeal.Pay

open Cert.KernelIdeal Cert.KernelIdeal.Gen Idealize.ShloMosaic Idealize.ShloMosaic.ValueIdx Idealize.SL.Sem

/-- The key tile of trip `k`, through a whole memref held at the contents that read `X`: at `(q, d)` the array's entry
    at `(512·k + q, d)`. -/
theorem keyTile_unread (arg2 : Memref sig .tc .vmem S8192x256 .f32) (harg2 : arg2.IsWhole)
    (X : S8192x256.Idx → EReal) (k : Fin k0_t1_loop.trips) (q : Fin 512) (d : Fin 256) :
    keyTile (F := Ideal) arg2 (harg2.unread X) k (ix2 q d) = X (ix2 (Cert.Spec.colT rfl k q) d) := by
  unfold keyTile
  refine (harg2.readAt_unread (Val := Elt Ideal) X
    (Rect.unit (s := S8192x256) (k0_off1 k) S512x256.size (k0_off1_inb k)).toLoadRect (ix2 q d)).trans ?_
  refine congrArg X ?_
  funext a
  refine Fin.ext ?_
  match a with
  | ⟨0, _⟩ =>
    show k0_off1 k (0 : Fin 2) + 1 * q.val = 512 * k.val + q.val
    rw [k0_off1_eq k]
    show 512 * k.val + 1 * q.val = _
    rw [Nat.one_mul]
  | ⟨1, _⟩ =>
    show k0_off1 k (1 : Fin 2) + 1 * d.val = d.val
    rw [k0_off1_eq k]
    show 0 + 1 * d.val = _
    rw [Nat.one_mul, Nat.zero_add]

/-- The label tile of trip `k`, through a whole memref held at the contents that read `X`: at `(0, q)` the row's entry at
    `(0, 512·k + q)`. -/
theorem labTile_unread (arg4 : Memref sig .tc .vmem S1x8192 .i32) (harg4 : arg4.IsWhole)
    (X : S1x8192.Idx → BitVec 32) (k : Fin k0_t1_loop.trips) (q : Fin 512) :
    labTile (F := Ideal) arg4 (harg4.unread X) k (ix2 (0 : Fin 1) q)
      = X (ix2 (0 : Fin 1) (Cert.Spec.colT rfl k q)) := by
  unfold labTile
  refine (harg4.readAt_unread (Val := Elt Ideal) X
    (Rect.unit (s := S1x8192) (k0_off2 k) S1x512.size (k0_off2_inb k)).toLoadRect (ix2 (0 : Fin 1) q)).trans ?_
  refine congrArg X ?_
  funext a
  refine Fin.ext ?_
  match a with
  | ⟨0, _⟩ =>
    show k0_off2 k (0 : Fin 2) + 1 * 0 = 0
    rw [k0_off2_eq k]
    rfl
  | ⟨1, _⟩ =>
    show k0_off2 k (1 : Fin 2) + 1 * q.val = 512 * k.val + q.val
    rw [k0_off2_eq k]
    show 512 * k.val + 1 * q.val = _
    rw [Nat.one_mul]

end Cert.KernelIdeal.Pay

end
-- ==== Proof.KernelBlocks.lean ====
/-
  The kernel region's blocks and its output rows, in terms of the two argument arrays.

  At grid point `t` window 0's block is rows `1024·t …` of the embeddings and window 1's the whole array; window 2's
  block is entries `1024·t …` of the labels laid out as a column and window 3's all of them laid out as a row (the two
  layouts are the host's reshapes of the label vector, written before the region). With the blocks read this way, the
  tile recurrence the body runs at row `p` consumes exactly the specification's similarities and mask bits of row
  `1024·t + p` against the columns `512·k + q`; folded over the 16 tiles it ends at that row's loss, which is what the
  body stores at row `p`.
-/
import proofs.«123914_j68728066671109_1_alg».proof.Proof.KernelIdealRun
import proofs.«123914_j68728066671109_1_alg».proof.Proof.KernelPay6
import proofs.«123914_j68728066671109_1_alg».proof.Proof.KernelPay7
import proofs.«123914_j68728066671109_1_alg».proof.Proof.LibColumnLayout
import Idealize.ShloMosaic.Lib.StableHlo.Run

noncomputable section

namespace Cert.KernelIdeal.HandFrame

open Cert.KernelIdeal Cert.KernelIdeal.Gen Cert.KernelIdeal.Pay
open Idealize.ShloMosaic Idealize.ShloMosaic.TcCoe Idealize.ShloMosaic.ValueIdx Idealize.SL.Sem Cert.SoftmaxRow

variable (m : (ℓ : Loc nD τ sig) → Buf (Elt Ideal) ℓ)

/-- The output column: row `i` holds row `i`'s loss. -/
def Gout (E : Cert.Spec.Emb) (Lb : Cert.Spec.Lab) : S8192x1.Idx → EReal := fun i => Cert.Spec.rowLoss E Lb (i 0)

/-- The windows' block indices at every grid point, and the point's coordinate. -/
theorem idx_facts : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 2) = t.val ∧ win0_4.index t (1 : Fin 2) = 0
  ∧ ((grid0.coords t) 0).val = t.val :=
  (by decide +kernel : ∀ t : Fin grid0.N, _)

/-- A grid point's number is below 8. -/
theorem t_lt (t : Fin cfg0.N) : t.val < 8 := by
  have h := t.isLt
  have hN : cfg0.N = 8 := N_0
  omega

/-! ## The label arrays the region finds: the host's two reshapes of the label vector -/

/-- The column of labels is the label vector cast to `[8192, 1]`. -/
theorem V_v0 (c : Dev nD) :
    (V m c main_v0 : S8192x1.Idx → BitVec 32)
      = shapeCast S8192x1 (m ((c : Thread nD τ).loc main_arg1) : S8192.Idx → BitVec 32) shapeCasts_S8192_S8192x1 := by
  show StableHlo.after hostOps0 (V₀ m c) (Proc.devRef .tc main_v0) = _
  after_results
  rfl

/-- The row of labels is the label vector cast to `[1, 8192]`. -/
theorem V_v1 (c : Dev nD) :
    (V m c main_v1 : S1x8192.Idx → BitVec 32)
      = shapeCast S1x8192 (m ((c : Thread nD τ).loc main_arg1) : S8192.Idx → BitVec 32) shapeCasts_S8192_S1x8192 := by
  show StableHlo.after hostOps0 (V₀ m c) (Proc.devRef .tc main_v1) = _
  after_results
  rfl

/-! ## The four input windows' blocks, read at an index -/

/-- Window 0's block at point `t`: rows `1024·t …` of the embeddings. -/
theorem iblk0_apply (c : Dev nD) (t : Fin cfg0.N) (p : Fin 1024) (d : Fin 256) :
    (iblk m c 0 t : Vec Ideal S1024x256 .f32) (ix2 p d)
      = (m ((c : Thread nD τ).loc main_arg0) : S8192x256.Idx → EReal)
          (ix2 (⟨1024 * t.val + p.val, by have := t_lt t; omega⟩ : Fin 8192) d) := by
  have hi := idx_facts t
  unfold iblk
  rw [View.read_apply]
  show V m c main_arg0 _ = m (c.tc.loc main_arg0) _
  unfold V
  rw [W₁_arg0]
  congr 1
  funext a
  apply Fin.ext
  match a with
  | ⟨0, _⟩ => show win0_0.index t 0 * 1024 + 1 * p.val = 1024 * t.val + p.val; rw [hi.1]; omega
  | ⟨1, _⟩ => show win0_0.index t 1 * 256 + 1 * d.val = d.val; rw [hi.2.1]; omega

/-- Window 1's block at every point: the whole of the embeddings. -/
theorem iblk1_apply (c : Dev nD) (t : Fin cfg0.N) (x : S8192x256.Idx) :
    (iblk m c 1 t : Vec Ideal S8192x256 .f32) x = (m ((c : Thread nD τ).loc main_arg0) : S8192x256.Idx → EReal) x := by
  have hi := idx_facts t
  unfold iblk
  rw [View.read_apply]
  show V m c main_arg0 _ = m (c.tc.loc main_arg0) _
  unfold V
  rw [W₁_arg0]
  congr 1
  funext a
  apply Fin.ext
  match a with
  | ⟨0, _⟩ => show win0_1.index t 0 * 8192 + 1 * (x 0).val = (x 0).val; rw [hi.2.2.1]; omega
  | ⟨1, _⟩ => show win0_1.index t 1 * 256 + 1 * (x 1).val = (x 1).val; rw [hi.2.2.2.1]; omega

/-- Window 2's block at point `t`: entries `1024·t …` of the labels, as a column. -/
theorem iblk2_apply (c : Dev nD) (t : Fin cfg0.N) (p : Fin 1024) :
    (iblk m c 2 t : Vec Ideal S1024x1 .i32) (ix2 p (0 : Fin 1))
      = (m ((c : Thread nD τ).loc main_arg1) : S8192.Idx → BitVec 32)
          (ix1 (⟨1024 * t.val + p.val, by have := t_lt t; omega⟩ : Fin 8192)) := by
  have hi := idx_facts t
  unfold iblk
  rw [View.read_apply]
  show (V m c main_v0 : S8192x1.Idx → BitVec 32) _ = _
  rw [V_v0]
  refine (congrArg _ ?_ : _ = shapeCast S8192x1 (m ((c : Thread nD τ).loc main_arg1) : S8192.Idx → BitVec 32)
    shapeCasts_S8192_S8192x1 (ix2 (⟨1024 * t.val + p.val, by have := t_lt t; omega⟩ : Fin 8192) (0 : Fin 1))).trans
    (Cert.ColumnLayout.shapeCast_a_a1_apply _ _ _ _)
  funext a
  apply Fin.ext
  match a with
  | ⟨0, _⟩ => show win0_2.index t 0 * 1024 + 1 * p.val = 1024 * t.val + p.val; rw [hi.2.2.2.2.1]; omega
  | ⟨1, _⟩ => show win0_2.index t 1 * 1 + 1 * 0 = 0; rw [hi.2.2.2.2.2.1]

/-- Window 3's block at every point: all the labels, as a row. -/
theorem iblk3_apply (c : Dev nD) (t : Fin cfg0.N) (j : Fin 8192) :
    (iblk m c 3 t : Vec Ideal S1x8192 .i32) (ix2 (0 : Fin 1) j)
      = (m ((c : Thread nD τ).loc main_arg1) : S8192.Idx → BitVec 32) (ix1 j) := by
  have hi := idx_facts t
  unfold iblk
  rw [View.read_apply]
  show (V m c main_v1 : S1x8192.Idx → BitVec 32) _ = _
  rw [V_v1]
  refine (congrArg _ ?_ : _ = shapeCast S1x8192 (m ((c : Thread nD τ).loc main_arg1) : S8192.Idx → BitVec 32)
    shapeCasts_S8192_S1x8192 (ix2 (0 : Fin 1) j)).trans (shapeCast_a_1a_apply _ _ _ _)
  funext a
  apply Fin.ext
  match a with
  | ⟨0, _⟩ => show win0_3.index t 0 * 1 + 1 * 0 = 0; rw [hi.2.2.2.2.2.2.1]
  | ⟨1, _⟩ => show win0_3.index t 1 * 8192 + 1 * j.val = j.val; rw [hi.2.2.2.2.2.2.2.1]; omega

/-! ## What a point stores, row by row -/

/-- What point `t` stores at row `p` is row `1024·t + p`'s loss (every embedding entry a real number). -/
theorem outAt_row (c : Dev nD) (t : Fin cfg0.N) (f : S8192x256.Idx → ℝ)
    (hE : ∀ x, (m ((c : Thread nD τ).loc main_arg0) : S8192x256.Idx → EReal) x = (f x : EReal))
    (x : S1024x1.Idx) (k : S8192x1.Idx) (hk : (k 0).val = 1024 * t.val + (x 0).val) :
    outAt (F := Ideal) m c t x = Gout (m ((c : Thread nD τ).loc main_arg0)) (m ((c : Thread nD τ).loc main_arg1)) k := by
  obtain ⟨p, z, rfl⟩ : ∃ (p : Fin 1024) (z : Fin 1), x = ix2 p z := ⟨x 0, x 1, eq_ix2 x⟩
  obtain rfl : z = 0 := Subsingleton.elim _ _
  have ht := t_lt t
  have hs : ∀ (arg2 : Memref sig .tc .vmem S8192x256 .f32) (v0 : Vec Ideal S1024x256 .f32)
      (X2 : BufTy.Contents (Elt Ideal) arg2.view.ty)
      (hv0 : ∀ (p' : Fin 1024) (d : Fin 256), v0 (ix2 p' d)
        = (m ((c : Thread nD τ).loc main_arg0) : S8192x256.Idx → EReal) (ix2 (⟨1024 * (⟨t.val, ht⟩ : Fin 8).val + p'.val, by omega⟩ : Fin 8192) d))
      (hK : ∀ (k' : Fin k0_t1_loop.trips) (q' : Fin 512) (d : Fin 256), keyTile arg2 X2 k' (ix2 q' d)
        = (m ((c : Thread nD τ).loc main_arg0) : S8192x256.Idx → EReal) (ix2 (Cert.Spec.colT rfl k' q') d)),
      tileScore arg2 v0 X2 p
        = fun k' q' => Cert.Spec.simK (m ((c : Thread nD τ).loc main_arg0)) (⟨1024 * t.val + p.val, by omega⟩ : Fin 8192) (Cert.Spec.colT rfl k' q') :=
    fun arg2 v0 X2 hv0 hK => funext fun k' => funext fun q' =>
      score_global (m ((c : Thread nD τ).loc main_arg0)) ⟨t.val, ht⟩ arg2 v0 X2 p k' q' hv0 (hK k')
  have hm : ∀ (arg4 : Memref sig .tc .vmem S1x8192 .i32) (v10 : Vec Ideal S1024x1 .i32)
      (X4 : BufTy.Contents (Elt Ideal) arg4.view.ty)
      (hv10 : ∀ p' : Fin 1024, v10 (ix2 p' (0 : Fin 1))
        = (m ((c : Thread nD τ).loc main_arg1) : S8192.Idx → BitVec 32) (ix1 (⟨1024 * (⟨t.val, ht⟩ : Fin 8).val + p'.val, by omega⟩ : Fin 8192)))
      (hL : ∀ (k' : Fin k0_t1_loop.trips) (q' : Fin 512), labTile arg4 X4 k' (ix2 (0 : Fin 1) q')
        = (m ((c : Thread nD τ).loc main_arg1) : S8192.Idx → BitVec 32) (ix1 (Cert.Spec.colT rfl k' q'))),
      tileMask (grid0.coords t) arg4 v10 X4 p
        = fun k' q' => Cert.Spec.maskb (m ((c : Thread nD τ).loc main_arg1)) (⟨1024 * t.val + p.val, by omega⟩ : Fin 8192) (Cert.Spec.colT rfl k' q') :=
    fun arg4 v10 X4 hv10 hL => funext fun k' => funext fun q' =>
      mask_global (m ((c : Thread nD τ).loc main_arg1)) ⟨t.val, ht⟩ (grid0.coords t) (idx_facts t).2.2.2.2.2.2.2.2.2.2
        arg4 v10 X4 p k' q' hv10 (hL k')
  rw [outAt_eq, finish_row, state_row _ _ _ _ _ _ _ _ _ _ _ _ _ _ _ _ _ _ p _ le_rfl]
  rw [hs _ _ _ (fun p' d => iblk0_apply m c t p' d)
      (fun k' q' d => (keyTile_unread _ _ _ k' q' d).trans (iblk1_apply m c t _)),
    hm _ _ _ (fun p' => iblk2_apply m c t p')
      (fun k' q' => (labTile_unread _ _ _ k' q').trans (iblk3_apply m c t _))]
  refine (Cert.Spec.row_eqT (T := k0_t1_loop.trips) rfl (m ((c : Thread nD τ).loc main_arg0))
    (m ((c : Thread nD τ).loc main_arg1)) f hE (⟨1024 * t.val + p.val, by omega⟩ : Fin 8192)).trans ?_
  unfold Gout
  refine congrArg (Cert.Spec.rowLoss _ _) (Fin.ext ?_)
  exact hk.symm

end Cert.KernelIdeal.HandFrame

end
-- ==== Proof.MeanRows.lean ====
/-
  The mean of a column of 8192 row losses: the host's sum over both axes of a [8192, 1] array from the zero word, divided
  by the word `8192.0`, is `(∑_i a_i) / 8192` — the sum over the index pairs `(i, 0)` is the sum over the rows.
-/
import Idealize.ShloMosaic.Lib.IdealHost
import Idealize.ShloMosaic.Lib.ValueIdx
import Idealize.ShloMosaic.PureOps.Ideal.Laws
import proofs.«123914_j68728066671109_1_alg».proof.Proof.SpecLaws

noncomputable section

namespace Cert.Spec

open Idealize.ShloMosaic Idealize.ShloMosaic.ValueIdx

theorem mean_rows (A : (⟨2, ![8192, 1]⟩ : Shape).Idx → EReal)
    (h : (⟨2, ![8192, 1]⟩ : Shape).ReducesTo [0, 1] ⟨0, ![]⟩) (hu : 0 < (⟨0, ![]⟩ : Shape).numel) :
    Host.divf (F := Ideal) (φ := .f32)
        (Host.reduceAdd (F := Ideal) (φ := .f32) A (constant (F := Ideal) ⟨0, ![]⟩ .f32 0x00000000#32) h hu)
        (constant (F := Ideal) ⟨0, ![]⟩ .f32 0x46000000#32)
      = fun _ => Ideal.div (∑ i : Fin 8192, A (ix2 i 0)) nRows := by
  funext j
  rw [hostDivf_apply, hostReduceAdd_apply, Ideal.hostReduceAdd_total h (fun b => b.elim0), constant_apply, constant_apply,
    ofBits_zero, zero_add, sum_idx2]
  unfold nRows
  congr 1
  refine Finset.sum_congr rfl fun a _ => ?_
  rw [Fin.sum_univ_one]

end Cert.Spec

end
-- ==== Proof.KernelFinal.lean ====
/-
  The idealized kernel's result, as the specification's loss.

  Point `t` of the grid writes back rows `1024·t … 1024·t + 1023` of the [8192, 1] output, and what it stores at row `p` is
  row `1024·t + p`'s loss (the body's value at the row, read through the tile recurrence). The eight points' blocks tile
  the output — row `r` is in point `r / 1024`'s block —, so after the run the output holds every row's loss. The host
  then sums the column and divides by `8192.0`: the mean of the rows' losses.
-/
import proofs.«123914_j68728066671109_1_alg».proof.Proof.KernelBlocks
import proofs.«123914_j68728066671109_1_alg».proof.Proof.MeanRows
import Idealize.ShloMosaic.Lib.StableHlo.Run

noncomputable section

namespace Cert.KernelIdeal.HandFrame

open Cert.KernelIdeal Cert.KernelIdeal.Gen Cert.KernelIdeal.Pay
open Idealize.ShloMosaic Idealize.ShloMosaic.TcCoe Idealize.ShloMosaic.ValueIdx Idealize.SL.Sem

variable (m : (ℓ : Loc nD τ sig) → Buf (Elt Ideal) ℓ)

/-- The output window's block index at point `t` is `(t, 0)`. -/
theorem idx4 : ∀ t : Fin cfg0.N, win0_4.index t (0 : Fin 2) = t.val ∧ win0_4.index t (1 : Fin 2) = 0 :=
  (by decide +kernel : ∀ t : Fin grid0.N, _)

/-- What point `t` writes back is its block of the column of row losses. -/
theorem flushed4_eq (c : Dev nD) (t : Fin cfg0.N) (f : S8192x256.Idx → ℝ)
    (hE : ∀ x, (m ((c : Thread nD τ).loc main_arg0) : S8192x256.Idx → EReal) x = (f x : EReal)) :
    (dats (F := Ideal) m 0 c).flushed 4 t
      = ((cfg0.win 4).blk t).view.read (Elt Ideal) (Gout (m ((c : Thread nD τ).loc main_arg0)) (m ((c : Thread nD τ).loc main_arg1))) := by
  show (cfg0.win 4).cut (grid0.coords t) ((dats (F := Ideal) m 0 c).after 4 t) = _
  rw [after0_4]
  funext y
  rw [View.read_apply]
  refine outAt_row m c t f hE _ _ ?_
  show win0_4.index t (0 : Fin 2) * 1024 + 1 * (y 0).val = 1024 * t.val + (y 0).val
  rw [(idx4 t).1]; omega

/-- An index of the output is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2).slice (win0_4.rect t)).set ↔ _
  rw [View.set_slice_whole, Rect.mem_set_unit]
  exact Iff.rfl

/-- After the run the output column holds every row's loss: row `r` is in the block of point `r / 1024`. -/
theorem final4 (c : Dev nD) (f : S8192x256.Idx → ℝ)
    (hE : ∀ x, (m ((c : Thread nD τ).loc main_arg0) : S8192x256.Idx → EReal) x = (f x : EReal)) :
    (dats (F := Ideal) m 0 c).arrAt 4 cfg0.N = Gout (m ((c : Thread nD τ).loc main_arg0)) (m ((c : Thread nD τ).loc main_arg1)) :=
  (dats (F := Ideal) m 0 c).arrAt_eq_of_cover 4 _ (fun t _ => flushed4_eq m c t f hE) fun i => by
    have hi0 : (i 0).val < 8192 := (i 0).isLt
    have hi1 : (i 1).val < 1 := (i 1).isLt
    have hN : cfg0.N = 8 := N_0
    refine ⟨⟨(i 0).val / 1024, by omega⟩, flush0_4 _, ?_⟩
    rw [mem_blk4]
    intro a
    obtain ⟨e0, e1⟩ := idx4 ⟨(i 0).val / 1024, by omega⟩
    match a with
    | ⟨0, _⟩ => show win0_4.index _ (0 : Fin 2) * 1024 ≤ (i 0).val ∧ (i 0).val < win0_4.index _ (0 : Fin 2) * 1024 + 1024; rw [e0]; dsimp only; omega
    | ⟨1, _⟩ => show win0_4.index _ (1 : Fin 2) * 1 ≤ (i 1).val ∧ (i 1).val < win0_4.index _ (1 : Fin 2) * 1 + 1; rw [e1]; omega

/-- The kernel program's result: the mean of the rows' losses. -/
theorem result_eq (c : Dev nD) (f : S8192x256.Idx → ℝ)
    (hE : ∀ x, (m ((c : Thread nD τ).loc main_arg0) : S8192x256.Idx → EReal) x = (f x : EReal)) :
    W₃ (F := Ideal) m c (Proc.devRef .tc main_v4)
      = fun _ => Cert.Spec.G (m ((c : Thread nD τ).loc main_arg0)) (m ((c : Thread nD τ).loc main_arg1)) := by
  show StableHlo.after hostOps1 (W₂ (F := Ideal) m c) (Proc.devRef .tc main_v4) = _
  after_results
  rw [W₂_v2, final4 m c f hE]
  exact Cert.Spec.mean_rows _ _ _

end Cert.KernelIdeal.HandFrame

end
-- ==== Proof.RefRun.lean ====
/-
  The reference program's @main as the list of its 65 host operations (the three functions it calls, the row norm,
  the row-wise log-softmax and the select, stand in their calls' places over each call's own buffers), and its run:
  every weakly fair execution terminates, the result buffer holds what the operations compute from the arguments'
  launch contents, and the two argument arrays end as they began. The result is left as the fold of the operation
  list over the launch contents; reading it index by index is another module's matter. The frame claim of the
  reference follows by forgetting the result.
-/
import proofs.«123914_j68728066671109_1_alg».proof.Proof.Gen.ReferenceIdeal
import proofs.«123914_j68728066671109_1_alg».proof.Proof.Gen.Pre_finite_inputs
import proofs.«123914_j68728066671109_1_alg».proof.Defs
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in program order. Operations 1–5 are the row norm (squares, their row sums, the column form,
    the square root); 6–15 the normalised rows, their products with one another and the division by the temperature;
    16–30 the row-wise log-softmax (row maximum, shift, exponentials, their row sums, logarithm, second shift); 31–44
    the mask of equal labels off the diagonal as a float; 45–57 the masked row sums, the count and the clamped
    quotient; 58–61 the select on a positive count; 62–65 the mean over the rows. -/
abbrev ops : List (HloOp τ sig (Elt F)) :=
  [ TRef.binary (TRef.of (T := ⟨S8192x256, .f32⟩) main_arg0) (TRef.of (T := ⟨S8192x256, .f32⟩) main_arg0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x2B8CBCCC#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x256 ![0, 1] bcast_S8192x1_S8192x256_0_1 : (⟨S8192x1, .f32⟩ : BufTy).Contents (Elt F) → (⟨S8192x256, .f32⟩ : BufTy).Contents (Elt F)),
    binary main_arg0 main_v3 main_v4 (Host.divf : (⟨S8192x256, .f32⟩ : BufTy).Contents (Elt F) → (⟨S8192x256, .f32⟩ : BufTy).Contents (Elt F) → (⟨S8192x256, .f32⟩ : BufTy).Contents (Elt F)),
    unary main_v4 main_v5 ((transpose S256x8192 [1, 0] · transposes_S8192x256_S256x8192_1_0) : (⟨S8192x256, .f32⟩ : BufTy).Contents (Elt F) → (⟨S256x8192, .f32⟩ : BufTy).Contents (Elt F)),
    binary main_v4 main_v5 main_v6 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_0 (constant S_ .f32 0x3D8F5C29#32),
    unary main_cst_0 main_v7 (broadcastInDim S8192x8192 ![] bcast_S_S8192x8192 : (⟨S_, .f32⟩ : BufTy).Contents (Elt F) → (⟨S8192x8192, .f32⟩ : BufTy).Contents (Elt F)),
    binary main_v6 main_v7 main_v8 (Host.divf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S_, .f32⟩) main_call1_cst) (constant S_ .f32 0xFF800000#32),
    TRef.binary (TRef.of (T := ⟨S8192x8192, .f32⟩) main_v8) (TRef.of (T := ⟨S_, .f32⟩) main_call1_cst) (TRef.of (T := ⟨S8192, .f32⟩) main_call1_v0) (fun x v => Host.reduce FloatOps.maximumf x v reducesTo_S8192x8192_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v8) (TRef.of (T := ⟨S8192x8192, .f32⟩) main_call1_v4) (TRef.of (T := ⟨S8192x8192, .f32⟩) main_call1_v5) subf,
    TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v9) subf,
    unary main_arg1 main_v10 (broadcastInDim S8192x1 ![0] bcast_S8192_S8192x1_0 : (⟨S8192, .i32⟩ : BufTy).Contents (Elt F) → (⟨S8192x1, .i32⟩ : BufTy).Contents (Elt F)),
    unary main_arg1 main_v11 (broadcastInDim S1x8192 ![1] bcast_S8192_S1x8192_1 : (⟨S8192, .i32⟩ : BufTy).Contents (Elt F) → (⟨S1x8192, .i32⟩ : BufTy).Contents (Elt F)),
    unary main_v10 main_v12 (broadcastInDim S8192x8192 ![0, 1] bcast_S8192x1_S8192x8192_0_1 : (⟨S8192x1, .i32⟩ : BufTy).Contents (Elt F) → (⟨S8192x8192, .i32⟩ : BufTy).Contents (Elt F)),
    unary main_v11 main_v13 (broadcastInDim S8192x8192 ![0, 1] bcast_S1x8192_S8192x8192_0_1 : (⟨S1x8192, .i32⟩ : BufTy).Contents (Elt F) → (⟨S8192x8192, .i32⟩ : BufTy).Contents (Elt F)),
    binary main_v12 main_v13 main_v14 (cmpi .eq : (⟨S8192x8192, .i32⟩ : BufTy).Contents (Elt F) → (⟨S8192x8192, .i32⟩ : BufTy).Contents (Elt F) → (⟨S8192x8192, .i1⟩ : BufTy).Contents (Elt F)),
    nullary main_v15 (iotaInDim S8192x8192 32 0),
    nullary main_v16 (iotaInDim S8192x8192 32 1),
    nullary main_c (constantI S_ 32 0#32),
    unary main_c main_v17 (broadcastInDim S8192x8192 ![] bcast_S_S8192x8192 : (⟨S_, .i32⟩ : BufTy).Contents (Elt F) → (⟨S8192x8192, .i32⟩ : BufTy).Contents (Elt F)),
    binary main_v15 main_v17 main_v18 (addi : (⟨S8192x8192, .i32⟩ : BufTy).Contents (Elt F) → (⟨S8192x8192, .i32⟩ : BufTy).Contents (Elt F) → (⟨S8192x8192, .i32⟩ : BufTy).Contents (Elt F)),
    binary main_v18 main_v16 main_v19 (cmpi .eq : (⟨S8192x8192, .i32⟩ : BufTy).Contents (Elt F) → (⟨S8192x8192, .i32⟩ : BufTy).Contents (Elt F) → (⟨S8192x8192, .i1⟩ : BufTy).Contents (Elt F)),
    unary main_v19 main_v20 (noti : (⟨S8192x8192, .i1⟩ : BufTy).Contents (Elt F) → (⟨S8192x8192, .i1⟩ : BufTy).Contents (Elt F)),
    binary main_v14 main_v20 main_v21 (andi : (⟨S8192x8192, .i1⟩ : BufTy).Contents (Elt F) → (⟨S8192x8192, .i1⟩ : BufTy).Contents (Elt F) → (⟨S8192x8192, .i1⟩ : BufTy).Contents (Elt F)),
    unary main_v21 main_v22 (uitofp .f32 : (⟨S8192x8192, .i1⟩ : BufTy).Contents (Elt F) → (⟨S8192x8192, .f32⟩ : BufTy).Contents (Elt F)),
    nullary main_cst_1 (constant S_ .f32 0x00000000#32),
    binary main_v22 main_cst_1 main_v23 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v9 main_v22 main_v24 (mulf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    binary main_v24 main_cst_2 main_v25 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v25 main_v26 (Host.negf : (⟨S8192, .f32⟩ : BufTy).Contents (Elt F) → (⟨S8192, .f32⟩ : BufTy).Contents (Elt F)),
    nullary main_cst_3 (constant S_ .f32 0x00000000#32),
    unary main_cst_3 main_v27 (broadcastInDim S8192 ![] bcast_S_S8192 : (⟨S_, .f32⟩ : BufTy).Contents (Elt F) → (⟨S8192, .f32⟩ : BufTy).Contents (Elt F)),
    binary main_v23 main_v27 main_v28 (cmpf .ogt : (⟨S8192, .f32⟩ : BufTy).Contents (Elt F) → (⟨S8192, .f32⟩ : BufTy).Contents (Elt F) → (⟨S8192, .i1⟩ : BufTy).Contents (Elt F)),
    nullary main_cst_4 (constant S_ .f32 0x3F800000#32),
    unary main_cst_4 main_v29 (broadcastInDim S8192 ![] bcast_S_S8192 : (⟨S_, .f32⟩ : BufTy).Contents (Elt F) → (⟨S8192, .f32⟩ : BufTy).Contents (Elt F)),
    binary main_v23 main_v29 main_v30 (maximumf : (⟨S8192, .f32⟩ : BufTy).Contents (Elt F) → (⟨S8192, .f32⟩ : BufTy).Contents (Elt F) → (⟨S8192, .f32⟩ : BufTy).Contents (Elt F)),
    binary main_v26 main_v30 main_v31 (Host.divf : (⟨S8192, .f32⟩ : BufTy).Contents (Elt F) → (⟨S8192, .f32⟩ : BufTy).Contents (Elt F) → (⟨S8192, .f32⟩ : BufTy).Contents (Elt F)),
    nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v28) (TRef.of (T := ⟨S8192, .f32⟩) main_v31) (TRef.of (T := ⟨S8192, .f32⟩) main_call2_v1) (TRef.of (T := ⟨S8192, .f32⟩) main_v32) select,
    nullary main_cst_6 (constant S_ .f32 0x00000000#32),
    binary main_v32 main_cst_6 main_v33 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_7 (constant S_ .f32 0x46000000#32),
    binary main_v33 main_cst_7 main_v34 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is the sequence of these operations: unfolding the three calls is the inlining. -/
theorem main_eq (c : Dev nD) : main (F := F) c = seq ops := rfl

/-- No TensorCore buffer of the signature is scoped. -/
theorem scopedRefs_eq : (Finset.univ.filter fun b : Ref sig .tc => b.isScoped) = ∅ := by decide

/-- No semaphore of the signature is scoped. -/
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., nullary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub ..⟩

set_option maxRecDepth 8192 in
set_option maxHeartbeats 8000000 in
/-- On every device, from any memory with zero counters: every weakly fair execution of @main terminates, the result
    buffer holds the operations' fold over the launch contents, and the argument arrays are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = after ops (launchContents m c) (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v34,
      (h c main_arg0).trans (by after_results_simp <;> rfl),
      (h c main_arg1).trans (by after_results_simp <;> rfl)⟩)
    (run_seq scopedRefs_eq scopedSems_eq defs main (fun _ => ops) main_eq (fun _ => ops_sub) m ρ)

/-- The reference's frame claim: it runs, and its argument arrays end unchanged. -/
theorem frame : Cert.frame_ReferenceIdeal := fun m ρ _ =>
  (θ_run (Cert.ReferenceIdeal.defs (F := Ideal)) _ _).mono (fun _ h c => (h c).2) (run (F := Ideal) m ρ)

end Cert.ReferenceIdeal.Hand

end
-- ==== Proof.RefStageDefs.lean ====
/-
  The reference's result as a composition of named stages, at the ideal values.

  Each stage is one step of the computation as a function of the two argument arrays — the embeddings `E` and the
  labels `Lb` —: the clamped row norms, the normalised rows, the scaled similarities, each row's maximum, the shifted
  rows, the logarithm of each row's sum of exponentials and the log-softmax, the mask of equal labels off the diagonal
  as a float, the count and the masked sum of each row, each row's loss and their mean.
-/
import proofs.«123914_j68728066671109_1_alg».proof.Proof.Gen.ReferenceIdeal
import Idealize.ShloMosaic.PureOps.Ideal

noncomputable section

namespace Cert.ReferenceIdeal.Hand

open Cert.ReferenceIdeal Cert.ReferenceIdeal.Gen Idealize.ShloMosaic

/-- The zero scalar every sum starts from. -/
def zeroS : FVec Ideal S_ .f32 := constant (F := Ideal) S_ .f32 0x00000000#32

/-- The clamped norm of each row, as a column: `max (√(∑_d E_id²)) ε`. -/
def vNorm (E : FVec Ideal S8192x256 .f32) : FVec Ideal S8192x1 .f32 :=
  maximumf
    (Host.sqrt (broadcastInDim S8192x1 ![0] bcast_S8192_S8192x1_0
      (Host.reduceAdd (mulf E E) (constant (F := Ideal) S_ .f32 0x00000000#32) reducesTo_S8192x256_S8192_d1 h_S_)))
    (broadcastInDim S8192x1 ![] bcast_S_S8192x1 (constant (F := Ideal) S_ .f32 0x2B8CBCCC#32))

/-- The normalised rows. -/
def vEn (E : FVec Ideal S8192x256 .f32) : FVec Ideal S8192x256 .f32 :=
  Host.divf E (broadcastInDim S8192x256 ![0, 1] bcast_S8192x1_S8192x256_0_1 (vNorm E))

/-- The similarities: the normalised rows' inner products over the temperature. -/
def vSim (E : FVec Ideal S8192x256 .f32) : FVec Ideal S8192x8192 .f32 :=
  Host.divf
    (Host.dotGeneral dot_S8192x256_S256x8192_S8192x8192_1_0_0_1_n_n none (vEn E)
      (transpose S256x8192 [1, 0] (vEn E) transposes_S8192x256_S256x8192_1_0))
    (broadcastInDim S8192x8192 ![] bcast_S_S8192x8192 (constant (F := Ideal) S_ .f32 0x3D8F5C29#32))

/-- Each row's maximum similarity. -/
def vMax (E : FVec Ideal S8192x256 .f32) : FVec Ideal S8192 .f32 :=
  maximumf (broadcastInDim S8192 ![] bcast_S_S8192 (constant (F := Ideal) S_ .f32 0xFF800000#32))
    (Host.reduce FloatOps.maximumf (vSim E) (constant (F := Ideal) S_ .f32 0xFF800000#32) reducesTo_S8192x8192_S8192_d1 h_S_)

/-- The similarities shifted by their row's maximum. -/
def vShift (E : FVec Ideal S8192x256 .f32) : FVec Ideal S8192x8192 .f32 :=
  subf (vSim E)
    (broadcastInDim S8192x8192 ![0, 1] bcast_S8192x1_S8192x8192_0_1 (broadcastInDim S8192x1 ![0] bcast_S8192_S8192x1_0 (vMax E)))

/-- The logarithm of each row's sum of exponentials of the shifted similarities, as a column. -/
def vLse (E : FVec Ideal S8192x256 .f32) : FVec Ideal S8192x1 .f32 :=
  Host.log (broadcastInDim S8192x1 ![0] bcast_S8192_S8192x1_0
    (Host.reduceAdd (Host.exp (vShift E)) (constant (F := Ideal) S_ .f32 0x00000000#32) reducesTo_S8192x8192_S8192_d1 h_S_))

/-- The row-wise log-softmax of the similarities. -/
def vLogp (E : FVec Ideal S8192x256 .f32) : FVec Ideal S8192x8192 .f32 :=
  subf (vShift E) (broadcastInDim S8192x8192 ![0, 1] bcast_S8192x1_S8192x8192_0_1 (vLse E))

/-- The mask bits: equal labels, off the diagonal. -/
def vMaskBits (Lb : IVec S8192 32) : IVec S8192x8192 1 :=
  andi
    (cmpi .eq
      (broadcastInDim S8192x8192 ![0, 1] bcast_S8192x1_S8192x8192_0_1 (broadcastInDim S8192x1 ![0] bcast_S8192_S8192x1_0 Lb))
      (broadcastInDim S8192x8192 ![0, 1] bcast_S1x8192_S8192x8192_0_1 (broadcastInDim S1x8192 ![1] bcast_S8192_S1x8192_1 Lb)))
    (noti (cmpi .eq
      (addi (iotaInDim S8192x8192 32 0) (broadcastInDim S8192x8192 ![] bcast_S_S8192x8192 (constantI S_ 32 0#32)))
      (iotaInDim S8192x8192 32 1)))

/-- The mask as a float: one on a positive pair, zero elsewhere. -/
def vMask (Lb : IVec S8192 32) : FVec Ideal S8192x8192 .f32 := uitofp (F := Ideal) .f32 (vMaskBits Lb)

/-- The number of positives of each row. -/
def vCnt (Lb : IVec S8192 32) : FVec Ideal S8192 .f32 :=
  Host.reduceAdd (vMask Lb) (constant (F := Ideal) S_ .f32 0x00000000#32) reducesTo_S8192x8192_S8192_d1 h_S_

/-- Minus the masked sum of each row's log-softmax. -/
def vPosSum (E : FVec Ideal S8192x256 .f32) (Lb : IVec S8192 32) : FVec Ideal S8192 .f32 :=
  Host.negf (Host.reduceAdd (mulf (vLogp E) (vMask Lb)) (constant (F := Ideal) S_ .f32 0x00000000#32)
    reducesTo_S8192x8192_S8192_d1 h_S_)

/-- Each row's loss: the masked mean where the row has a positive, zero elsewhere. -/
def vRow (E : FVec Ideal S8192x256 .f32) (Lb : IVec S8192 32) : FVec Ideal S8192 .f32 :=
  select
    (cmpf .ogt (vCnt Lb) (broadcastInDim S8192 ![] bcast_S_S8192 (constant (F := Ideal) S_ .f32 0x00000000#32)))
    (Host.divf (vPosSum E Lb)
      (maximumf (vCnt Lb) (broadcastInDim S8192 ![] bcast_S_S8192 (constant (F := Ideal) S_ .f32 0x3F800000#32))))
    (broadcastInDim S8192 ![] bcast_S_S8192 (id (constant (F := Ideal) S_ .f32 0x00000000#32)))

/-- The mean of the rows' losses. -/
def vOut (E : FVec Ideal S8192x256 .f32) (Lb : IVec S8192 32) : FVec Ideal S_ .f32 :=
  Host.divf
    (Host.reduceAdd (vRow E Lb) (constant (F := Ideal) S_ .f32 0x00000000#32) reducesTo_S8192_S_d0 h_S_)
    (constant (F := Ideal) S_ .f32 0x46000000#32)

end Cert.ReferenceIdeal.Hand

end
-- ==== Proof.RefStages.lean ====
/-
  The fold of the reference's operation list over the launch contents is the last stage at the arguments.

  The 65 operations are cut into consecutive pieces: the normalised rows from the embeddings; the scaled
  similarities from the normalised rows; the row-wise log-softmax from the similarities (its first two operations, the
  row-wise maximum reduction, apart from the rest); the float mask of equal labels
  off the diagonal from the labels; and, from the log-softmax and the mask, the rows' counts, masked sums and losses and
  their mean. Each piece is a function of the arrays it reads (`simOf`, `logpOf`, `outOf` below; the first and the
  fourth are the stages `vEn` and `vMask` themselves), and each piece of the list, folded over any contents, leaves
  that function of what it read in its last buffer and keeps the buffers a later piece reads. The stages are these
  functions composed, so the fold of the whole list is the composition at the arguments' contents.
-/
import proofs.«123914_j68728066671109_1_alg».proof.Proof.RefRun
import proofs.«123914_j68728066671109_1_alg».proof.Proof.RefStageDefs

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## Each piece as a function of what it reads -/

/-- The similarities of rows `en`: their inner products with one another over the temperature. -/
def simOf (en : FVec Ideal S8192x256 .f32) : FVec Ideal S8192x8192 .f32 :=
  Host.divf
    (Host.dotGeneral dot_S8192x256_S256x8192_S8192x8192_1_0_0_1_n_n none en
      (transpose S256x8192 [1, 0] en transposes_S8192x256_S256x8192_1_0))
    (broadcastInDim S8192x8192 ![] bcast_S_S8192x8192 (constant (F := Ideal) S_ .f32 0x3D8F5C29#32))

/-- Each row's maximum, from the row-wise reduction `raw` of the similarities: the maximum with `-∞` once more. -/
def maxOf (raw : FVec Ideal S8192 .f32) : FVec Ideal S8192 .f32 :=
  maximumf (broadcastInDim S8192 ![] bcast_S_S8192 (constant (F := Ideal) S_ .f32 0xFF800000#32)) raw

/-- The rows shifted by their maximum. -/
def shiftOf (sim : FVec Ideal S8192x8192 .f32) (raw : FVec Ideal S8192 .f32) : FVec Ideal S8192x8192 .f32 :=
  subf sim
    (broadcastInDim S8192x8192 ![0, 1] bcast_S8192x1_S8192x8192_0_1 (broadcastInDim S8192x1 ![0] bcast_S8192_S8192x1_0 (maxOf raw)))

/-- The logarithm of each shifted row's sum of exponentials, as a column. -/
def lseOf (sim : FVec Ideal S8192x8192 .f32) (raw : FVec Ideal S8192 .f32) : FVec Ideal S8192x1 .f32 :=
  Host.log (broadcastInDim S8192x1 ![0] bcast_S8192_S8192x1_0
    (Host.reduceAdd (Host.exp (shiftOf sim raw)) (constant (F := Ideal) S_ .f32 0x00000000#32) reducesTo_S8192x8192_S8192_d1 h_S_))

/-- The row-wise log-softmax, from the similarities and their row-wise maximum reduction. -/
def logpOf (sim : FVec Ideal S8192x8192 .f32) (raw : FVec Ideal S8192 .f32) : FVec Ideal S8192x8192 .f32 :=
  subf (shiftOf sim raw) (broadcastInDim S8192x8192 ![0, 1] bcast_S8192x1_S8192x8192_0_1 (lseOf sim raw))

/-- The number of positives of each row. -/
def cntOf (mask : FVec Ideal S8192x8192 .f32) : FVec Ideal S8192 .f32 :=
  Host.reduceAdd mask (constant (F := Ideal) S_ .f32 0x00000000#32) reducesTo_S8192x8192_S8192_d1 h_S_

/-- Minus the masked sum of each row. -/
def posSumOf (logp mask : FVec Ideal S8192x8192 .f32) : FVec Ideal S8192 .f32 :=
  Host.negf (Host.reduceAdd (mulf logp mask) (constant (F := Ideal) S_ .f32 0x00000000#32)
    reducesTo_S8192x8192_S8192_d1 h_S_)

/-- Each row's loss: the masked mean where the row has a positive, zero elsewhere. -/
def rowOf (logp mask : FVec Ideal S8192x8192 .f32) : FVec Ideal S8192 .f32 :=
  select
    (cmpf .ogt (cntOf mask) (broadcastInDim S8192 ![] bcast_S_S8192 (constant (F := Ideal) S_ .f32 0x00000000#32)))
    (Host.divf (posSumOf logp mask)
      (maximumf (cntOf mask) (broadcastInDim S8192 ![] bcast_S_S8192 (constant (F := Ideal) S_ .f32 0x3F800000#32))))
    (broadcastInDim S8192 ![] bcast_S_S8192 (id (constant (F := Ideal) S_ .f32 0x00000000#32)))

/-- The mean of the rows' losses. -/
def outOf (logp mask : FVec Ideal S8192x8192 .f32) : FVec Ideal S_ .f32 :=
  Host.divf
    (Host.reduceAdd (rowOf logp mask) (constant (F := Ideal) S_ .f32 0x00000000#32) reducesTo_S8192_S_d0 h_S_)
    (constant (F := Ideal) S_ .f32 0x46000000#32)

/-- The stages are these functions composed. -/
theorem vSim_eq (E : FVec Ideal S8192x256 .f32) : vSim E = simOf (vEn E) := rfl
theorem vLogp_eq (E : FVec Ideal S8192x256 .f32) :
    vLogp E = logpOf (vSim E)
      (Host.reduce FloatOps.maximumf (vSim E) (constant (F := Ideal) S_ .f32 0xFF800000#32) reducesTo_S8192x8192_S8192_d1 h_S_) := rfl
theorem vOut_eq (E : FVec Ideal S8192x256 .f32) (Lb : IVec S8192 32) : vOut E Lb = outOf (vLogp E) (vMask Lb) := rfl

/-! ## The operation list in pieces -/

section Pieces
variable {F : FTy → Type} [FloatOps F]

/-- Operations 1–10: the normalised rows. -/
abbrev segA : List (HloOp τ sig (Elt F)) :=
  [ TRef.binary (TRef.of (T := ⟨S8192x256, .f32⟩) main_arg0) (TRef.of (T := ⟨S8192x256, .f32⟩) main_arg0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x2B8CBCCC#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x256 ![0, 1] bcast_S8192x1_S8192x256_0_1 : (⟨S8192x1, .f32⟩ : BufTy).Contents (Elt F) → (⟨S8192x256, .f32⟩ : BufTy).Contents (Elt F)),
    binary main_arg0 main_v3 main_v4 (Host.divf : (⟨S8192x256, .f32⟩ : BufTy).Contents (Elt F) → (⟨S8192x256, .f32⟩ : BufTy).Contents (Elt F) → (⟨S8192x256, .f32⟩ : BufTy).Contents (Elt F)) ]

/-- Operations 11–15: the similarities. -/
abbrev segB : List (HloOp τ sig (Elt F)) :=
  [ unary main_v4 main_v5 ((transpose S256x8192 [1, 0] · transposes_S8192x256_S256x8192_1_0) : (⟨S8192x256, .f32⟩ : BufTy).Contents (Elt F) → (⟨S256x8192, .f32⟩ : BufTy).Contents (Elt F)),
    binary main_v4 main_v5 main_v6 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_0 (constant S_ .f32 0x3D8F5C29#32),
    unary main_cst_0 main_v7 (broadcastInDim S8192x8192 ![] bcast_S_S8192x8192 : (⟨S_, .f32⟩ : BufTy).Contents (Elt F) → (⟨S8192x8192, .f32⟩ : BufTy).Contents (Elt F)),
    binary main_v6 main_v7 main_v8 (Host.divf : (⟨S8192x8192, .f32⟩ : BufTy).Contents (Elt F) → (⟨S8192x8192, .f32⟩ : BufTy).Contents (Elt F) → (⟨S8192x8192, .f32⟩ : BufTy).Contents (Elt F)) ]

/-- Operations 16–17: the row-wise maximum reduction of the similarities. -/
abbrev segC1 : List (HloOp τ sig (Elt F)) :=
  [ TRef.nullary (TRef.of (T := ⟨S_, .f32⟩) main_call1_cst) (constant S_ .f32 0xFF800000#32),
    TRef.binary (TRef.of (T := ⟨S8192x8192, .f32⟩) main_v8) (TRef.of (T := ⟨S_, .f32⟩) main_call1_cst) (TRef.of (T := ⟨S8192, .f32⟩) main_call1_v0) (fun x v => Host.reduce FloatOps.maximumf x v reducesTo_S8192x8192_S8192_d1 h_S_) ]

/-- Operations 18–30: the rest of the row-wise log-softmax. -/
abbrev segC2 : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v8) (TRef.of (T := ⟨S8192x8192, .f32⟩) main_call1_v4) (TRef.of (T := ⟨S8192x8192, .f32⟩) main_call1_v5) subf,
    TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v9) subf ]

/-- Operations 31–44: the mask. -/
abbrev segD : List (HloOp τ sig (Elt F)) :=
  [ unary main_arg1 main_v10 (broadcastInDim S8192x1 ![0] bcast_S8192_S8192x1_0 : (⟨S8192, .i32⟩ : BufTy).Contents (Elt F) → (⟨S8192x1, .i32⟩ : BufTy).Contents (Elt F)),
    unary main_arg1 main_v11 (broadcastInDim S1x8192 ![1] bcast_S8192_S1x8192_1 : (⟨S8192, .i32⟩ : BufTy).Contents (Elt F) → (⟨S1x8192, .i32⟩ : BufTy).Contents (Elt F)),
    unary main_v10 main_v12 (broadcastInDim S8192x8192 ![0, 1] bcast_S8192x1_S8192x8192_0_1 : (⟨S8192x1, .i32⟩ : BufTy).Contents (Elt F) → (⟨S8192x8192, .i32⟩ : BufTy).Contents (Elt F)),
    unary main_v11 main_v13 (broadcastInDim S8192x8192 ![0, 1] bcast_S1x8192_S8192x8192_0_1 : (⟨S1x8192, .i32⟩ : BufTy).Contents (Elt F) → (⟨S8192x8192, .i32⟩ : BufTy).Contents (Elt F)),
    binary main_v12 main_v13 main_v14 (cmpi .eq : (⟨S8192x8192, .i32⟩ : BufTy).Contents (Elt F) → (⟨S8192x8192, .i32⟩ : BufTy).Contents (Elt F) → (⟨S8192x8192, .i1⟩ : BufTy).Contents (Elt F)),
    nullary main_v15 (iotaInDim S8192x8192 32 0),
    nullary main_v16 (iotaInDim S8192x8192 32 1),
    nullary main_c (constantI S_ 32 0#32),
    unary main_c main_v17 (broadcastInDim S8192x8192 ![] bcast_S_S8192x8192 : (⟨S_, .i32⟩ : BufTy).Contents (Elt F) → (⟨S8192x8192, .i32⟩ : BufTy).Contents (Elt F)),
    binary main_v15 main_v17 main_v18 (addi : (⟨S8192x8192, .i32⟩ : BufTy).Contents (Elt F) → (⟨S8192x8192, .i32⟩ : BufTy).Contents (Elt F) → (⟨S8192x8192, .i32⟩ : BufTy).Contents (Elt F)),
    binary main_v18 main_v16 main_v19 (cmpi .eq : (⟨S8192x8192, .i32⟩ : BufTy).Contents (Elt F) → (⟨S8192x8192, .i32⟩ : BufTy).Contents (Elt F) → (⟨S8192x8192, .i1⟩ : BufTy).Contents (Elt F)),
    unary main_v19 main_v20 (noti : (⟨S8192x8192, .i1⟩ : BufTy).Contents (Elt F) → (⟨S8192x8192, .i1⟩ : BufTy).Contents (Elt F)),
    binary main_v14 main_v20 main_v21 (andi : (⟨S8192x8192, .i1⟩ : BufTy).Contents (Elt F) → (⟨S8192x8192, .i1⟩ : BufTy).Contents (Elt F) → (⟨S8192x8192, .i1⟩ : BufTy).Contents (Elt F)),
    unary main_v21 main_v22 (uitofp .f32 : (⟨S8192x8192, .i1⟩ : BufTy).Contents (Elt F) → (⟨S8192x8192, .f32⟩ : BufTy).Contents (Elt F)) ]

/-- Operations 45–65: counts, masked sums, losses, mean. -/
abbrev segE : List (HloOp τ sig (Elt F)) :=
  [ nullary main_cst_1 (constant S_ .f32 0x00000000#32),
    binary main_v22 main_cst_1 main_v23 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v9 main_v22 main_v24 (mulf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    binary main_v24 main_cst_2 main_v25 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v25 main_v26 (Host.negf : (⟨S8192, .f32⟩ : BufTy).Contents (Elt F) → (⟨S8192, .f32⟩ : BufTy).Contents (Elt F)),
    nullary main_cst_3 (constant S_ .f32 0x00000000#32),
    unary main_cst_3 main_v27 (broadcastInDim S8192 ![] bcast_S_S8192 : (⟨S_, .f32⟩ : BufTy).Contents (Elt F) → (⟨S8192, .f32⟩ : BufTy).Contents (Elt F)),
    binary main_v23 main_v27 main_v28 (cmpf .ogt : (⟨S8192, .f32⟩ : BufTy).Contents (Elt F) → (⟨S8192, .f32⟩ : BufTy).Contents (Elt F) → (⟨S8192, .i1⟩ : BufTy).Contents (Elt F)),
    nullary main_cst_4 (constant S_ .f32 0x3F800000#32),
    unary main_cst_4 main_v29 (broadcastInDim S8192 ![] bcast_S_S8192 : (⟨S_, .f32⟩ : BufTy).Contents (Elt F) → (⟨S8192, .f32⟩ : BufTy).Contents (Elt F)),
    binary main_v23 main_v29 main_v30 (maximumf : (⟨S8192, .f32⟩ : BufTy).Contents (Elt F) → (⟨S8192, .f32⟩ : BufTy).Contents (Elt F) → (⟨S8192, .f32⟩ : BufTy).Contents (Elt F)),
    binary main_v26 main_v30 main_v31 (Host.divf : (⟨S8192, .f32⟩ : BufTy).Contents (Elt F) → (⟨S8192, .f32⟩ : BufTy).Contents (Elt F) → (⟨S8192, .f32⟩ : BufTy).Contents (Elt F)),
    nullary main_cst_5 (constant S_ .f32 0x00000000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S8192, .f32⟩) main_call2_v1) (broadcastInDim S8192 ![] bcast_S_S8192),
    TRef.ternary (TRef.of (T := ⟨S8192, .i1⟩) main_v28) (TRef.of (T := ⟨S8192, .f32⟩) main_v31) (TRef.of (T := ⟨S8192, .f32⟩) main_call2_v1) (TRef.of (T := ⟨S8192, .f32⟩) main_v32) select,
    nullary main_cst_6 (constant S_ .f32 0x00000000#32),
    binary main_v32 main_cst_6 main_v33 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_7 (constant S_ .f32 0x46000000#32),
    binary main_v33 main_cst_7 main_v34 (Host.divf : (⟨S_, .f32⟩ : BufTy).Contents (Elt F) → (⟨S_, .f32⟩ : BufTy).Contents (Elt F) → (⟨S_, .f32⟩ : BufTy).Contents (Elt F)) ]

set_option maxRecDepth 8192 in
/-- The list is the pieces in order. -/
theorem ops_split : ops (F := F) = segA ++ (segB ++ (segC1 ++ (segC2 ++ (segD ++ segE)))) := rfl

end Pieces

/-- Folding a concatenation is folding the second list over the first's fold. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-! ## Each piece folded over any contents -/

variable (V : Valuation τ sig (Elt Ideal))

set_option maxRecDepth 8192 in
theorem segA_v4 : after (segA (F := Ideal)) V (Proc.devRef .tc main_v4) = vEn (V (Proc.devRef .tc main_arg0)) := by
  after_results_simp
  simp only [TRef.toBuf, TRef.ofBuf, cast_eq]
  rfl

set_option maxRecDepth 8192 in
theorem segA_arg1 : after (segA (F := Ideal)) V (Proc.devRef .tc main_arg1) = V (Proc.devRef .tc main_arg1) := by
  after_results_simp

set_option maxRecDepth 8192 in
theorem segB_v8 : after (segB (F := Ideal)) V (Proc.devRef .tc main_v8) = simOf (V (Proc.devRef .tc main_v4)) := by
  after_results_simp
  rfl

set_option maxRecDepth 8192 in
theorem segB_arg1 : after (segB (F := Ideal)) V (Proc.devRef .tc main_arg1) = V (Proc.devRef .tc main_arg1) := by
  after_results_simp

section Sealed
-- the reduction is kept closed: its two readings below differ only by transports along reflexive type equations
attribute [local irreducible] Idealize.ShloMosaic.Host.reduce

set_option maxRecDepth 8192 in
theorem segC1_v0 : after (segC1 (F := Ideal)) V (Proc.devRef .tc main_call1_v0)
    = Host.reduce FloatOps.maximumf (V (Proc.devRef .tc main_v8)) (constant (F := Ideal) S_ .f32 0xFF800000#32)
        reducesTo_S8192x8192_S8192_d1 h_S_ := by
  after_results_simp
  rfl

end Sealed

set_option maxRecDepth 8192 in
theorem segC1_v8 : after (segC1 (F := Ideal)) V (Proc.devRef .tc main_v8) = V (Proc.devRef .tc main_v8) := by
  after_results_simp

set_option maxRecDepth 8192 in
theorem segC1_arg1 : after (segC1 (F := Ideal)) V (Proc.devRef .tc main_arg1) = V (Proc.devRef .tc main_arg1) := by
  after_results_simp

set_option maxRecDepth 8192 in
theorem segC2_v9 : after (segC2 (F := Ideal)) V (Proc.devRef .tc main_v9)
    = logpOf (V (Proc.devRef .tc main_v8)) (V (Proc.devRef .tc main_call1_v0)) := by
  after_results_simp
  simp only [TRef.toBuf, TRef.ofBuf, cast_eq]
  rfl

set_option maxRecDepth 8192 in
theorem segC2_arg1 : after (segC2 (F := Ideal)) V (Proc.devRef .tc main_arg1) = V (Proc.devRef .tc main_arg1) := by
  after_results_simp

set_option maxRecDepth 8192 in
theorem segD_v22 : after (segD (F := Ideal)) V (Proc.devRef .tc main_v22) = vMask (V (Proc.devRef .tc main_arg1)) := by
  after_results_simp
  rfl

set_option maxRecDepth 8192 in
theorem segD_v9 : after (segD (F := Ideal)) V (Proc.devRef .tc main_v9) = V (Proc.devRef .tc main_v9) := by
  after_results_simp

set_option maxRecDepth 8192 in
theorem segE_v34 : after (segE (F := Ideal)) V (Proc.devRef .tc main_v34)
    = outOf (V (Proc.devRef .tc main_v9)) (V (Proc.devRef .tc main_v22)) := by
  after_results_simp
  simp only [TRef.toBuf, TRef.ofBuf, cast_eq]
  rfl

/-! ## The whole list -/

set_option maxRecDepth 8192 in
/-- The operations' fold over the launch contents, at the result buffer, is the last stage at the arguments. -/
theorem after_eq (m : (ℓ : Loc nD τ sig) → Buf (Elt Ideal) ℓ) (c : Dev nD) :
    after (ops (F := Ideal)) (launchContents m c) (Proc.devRef .tc main_v34)
      = vOut (m ((c.tc : Thread nD τ).loc main_arg0)) (m ((c.tc : Thread nD τ).loc main_arg1)) := by
  rw [ops_split, after_append, after_append, after_append, after_append, after_append, segE_v34, segD_v22, segD_v9, segC2_v9,
    segC2_arg1, segC1_v0, segC1_v8, segC1_arg1, segB_v8, segB_arg1, segA_v4, segA_arg1, vOut_eq, vLogp_eq, vSim_eq]

end Cert.ReferenceIdeal.Hand

end
-- ==== Proof.RefRead1.lean ====
/-
  The reference's first stages read at an index, at the ideal values: a row's clamped norm, the normalised rows, and the
  similarities — the normalised rows' inner products divided by the temperature word. Each is the specification's term
  (`Cert.Spec.nrm`, `en`, `simR`).

  The host's sum of a matrix along its columns from the zero scalar is the plain sum of the row; a vector placed as a
  column and a column laid over the columns read the entry of the same row; a scalar broadcast reads the scalar.
-/
import proofs.«123914_j68728066671109_1_alg».proof.Proof.RefStageDefs
import proofs.«123914_j68728066671109_1_alg».proof.Proof.Spec
import proofs.«123914_j68728066671109_1_alg».proof.Proof.LibDenseRows
import proofs.«123914_j68728066671109_1_alg».proof.Proof.LibColumnLayout
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-! ## General readings -/

/-- The source index of a column reduction: row `r` with column `k` put back. -/
theorem lift_cols {M N : ℕ} (h : (⟨2, ![M, N]⟩ : Shape).Reduces [(1 : Fin 2)] ⟨1, ![M]⟩) (r : Fin M) (k : Fin N) :
    h.lift (ix1 r) k = ix2 r k := by
  funext a
  match a with
  | ⟨0, _⟩ => exact Fin.ext rfl
  | ⟨1, _⟩ => exact Fin.ext rfl

/-- The zero scalar read at its one index is zero. -/
theorem zero_scalar_apply (hu : 0 < (⟨0, ![]⟩ : Shape).numel) :
    constant (F := Ideal) (⟨0, ![]⟩ : Shape) .f32 0x00000000#32 (Shape.Idx.first hu) = (0 : EReal) :=
  Ideal.ofBits_zero_f32

/-- The host's sum along the columns of `[M, N]` from the zero scalar, at row `r`: the sum of the row. -/
theorem hostRowSum0_apply {M N : ℕ} (x : FVec Ideal ⟨2, ![M, N]⟩ .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩) (r : Fin M) :
    Host.reduceAdd x (constant (F := Ideal) (⟨0, ![]⟩ : Shape) .f32 0x00000000#32) h' hu (ix1 r)
      = ∑ k : Fin N, x (ix2 r k) := by
  rw [Cert.DenseRows.hostRowSum_apply x _ h' hu h (lift_cols h) r, zero_scalar_apply, zero_add]

/-- A scalar word broadcast to any shape reads the word's value everywhere. -/
theorem scalarConst_apply {T : Shape} (w : BitVec 32) (h : (⟨0, ![]⟩ : Shape).BroadcastsInDim T ![]) (j : T.Idx) :
    broadcastInDim T ![] h (constant (F := Ideal) (⟨0, ![]⟩ : Shape) .f32 w) j = Ideal.ofBits .f32 w :=
  broadcastInDim_scalar_apply h _ j

/-- A vector placed as a column and laid over the columns of `[M, N]` reads, at `(r, c)`, the vector at `r`. -/
theorem colOver_apply {α : Type} {M N : ℕ} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (r : Fin M) (c : Fin N) :
    broadcastInDim ⟨2, ![M, N]⟩ ![0, 1] h2 (broadcastInDim ⟨2, ![M, 1]⟩ ![0] h1 v) (ix2 r c) = v (ix1 r) :=
  (Cert.DenseRows.broadcastInDim_a1_ab_apply _ h2 r c).trans (Cert.DenseRows.broadcastInDim_a_a1_apply v h1 r 0)

/-- The host's square root, exponential, logarithm and negation at an index are the ideal instance's of the element. -/
theorem hostSqrt_apply {s : Shape} (x : FVec Ideal s .f32) (i : s.Idx) : Host.sqrt x i = Ideal.sqrt (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl
theorem hostNegf_apply {s : Shape} (x : FVec Ideal s .f32) (i : s.Idx) : Host.negf x i = -(x i) := rfl

/-! ## The stages -/

/-- A row's clamped norm. -/
theorem vNorm_apply (E : FVec Ideal S8192x256 .f32) (i : Fin 8192) :
    vNorm E (ix2 i (0 : Fin 1)) = Cert.Spec.nrm E i := by
  unfold vNorm Cert.Spec.nrm Cert.Spec.eps
  rw [maximumf_apply, scalarConst_apply]
  refine congrArg (fun t => max t (Ideal.ofBits .f32 0x2B8CBCCC#32)) ?_
  rw [hostSqrt_apply, Cert.DenseRows.broadcastInDim_a_a1_apply,
    hostRowSum0_apply (M := 8192) (N := 256) (mulf E E) _ _ (by decide) i]
  rfl

/-- The normalised rows. -/
theorem vEn_apply (E : FVec Ideal S8192x256 .f32) (i : Fin 8192) (d : Fin 256) :
    vEn E (ix2 i d) = Cert.Spec.en E i d := by
  unfold vEn Cert.Spec.en
  rw [hostDivf_apply, Cert.DenseRows.broadcastInDim_a1_ab_apply, vNorm_apply]

/-- The similarities. -/
theorem vSim_apply (E : FVec Ideal S8192x256 .f32) (i j : Fin 8192) :
    vSim E (ix2 i j) = Cert.Spec.simR E i j := by
  unfold vSim Cert.Spec.simR Cert.Spec.dotp Cert.Spec.tempD
  rw [hostDivf_apply, scalarConst_apply]
  refine congrArg (fun t => Ideal.div t (Ideal.ofBits .f32 0x3D8F5C29#32)) ?_
  refine (Cert.DenseRows.dotGeneral_plain_apply (M := 8192) (K := 256) (N := 8192)
    dot_S8192x256_S256x8192_S8192x8192_1_0_0_1_n_n rfl rfl rfl rfl (fun _ _ => rfl) (fun _ _ => rfl) (vEn E) _ i j).trans ?_
  refine Finset.sum_congr rfl fun d _ => ?_
  rw [transpose_ix2_apply (a := 8192) (b := 256), vEn_apply, vEn_apply]

end Cert.ReferenceIdeal.Hand

end
-- ==== Proof.RefRead2.lean ====
/-
  The reference's row-wise log-softmax read at an index, at the ideal values: each row's maximum similarity (the fold of
  `max` from minus infinity), the similarities shifted by it, the logarithm of the row's sum of exponentials of the
  shifted similarities, and their difference.
-/
import proofs.«123914_j68728066671109_1_alg».proof.Proof.RefRead1

noncomputable section

namespace Cert.ReferenceIdeal.Hand

open Cert.ReferenceIdeal Cert.ReferenceIdeal.Gen Idealize.ShloMosaic Idealize.ShloMosaic.ValueIdx
open scoped BigOperators

/-- The word of minus infinity denotes the bottom of the extended reals. -/
theorem ofBits_ninf : Ideal.ofBits .f32 0xFF800000#32 = (⊥ : EReal) := by
  simp [Ideal.ofBits, Ideal.ieee]

/-- The host's maximum along the columns of `[M, N]` from the scalar word `w`, at row `r`: the fold of `max`, from the
    word's value, over the row. -/
theorem hostRowMax_apply {M N : ℕ} (x : FVec Ideal ⟨2, ![M, N]⟩ .f32) (w : BitVec 32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩) (r : Fin M) :
    Host.reduce FloatOps.maximumf x (constant (F := Ideal) (⟨0, ![]⟩ : Shape) .f32 w) h' hu (ix1 r)
      = (Finset.univ : Finset (Fin N)).fold max (Ideal.ofBits .f32 w) (fun k => x (ix2 r k)) := by
  refine (Host.reduce_eq_fold_single FloatOps.maximumf x _ h' h hu (ix1 r)).trans ?_
  have e : (x ∘ h.lift (ix1 r)) = fun k : Fin N => x (ix2 r k) := funext fun k => congrArg x (lift_cols h r k)
  rw [e]
  rfl

/-- The maximum of row `i`'s similarities. -/
def rowMax (E : Cert.Spec.Emb) (i : Fin 8192) : EReal :=
  (Finset.univ : Finset (Fin 8192)).fold max ⊥ (fun j => Cert.Spec.simR E i j)

/-- The logarithm of row `i`'s sum of exponentials of the shifted similarities. -/
def rowLse (E : Cert.Spec.Emb) (i : Fin 8192) : EReal :=
  Ideal.log (∑ j : Fin 8192, Ideal.exp (Cert.Spec.simR E i j - rowMax E i))

/-- Each row's maximum. -/
theorem vMax_apply (E : FVec Ideal S8192x256 .f32) (i : Fin 8192) : vMax E (ix1 i) = rowMax E i := by
  unfold vMax rowMax
  rw [maximumf_apply, scalarConst_apply, hostRowMax_apply (M := 8192) (N := 8192) (vSim E) _ _ _ (by decide) i,
    ofBits_ninf, bot_sup_eq]
  refine congrArg (Finset.fold max ⊥ · Finset.univ) (funext fun j => vSim_apply E i j)

/-- The shifted similarities. -/
theorem vShift_apply (E : FVec Ideal S8192x256 .f32) (i j : Fin 8192) :
    vShift E (ix2 i j) = Cert.Spec.simR E i j - rowMax E i := by
  unfold vShift
  rw [subf_apply, colOver_apply, vSim_apply, vMax_apply]

/-- The logarithm of each row's sum of exponentials. -/
theorem vLse_apply (E : FVec Ideal S8192x256 .f32) (i : Fin 8192) :
    vLse E (ix2 i (0 : Fin 1)) = rowLse E i := by
  unfold vLse rowLse
  rw [hostLog_apply, Cert.DenseRows.broadcastInDim_a_a1_apply,
    hostRowSum0_apply (M := 8192) (N := 8192) (Host.exp (vShift E)) _ _ (by decide) i]
  refine congrArg Ideal.log (Finset.sum_congr rfl fun j _ => ?_)
  rw [hostExp_apply, vShift_apply]

/-- The log-softmax. -/
theorem vLogp_apply (E : FVec Ideal S8192x256 .f32) (i j : Fin 8192) :
    vLogp E (ix2 i j) = (Cert.Spec.simR E i j - rowMax E i) - rowLse E i := by
  unfold vLogp
  rw [subf_apply, Cert.DenseRows.broadcastInDim_a1_ab_apply, vShift_apply, vLse_apply]

end Cert.ReferenceIdeal.Hand

end
-- ==== Proof.RefRead3.lean ====
/-
  The reference's mask read at an index: column `j` is a positive of row `i` when the two labels agree and `i ≠ j` — the
  host compares the two row numbers as 32-bit words, which differ exactly when the numbers do, both being below `2^32` —
  and the mask as a float is the bit's weight, one or zero.
-/
import proofs.«123914_j68728066671109_1_alg».proof.Proof.RefRead1
import Idealize.ShloMosaic.Lib.KernelVsHost

noncomputable section

namespace Cert.ReferenceIdeal.Hand

open Cert.ReferenceIdeal Cert.ReferenceIdeal.Gen Idealize.ShloMosaic Idealize.ShloMosaic.ValueIdx

/-- Two naturals below `2^32` have the same 32-bit word exactly when they are equal. -/
theorem ofNat32_inj {a b : ℕ} (ha : a < 4294967296) (hb : b < 4294967296) :
    BitVec.ofNat 32 a = BitVec.ofNat 32 b ↔ a = b := by
  constructor
  · intro h
    have h' := congrArg BitVec.toNat h
    rw [BitVec.toNat_ofNat, BitVec.toNat_ofNat] at h'
    have e : (2 : ℕ) ^ 32 = 4294967296 := by norm_num
    rw [e, Nat.mod_eq_of_lt ha, Nat.mod_eq_of_lt hb] at h'
    exact h'
  · intro h; rw [h]

/-- The equality bit of two words and the complement of the equality bit of two row numbers, conjoined: the bit of
    "the words agree and the numbers differ". -/
theorem maskBit_eq (a b : BitVec 32) {i j : ℕ} (hi : i < 4294967296) (hj : j < 4294967296) :
    IntOp.andi (IntOp.cmpi .eq a b) (~~~ (IntOp.cmpi .eq (IntOp.addi (BitVec.ofNat 32 i) 0#32) (BitVec.ofNat 32 j)))
      = BitVec.ofBool (decide (a = b) && decide (i ≠ j)) := by
  have hb1 : (a == b) = decide (a = b) := by
    by_cases h : a = b
    · subst h; simp
    · rw [decide_eq_false h]; exact beq_eq_false_iff_ne.mpr h
  have hb2 : (BitVec.ofNat 32 i == BitVec.ofNat 32 j) = decide (i = j) := by
    by_cases h : i = j
    · subst h; simp
    · rw [decide_eq_false h]; exact beq_eq_false_iff_ne.mpr fun e => h ((ofNat32_inj hi hj).mp e)
  have hb3 : decide (i ≠ j) = !decide (i = j) := by
    by_cases h : i = j
    · subst h; simp
    · simp [h]
  show BitVec.ofBool (a == b) &&& ~~~ BitVec.ofBool (BitVec.ofNat 32 i + 0#32 == BitVec.ofNat 32 j) = _
  rw [BitVec.add_zero, hb1, hb2, hb3]
  generalize decide (a = b) = x
  generalize decide (i = j) = y
  cases x <;> cases y <;> decide

/-- The mask bit at `(i, j)`. -/
theorem vMaskBits_apply (Lb : IVec S8192 32) (i j : Fin 8192) :
    vMaskBits Lb (ix2 i j) = BitVec.ofBool (Cert.Spec.maskb Lb i j) := by
  have e1 : broadcastInDim S8192x8192 ![0, 1] bcast_S8192x1_S8192x8192_0_1
      (broadcastInDim S8192x1 ![0] bcast_S8192_S8192x1_0 Lb) (ix2 i j) = Lb (ix1 i) :=
    colOver_apply Lb _ _ i j
  have e2 : broadcastInDim S8192x8192 ![0, 1] bcast_S1x8192_S8192x8192_0_1
      (broadcastInDim S1x8192 ![1] bcast_S8192_S1x8192_1 Lb) (ix2 i j) = Lb (ix1 j) :=
    (broadcastInDim_oneRow_apply _ _ i j).trans (Cert.DenseRows.broadcastInDim_a_1a_apply Lb _ 0 j)
  have e3 : broadcastInDim S8192x8192 ![] bcast_S_S8192x8192 (constantI S_ 32 0#32) (ix2 i j) = 0#32 :=
    broadcastInDim_scalar_apply _ _ _
  have hi : i.val < 4294967296 := by have := i.isLt; omega
  have hj : j.val < 4294967296 := by have := j.isLt; omega
  have hne : (i.val ≠ j.val) ↔ (i ≠ j) := not_congr Fin.val_inj
  unfold vMaskBits Cert.Spec.maskb
  show IntOp.andi (IntOp.cmpi .eq _ _) (~~~ (IntOp.cmpi .eq (IntOp.addi (BitVec.ofNat 32 i.val) _) (BitVec.ofNat 32 j.val))) = _
  rw [e1, e2, e3, maskBit_eq _ _ hi hj, decide_eq_decide.mpr hne]

/-- A bit read as an unsigned integer is its weight: `1` where set, `0` elsewhere. -/
theorem uitofp_bit (c : Bool) : FloatOps.uitofp (F := Ideal) .f32 (BitVec.ofBool c) = Cert.SoftmaxRow.wt c := by
  cases c
  · show ((((BitVec.ofBool false).toNat : ℕ) : ℝ) : EReal) = _
    have h : (BitVec.ofBool false).toNat = 0 := by decide
    rw [h]
    simp [Cert.SoftmaxRow.wt]
  · show ((((BitVec.ofBool true).toNat : ℕ) : ℝ) : EReal) = _
    have h : (BitVec.ofBool true).toNat = 1 := by decide
    rw [h]
    simp [Cert.SoftmaxRow.wt]

/-- The mask as a float at `(i, j)`: the weight of the specification's mask bit. -/
theorem vMask_apply (Lb : IVec S8192 32) (i j : Fin 8192) :
    vMask Lb (ix2 i j) = Cert.SoftmaxRow.wt (Cert.Spec.maskb Lb i j) := by
  unfold vMask
  show FloatOps.uitofp (F := Ideal) .f32 (vMaskBits Lb (ix2 i j)) = _
  rw [vMaskBits_apply]
  exact uitofp_bit _

end Cert.ReferenceIdeal.Hand

end
-- ==== Proof.RefRead.lean ====
/-
  The reference's result is the specification's loss.

  From the stages read at an index: each row's count of positives and minus its masked sum of the log-softmax are the
  sums the specification's row loss is written with, the select on "the count is positive" is its `if`, and the mean
  over the 8192 rows divides their sum by the row-count word.
-/
import proofs.«123914_j68728066671109_1_alg».proof.Proof.RefRead2
import proofs.«123914_j68728066671109_1_alg».proof.Proof.RefRead3

noncomputable section

namespace Cert.ReferenceIdeal.Hand

open Cert.ReferenceIdeal Cert.ReferenceIdeal.Gen Idealize.ShloMosaic Idealize.ShloMosaic.ValueIdx
open scoped BigOperators

/-- The word of one denotes one. -/
theorem ofBits_one32 : Ideal.ofBits .f32 0x3F800000#32 = (1 : EReal) :=
  IdealRules.sign_bit.ideal_onePat .f32

/-- A select on a decided comparison is the `if` on the comparison. -/
theorem select_ofBool' {α : Type} (c : Bool) (a b : α) : Scalar.select (BitVec.ofBool c) a b = if c then a else b := by
  cases c
  · exact select_zero a b
  · exact select_one a b

/-- Each row's count of positives. -/
theorem vCnt_apply (Lb : IVec S8192 32) (i : Fin 8192) :
    vCnt Lb (ix1 i) = ∑ j : Fin 8192, Cert.SoftmaxRow.wt (Cert.Spec.maskb Lb i j) := by
  unfold vCnt
  rw [hostRowSum0_apply (M := 8192) (N := 8192) (vMask Lb) _ _ (by decide) i]
  exact Finset.sum_congr rfl fun j _ => vMask_apply Lb i j

/-- Minus each row's masked sum of the log-softmax. -/
theorem vPosSum_apply (E : FVec Ideal S8192x256 .f32) (Lb : IVec S8192 32) (i : Fin 8192) :
    vPosSum E Lb (ix1 i)
      = -(∑ j : Fin 8192, ((Cert.Spec.simR E i j - rowMax E i) - rowLse E i) * Cert.SoftmaxRow.wt (Cert.Spec.maskb Lb i j)) := by
  unfold vPosSum
  rw [hostNegf_apply, hostRowSum0_apply (M := 8192) (N := 8192) (mulf (vLogp E) (vMask Lb)) _ _ (by decide) i]
  refine congrArg Neg.neg (Finset.sum_congr rfl fun j _ => ?_)
  rw [mulf_apply, vLogp_apply, vMask_apply]

/-- Each row's loss. -/
theorem vRow_apply (E : FVec Ideal S8192x256 .f32) (Lb : IVec S8192 32) (i : Fin 8192) :
    vRow E Lb (ix1 i) = Cert.Spec.rowLoss E Lb i := by
  unfold vRow
  rw [select_apply, cmpf_apply, hostDivf_apply, maximumf_apply, id_eq, scalarConst_apply, scalarConst_apply,
    Ideal.ofBits_zero_f32, ofBits_one32, vCnt_apply, vPosSum_apply]
  show Scalar.select (Ideal.cmp .ogt _ 0) _ 0 = _
  unfold Ideal.cmp
  rw [select_ofBool']
  simp only [decide_eq_true_eq]
  rfl

/-- A sum over the indices of a vector is the sum over its coordinate. -/
theorem sum_idx1 {n : ℕ} (f : (⟨1, ![n]⟩ : Shape).Idx → EReal) : ∑ i, f i = ∑ a : Fin n, f (ix1 a) := by
  let e : (⟨1, ![n]⟩ : Shape).Idx ≃ Fin n := ⟨fun i => i 0, fun a => ix1 a, fun i => (eq_ix1 i).symm, fun _ => rfl⟩
  exact (Equiv.sum_comp e.symm f).symm

/-- The reference's result: the specification's loss, at the scalar's one index. -/
theorem vOut_eq_G (E : FVec Ideal S8192x256 .f32) (Lb : IVec S8192 32) : vOut E Lb = fun _ => Cert.Spec.G E Lb := by
  funext j
  unfold vOut Cert.Spec.G Cert.Spec.nRows
  rw [hostDivf_apply]
  refine congrArg (fun t => Ideal.div t (Ideal.ofBits .f32 0x46000000#32)) ?_
  rw [hostReduceAdd_apply, Ideal.hostReduceAdd_total reducesTo_S8192_S_d0 (fun b => b.elim0) (vRow E Lb) _ j,
    zero_scalar_apply, zero_add, sum_idx1]
  exact Finset.sum_congr rfl fun k _ => vRow_apply E Lb k

end Cert.ReferenceIdeal.Hand

end
-- ==== Proof.Preserves.lean ====
/-
  The one rewrite of the ideal pass: the kernel's scale word `14.285714149475098` is read as the name "inv_temp", which
  the certificate's table gives the value `2^27 / 9395241` — the exact reciprocal of the reference's temperature word.
-/
import proofs.«123914_j68728066671109_1_alg».proof.Defs

noncomputable section

namespace Cert.Proof

open Idealize.ShloMosaic

theorem preserves : Cert.preserves_Kernel_KernelIdeal :=
  IdealRules.named_const.statement Cert.KernelIdeal.κ "inv_temp" .f32 0x41649249#32 ((134217728 / 9395241 : ℝ) : EReal) rfl

end Cert.Proof

end
-- ==== Proof.PreFinite.lean ====
/-
  The precondition, read at an entry: `finite_inputs` says `all (|E| < +∞)`, so every entry of the embeddings is neither
  `+∞` nor `-∞` — it is a real number. (`|x| = max x (-x) < ⊤` bounds both `x` and `-x` away from `⊤`.)
-/
import proofs.«123914_j68728066671109_1_alg».proof.Pre_finite_inputs
import Idealize.ShloMosaic.Lib.ReduceAll
import Idealize.ShloMosaic.Lib.ValueIdx

noncomputable section

namespace Cert.PreFinite

open Idealize.ShloMosaic Idealize.ShloMosaic.ValueIdx

instance : Subsingleton Cert.Pre_finite_inputs.S_.Idx := ⟨fun _ _ => funext fun d => d.elim0⟩

/-- The word `0x7F800000` denotes `+∞`. -/
theorem ofBits_pinf : Ideal.ofBits .f32 0x7F800000#32 = ⊤ := by simp [Ideal.ofBits, Ideal.ieee]

/-- Under the precondition every entry of the embeddings is a real number. -/
theorem entry_real [Cert.Pre_finite_inputs.Facts] (E : FVec Ideal Cert.Pre_finite_inputs.S8192x256 .f32)
    (Lb : IVec Cert.Pre_finite_inputs.S8192 32) (h : Cert.Pre_finite_inputs.fn (F := Ideal) E Lb = fun _ => 1#1)
    (x : Cert.Pre_finite_inputs.S8192x256.Idx) : ∃ r : ℝ, E x = (r : EReal) := by
  have h0 := congrFun h ix0
  dsimp only [Cert.Pre_finite_inputs.fn] at h0
  have hx := Host.reduce_andi_all _ _ _ _ _ h0 x
  rw [cmpf_apply] at hx
  have hx' : Ideal.cmp .olt (max (E x) (-(E x))) (Ideal.ofBits .f32 0x7F800000#32) = 1#1 := hx
  rw [ofBits_pinf] at hx'
  have hlt : max (E x) (-(E x)) < ⊤ := by
    by_contra hc
    simp only [Ideal.cmp, hc, decide_false, BitVec.ofBool_false] at hx'
    exact absurd hx' (by decide)
  have h1 : E x < ⊤ := lt_of_le_of_lt (le_max_left _ _) hlt
  have h2 : -(E x) < ⊤ := lt_of_le_of_lt (le_max_right _ _) hlt
  have h3 : E x ≠ ⊥ := by
    intro hb; rw [hb] at h2; simp at h2
  exact ⟨(E x).toReal, (EReal.coe_toReal h1.ne h3).symm⟩

end Cert.PreFinite

end
-- ==== Proof.Claims.lean ====
/-
  The five claims, assembled.

  * The three frames: each kernel program's run (at the word-level values and at the ideal ones) and the reference's run
    end with the argument arrays as they were.
  * The idealization's one rewrite: the kernel's scale word read as the exact reciprocal of the reference's temperature word.
  * The two idealized programs' results agree: the kernel's result buffer ends at the mean of the rows' losses
    (`Cert.Spec.G` of the argument arrays — through the tile recurrence, which needs every embedding entry to be a real
    number: the precondition), and the reference's result is the same function of its arguments, which agree with the
    kernel's.
-/
import proofs.«123914_j68728066671109_1_alg».proof.Defs
import proofs.«123914_j68728066671109_1_alg».proof.Proof.KernelRun
import proofs.«123914_j68728066671109_1_alg».proof.Proof.KernelFinal
import proofs.«123914_j68728066671109_1_alg».proof.Proof.RefStages
import proofs.«123914_j68728066671109_1_alg».proof.Proof.RefRead
import proofs.«123914_j68728066671109_1_alg».proof.Proof.Preserves
import proofs.«123914_j68728066671109_1_alg».proof.Proof.PreFinite

noncomputable section

namespace Cert.Proof

open Idealize.ShloMosaic Idealize.ShloMosaic.TcCoe Idealize.SL.Sem

theorem frame_k : Cert.frame_Kernel := fun m ρ _ => Cert.Kernel.HandFrame.frame (F := Bits) m ρ

theorem frame_ki : Cert.frame_KernelIdeal := fun m ρ _ => Cert.KernelIdeal.HandFrame.frame (F := Ideal) m ρ

theorem frame_ri : Cert.frame_ReferenceIdeal := Cert.ReferenceIdeal.Hand.frame

theorem algebraic : Cert.algebraic_KernelIdeal_ReferenceIdeal := by
  intro m ρ m' ρ' hpre hagree
  refine ⟨fun c _ => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun r h c => ⟨(h c).1.trans ?_, (h c).2⟩)
      (Cert.KernelIdeal.HandFrame.run_main (F := Ideal) m ρ)
    choose f hf using fun x => Cert.PreFinite.entry_real _ _ (hpre c) x
    exact Cert.KernelIdeal.HandFrame.result_eq m c f hf
  · refine (θ_run (Cert.ReferenceIdeal.defs (F := Ideal)) _ _).mono (fun r h c => ⟨(h c).1.trans ?_, (h c).2⟩)
      (Cert.ReferenceIdeal.Hand.run (F := Ideal) m' ρ')
    rw [Cert.ReferenceIdeal.Hand.after_eq, Cert.ReferenceIdeal.Hand.vOut_eq_G, (hagree c).1, (hagree c).2]
    rfl

end Cert.Proof

end
-- ==== Proof.lean ====
/-
  A supervised-contrastive loss on 8192 embeddings of dimension 256, computed two ways, is one function of the inputs
  over the extended reals.

  Both programs normalise each row by `max (‖e‖) ε`, take the similarity of rows `i` and `j` as the normalised rows' inner
  product over the temperature, and give row `i` the loss `-(∑_j logsoftmax(s_i)_j · b_ij) / max (∑_j b_ij) 1` (zero when the
  row has no positive), `b_ij` marking the columns `j ≠ i` with row `i`'s label; the result is the mean over the rows.
  The reference takes the log-softmax of each whole row of 8192 similarities. The kernel never forms the row: at each of 8
  grid points it holds 1024 query rows and folds the 8192 keys in 16 tiles of 512, carrying per row a running maximum,
  a sum of exponentials rescaled whenever the maximum moves, the masked sum of similarities and the mask count, and closes
  with `(m + log l) - masked sum / max count 1`. On finite similarities the recurrence ends at the whole-row formula
  (`exp (m - m') · exp (s - m) = exp (s - m')`, and the masked mean of `(s - M) - log S` is the masked mean of `s` less
  `M + log S`); the similarities are finite because the precondition makes every embedding entry a real number and the
  clamp `ε` is positive. The kernel multiplies by a scale word that is read as the exact reciprocal of the reference's
  temperature word, so the two scalings are one.

  The modules: Spec (the loss as a function of the arrays) and SpecLaws; LibSoftmaxRow / LibOnlineSoftmax (one row, whole
  and tile by tile, and their equality); KernelPay1–7, KernelTrip, KernelState, KernelBlocks, KernelFinal (the kernel's
  stored value, row by row, and its output array); KernelBody / KernelRun and KernelIdealBody / KernelIdealRun (the two
  kernel programs' runs: one array is read through two windows, a block of rows and the whole, each holding half of it);
  RefRun, RefStageDefs, RefStages, RefRead (the reference's run and its result read stage by stage); PreFinite (the
  precondition at an entry); Preserves; Claims (the five claims).
-/
import proofs.«123914_j68728066671109_1_alg».proof.Defs
import proofs.«123914_j68728066671109_1_alg».proof.Proof.Gen.Kernel
import proofs.«123914_j68728066671109_1_alg».proof.Proof.Gen.KernelIdeal
import proofs.«123914_j68728066671109_1_alg».proof.Proof.Gen.ReferenceIdeal
import proofs.«123914_j68728066671109_1_alg».proof.Proof.Gen.Pre_finite_inputs
import proofs.«123914_j68728066671109_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
